-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S4x32 : Shape := ⟨2, ![4, 32]⟩
abbrev S32 : Shape := ⟨1, ![32]⟩
abbrev S32x4 : Shape := ⟨2, ![32, 4]⟩
abbrev S4 : Shape := ⟨1, ![4]⟩
abbrev S1x4x32 : Shape := ⟨3, ![1, 4, 32]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_
  bcast_S_S1x4x32 : S_.BroadcastsInDim S1x4x32 (![] : Fin 0 → Fin S1x4x32.rank)
  reducesTo_S1x4x32_S_d0_1_2 : S1x4x32.ReducesTo [0, 1, 2] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_c_19 : IVec S_ 1 := constantI S_ 1 1#1
  let main_v53 : IVec S_ 1 := (fun x v => Host.reduce IntOp.andi x v reducesTo_S1600000_S_d0 h_S_) main_v52 main_c_19
  let main_v54 : IVec S_ 1 := andi main_v48 main_v53
  let main_v55 : IVec S1x1600000 32 := (extractStridedSlice S1x1600000 ![0, 0] · slices_S2x1600000_S1x1600000_0_0) main_arg1
  let main_v56 : IVec S1600000 32 := shapeCast S1600000 main_v55 shapeCasts_S1x1600000_S1600000
  let main_c_20 : IVec S_ 32 := constantI S_ 32 50000#32
  let main_v57 : IVec S1600000 32 := broadcastInDim S1600000 ![] bcast_S_S1600000 main_c_20
  let main_v58 : IVec S1600000 1 := cmpi .slt main_v56 main_v57
  let main_c_21 : IVec S_ 1 := constantI S_ 1 1#1
  let main_v59 : IVec S_ 1 := (fun x v => Host.reduce IntOp.andi x v reducesTo_S1600000_S_d0 h_S_) main_v58 main_c_21
  let main_v60 : IVec S_ 1 := andi main_v54 main_v59
  main_v60

def fn_part2 {F : FTy → Type} [FloatOps F] (main_arg1 : IVec S2x1600000 32) (main_arg8 : FVec F S4 .f32) (main_arg9 : FVec F S1x4x32 .f32) (main_arg10 : FVec F S1x4x32 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S1x4x32 .f32 := Host.absf main_arg9
  let main_cst_14 : FVec F S_ .f32 := constant S_ .f32 0x7F800000#32
  let main_v40 : FVec F S1x4x32 .f32 := broadcastInDim S1x4x32 ![] bcast_S_S1x4x32 main_cst_14
  let main_v41 : IVec S1x4x32 1 := cmpf .olt main_v39 main_v40
  let main_c_15 : IVec S_ 1 := constantI S_ 1 1#1
  let main_v42 : IVec S_ 1 := (fun x v => Host.reduce IntOp.andi x v reducesTo_S1x4x32_S_d0_1_2 h_S_) main_v41 main_c_15
  let main_v43 : IVec S_ 1 := andi main_v38 main_v42
  let main_v44 : FVec F S1x4x32 .f32 := Host.absf main_arg10
  let main_cst_16 : FVec F S_ .f32 := constant S_ .f32 0x7F800000#32
  let main_v45 : FVec F S1x4x32 .f32 := broadcastInDim S1x4x32 ![] bcast_S_S1x4x32 main_cst_16
  let main_v46 : IVec S1x4x32 1 := cmpf .olt main_v44 main_v45
  let main_c_17 : IVec S_ 1 := constantI S_ 1 1#1
  let main_v47 : IVec S_ 1 := (fun x v => Host.reduce IntOp.andi x v reducesTo_S1x4x32_S_d0_1_2 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_v48 main_v50 main_c_18

def fn_part1 {F : FTy → Type} [FloatOps F] (main_arg1 : IVec S2x1600000 32) (main_arg5 : FVec F S4x32 .f32) (main_arg6 : FVec F S32 .f32) (main_arg7 : FVec F S32x4 .f32) (main_arg8 : FVec F S4 .f32) (main_arg9 : FVec F S1x4x32 .f32) (main_arg10 : FVec F S1x4x32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x32 .f32 := Host.absf main_arg5
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x4 .f32 := Host.absf main_arg7
  let main_cst_10 : FVec F S_ .f32 := constant S_ .f32 0x7F800000#32
  let main_v30 : FVec F S32x4 .f32 := broadcastInDim S32x4 ![] bcast_S_S32x4 main_cst_10
  let main_v31 : IVec S32x4 1 := cmpf .olt main_v29 main_v30
  let main_c_11 : IVec S_ 1 := constantI S_ 1 1#1
  let main_v32 : IVec S_ 1 := (fun x v => Host.reduce IntOp.andi x v reducesTo_S32x4_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x1600000 32) (main_arg2 : FVec F S1600000x4 .f32) (main_arg3 : FVec F S128x128 .f32) (main_arg4 : FVec F S128 .f32) (main_arg5 : FVec F S4x32 .f32) (main_arg6 : FVec F S32 .f32) (main_arg7 : FVec F S32x4 .f32) (main_arg8 : FVec F S4 .f32) (main_arg9 : FVec F S1x4x32 .f32) (main_arg10 : FVec F S1x4x32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S4x32 : Shape := ⟨2, ![4, 32]⟩
abbrev S32 : Shape := ⟨1, ![32]⟩
abbrev S32x4 : Shape := ⟨2, ![32, 4]⟩
abbrev S4 : Shape := ⟨1, ![4]⟩
abbrev S1x4x32 : Shape := ⟨3, ![1, 4, 32]⟩
abbrev S1x1600000 : Shape := ⟨2, ![1, 1600000]⟩
abbrev S1600000 : Shape := ⟨1, ![1600000]⟩
abbrev S50000x4 : Shape := ⟨2, ![50000, 4]⟩
abbrev S2000x128 : Shape := ⟨2, ![2000, 128]⟩
abbrev S2000x4 : Shape := ⟨2, ![2000, 4]⟩
abbrev S1x128 : Shape := ⟨2, ![1, 128]⟩
abbrev S2000x32 : Shape := ⟨2, ![2000, 32]⟩
abbrev S1x32 : Shape := ⟨2, ![1, 32]⟩
abbrev S2000 : Shape := ⟨1, ![2000]⟩
abbrev S2000x1 : Shape := ⟨2, ![2000, 1]⟩
abbrev S_ : Shape := ⟨0, ![]⟩
abbrev S1600000x1 : Shape := ⟨2, ![1600000, 1]⟩
abbrev S4000x4 : Shape := ⟨2, ![4000, 4]⟩
abbrev S4000x32 : Shape := ⟨2, ![4000, 32]⟩
abbrev S1x4 : Shape := ⟨2, ![1, 4]⟩
abbrev S50000 : Shape := ⟨1, ![50000]⟩
abbrev S50000x1 : Shape := ⟨2, ![50000, 1]⟩
abbrev S1600000x128 : Shape := ⟨2, ![1600000, 128]⟩
abbrev S50000x4x32 : Shape := ⟨3, ![50000, 4, 32]⟩
abbrev S50000x32 : Shape := ⟨2, ![50000, 32]⟩
abbrev S2000x4x32 : Shape := ⟨3, ![2000, 4, 32]⟩
abbrev S2000x4x1 : Shape := ⟨3, ![2000, 4, 1]⟩

abbrev nBuf : Space → Nat
  | .hbm => 95
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x4, .f32⟩
  | .hbm, ⟨3, _⟩ => ⟨S128x128, .f32⟩
  | .hbm, ⟨4, _⟩ => ⟨S128, .f32⟩
  | .hbm, ⟨5, _⟩ => ⟨S4x32, .f32⟩
  | .hbm, ⟨6, _⟩ => ⟨S32, .f32⟩
  | .hbm, ⟨7, _⟩ => ⟨S32x4, .f32⟩
  | .hbm, ⟨8, _⟩ => ⟨S4, .f32⟩
  | .hbm, ⟨9, _⟩ => ⟨S1x4x32, .f32⟩
  | .hbm, ⟨10, _⟩ => ⟨S1x4x32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S4x32, .f32⟩
  | .hbm, ⟨16, _⟩ => ⟨S4x32, .f32⟩
  | .hbm, ⟨17, _⟩ => ⟨S50000x128, .f32⟩
  | .hbm, ⟨18, _⟩ => ⟨S50000x4, .f32⟩
  | .hbm, ⟨19, _⟩ => ⟨S50000x4, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x4, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x4, .f32⟩
  | .hbm, ⟨38, _⟩ => ⟨S1600000x4, .f32⟩
  | .hbm, ⟨39, _⟩ => ⟨S1600000, .i32⟩
  | .hbm, ⟨40, _⟩ => ⟨S_, .i32⟩
  | .hbm, ⟨41, _⟩ => ⟨S50000, .i32⟩
  | .hbm, ⟨42, _⟩ => ⟨S1600000x1, .i32⟩
  | .hbm, ⟨43, _⟩ => ⟨S50000, .i32⟩
  | .hbm, ⟨44, _⟩ => ⟨S_, .i32⟩
  | .hbm, ⟨45, _⟩ => ⟨S50000, .i32⟩
  | .hbm, ⟨46, _⟩ => ⟨S50000, .i1⟩
  | .hbm, ⟨47, _⟩ => ⟨S_, .i32⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000x1, .i1⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S50000x4, .f32⟩
  | .hbm, ⟨61, _⟩ => ⟨S_, .f32⟩
  | .hbm, ⟨62, _⟩ => ⟨S_, .f32⟩
  | .hbm, ⟨63, _⟩ => ⟨S50000x4, .i1⟩
  | .hbm, ⟨64, _⟩ => ⟨S50000x4, .f32⟩
  | .hbm, ⟨65, _⟩ => ⟨S50000x4, .f32⟩
  | .hbm, ⟨66, _⟩ => ⟨S_, .f32⟩
  | .hbm, ⟨67, _⟩ => ⟨S4, .f32⟩
  | .hbm, ⟨68, _⟩ => ⟨S_, .f32⟩
  | .hbm, ⟨69, _⟩ => ⟨S4, .f32⟩
  | .hbm, ⟨70, _⟩ => ⟨S4, .f32⟩
  | .hbm, ⟨71, _⟩ => ⟨S1x4, .f32⟩
  | .hbm, ⟨72, _⟩ => ⟨S50000x4, .f32⟩
  | .hbm, ⟨73, _⟩ => ⟨S50000x4, .f32⟩
  | .hbm, ⟨74, _⟩ => ⟨S50000x4, .f32⟩
  | .hbm, ⟨75, _⟩ => ⟨S_, .f32⟩
  | .hbm, ⟨76, _⟩ => ⟨S4, .f32⟩
  | .hbm, ⟨77, _⟩ => ⟨S1x4, .f32⟩
  | .hbm, ⟨78, _⟩ => ⟨S50000x4, .f32⟩
  | .hbm, ⟨79, _⟩ => ⟨S50000x4, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S50000x128, .f32⟩
  | .hbm, ⟨91, _⟩ => ⟨S1600000x1, .i32⟩
  | .hbm, ⟨92, _⟩ => ⟨S50000x128, .f32⟩
  | .hbm, ⟨93, _⟩ => ⟨S50000x4x32, .f32⟩
  | .hbm, ⟨94, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S4x32, .f32⟩
  | .local _ .vmem, ⟨5, _⟩ => ⟨S4x32, .f32⟩
  | .local _ .vmem, ⟨6, _⟩ => ⟨S2000x128, .f32⟩
  | .local _ .vmem, ⟨7, _⟩ => ⟨S2000x128, .f32⟩
  | .local _ .vmem, ⟨8, _⟩ => ⟨S2000x4, .f32⟩
  | .local _ .vmem, ⟨9, _⟩ => ⟨S2000x4, .f32⟩
  | .local _ .vmem, ⟨10, _⟩ => ⟨S2000x4, .f32⟩
  | .local _ .vmem, ⟨11, _⟩ => ⟨S2000x4, .f32⟩
  | .local _ .vmem, ⟨12, _⟩ => ⟨S4000x4, .f32⟩
  | .local _ .vmem, ⟨13, _⟩ => ⟨S4000x4, .f32⟩
  | .local _ .vmem, ⟨14, _⟩ => ⟨S4000x4, .f32⟩
  | .local _ .vmem, ⟨15, _⟩ => ⟨S4000x4, .f32⟩
  | .local _ .vmem, ⟨16, _⟩ => ⟨S4000x4, .f32⟩
  | .local _ .vmem, ⟨17, _⟩ => ⟨S4000x4, .f32⟩
  | .local _ .vmem, ⟨18, _⟩ => ⟨S4x32, .f32⟩
  | .local _ .vmem, ⟨19, _⟩ => ⟨S32, .f32⟩
  | .local _ .vmem, ⟨20, _⟩ => ⟨S32x4, .f32⟩
  | .local _ .vmem, ⟨21, _⟩ => ⟨S4, .f32⟩
  | .local _ .vmem, ⟨22, _⟩ => ⟨S4000x4, .f32⟩
  | .local _ .vmem, ⟨23, _⟩ => ⟨S4000x4, .f32⟩
  | .local _ .vmem, ⟨24, _⟩ => ⟨S2000x4, .f32⟩
  | .local _ .vmem, ⟨25, _⟩ => ⟨S2000x4, .f32⟩
  | .local _ .vmem, ⟨26, _⟩ => ⟨S2000x4x32, .f32⟩
  | .local _ .vmem, ⟨27, _⟩ => ⟨S2000x4x32, .f32⟩
  | .local _ .vmem, ⟨28, _⟩ => ⟨S2000x32, .f32⟩
  | .local _ .vmem, ⟨29, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_call0_v0 : Ref sig .tc := ⟨.hbm, 48, rfl⟩
abbrev main_call0_v1 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_c_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x4x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1x4x32_S4x32 : S1x4x32.ShapeCasts S4x32
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S4x32_S4x32_0_0 : ∀ a, (![0, 0] : Fin 2 → Nat) a + S4x32.size a ≤ S4x32.size a
  h_S4x32 : 0 < S4x32.numel
  shapeCasts_S4x32_S4x32 : S4x32.ShapeCasts S4x32
  slices_S2000x128_o0_0_S2000x32 : S2000x128.Slices ![0, 0] S2000x32
  slices_S4x32_o0_0_S1x32 : S4x32.Slices ![0, 0] S1x32
  shapeCasts_S1x32_S32 : S1x32.ShapeCasts S32
  shapeCasts_S32_S1x32 : S32.ShapeCasts S1x32
  broadcasts_S1x32_S2000x32 : S1x32.Broadcasts S2000x32
  reduces_S2000x32_S2000 : S2000x32.Reduces [1] S2000
  shapeCasts_S2000_S2000x1 : S2000.ShapeCasts S2000x1
  slices_S2000x128_o0_32_S2000x32 : S2000x128.Slices ![0, 32] S2000x32
  slices_S4x32_o1_0_S1x32 : S4x32.Slices ![1, 0] S1x32
  slices_S2000x128_o0_64_S2000x32 : S2000x128.Slices ![0, 64] S2000x32
  slices_S4x32_o2_0_S1x32 : S4x32.Slices ![2, 0] S1x32
  slices_S2000x128_o0_96_S2000x32 : S2000x128.Slices ![0, 96] S2000x32
  slices_S4x32_o3_0_S1x32 : S4x32.Slices ![3, 0] S1x32
  concatenates_S2000x1_S2000x1_S2000x1_S2000x1_S2000x4_d1 : Shape.Concatenates [S2000x1, S2000x1, S2000x1, S2000x1] S2000x4 1
  inb_S2000x4_S2000x4_0_0 : ∀ a, (![0, 0] : Fin 2 → Nat) a + S2000x4.size a ≤ S2000x4.size a
  h_S2000x4 : 0 < S2000x4.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x4_S4000x4_0_0 : ∀ a, (![0, 0] : Fin 2 → Nat) a + S4000x4.size a ≤ S4000x4.size a
  h_S4000x4 : 0 < S4000x4.numel
  inb_S32_S32_0 : ∀ a, (![0] : Fin 1 → Nat) a + S32.size a ≤ S32.size a
  h_S32 : 0 < S32.numel
  broadcasts_S1x32_S4000x32 : S1x32.Broadcasts S4000x32
  inb_S32x4_S32x4_0_0 : ∀ a, (![0, 0] : Fin 2 → Nat) a + S32x4.size a ≤ S32x4.size a
  h_S32x4 : 0 < S32x4.numel
  inb_S4_S4_0 : ∀ a, (![0] : Fin 1 → Nat) a + S4.size a ≤ S4.size a
  h_S4 : 0 < S4.numel
  shapeCasts_S4_S1x4 : S4.ShapeCasts S1x4
  broadcasts_S1x4_S4000x4 : S1x4.Broadcasts S4000x4
  shapeCasts_S4000x4_S4000x4 : S4000x4.ShapeCasts S4000x4
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x4 : S_.BroadcastsInDim S50000x4 (![] : Fin 0 → Fin S50000x4.rank)
  reducesTo_S50000x4_S4_d0 : S50000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S_S50000x128 : S_.BroadcastsInDim S50000x128 (![] : Fin 0 → Fin S50000x128.rank)
  shapeCasts_S50000x128_S50000x4x32 : S50000x128.ShapeCasts S50000x4x32
  shapeCasts_S2000x4_S2000x4 : S2000x4.ShapeCasts S2000x4
  inb_S2000x4x32_S2000x4x32_0_0_0 : ∀ a, (![0, 0, 0] : Fin 3 → Nat) a + S2000x4x32.size a ≤ S2000x4x32.size a
  h_S2000x4x32 : 0 < S2000x4x32.numel
  shapeCasts_S2000x4x32_S2000x4x32 : S2000x4x32.ShapeCasts S2000x4x32
  shapeCasts_S2000x4_S2000x4x1 : S2000x4.ShapeCasts S2000x4x1
  broadcasts_S2000x4x1_S2000x4x32 : S2000x4x1.Broadcasts S2000x4x32
  reduces_S2000x4x32_S2000x32 : S2000x4x32.Reduces [1] S2000x32
  inb_S2000x32_S2000x32_0_0 : ∀ a, (![0, 0] : Fin 2 → Nat) a + S2000x32.size a ≤ S2000x32.size a
  h_S2000x32 : 0 < S2000x32.numel
  dot_S2000x128_S128x128_S2000x128_1_0_0_1_n_n_wf : DotDims.WF S2000x128 S128x128 S2000x128 [1] [0] [0] [1] [] []
  gather_S50000x4_S1600000x1_S1600000x4_1_0_n_n_0_1_14_wf : GatherDims.WF S50000x4 S1600000x1 S1600000x4 [1] [0] [] [0] [] 1 ![1, 4]
  dot_S4000x4_S4x32_S4000x32_1_0_0_1_n_n_wf : DotDims.WF S4000x4 S4x32 S4000x32 [1] [0] [0] [1] [] []
  dot_S4000x32_S32x4_S4000x4_1_0_0_1_n_n_wf : DotDims.WF S4000x32 S32x4 S4000x4 [1] [0] [0] [1] [] []
  scatter_S50000_S1600000x1_S1600000_n_0_0_1_wf : ScatterDims.WF S50000 S1600000x1 S1600000 [] [0] [0] 1
  gather_S1600000x4_S50000x1_S50000x4_1_0_n_n_0_1_14_wf : GatherDims.WF S1600000x4 S50000x1 S50000x4 [1] [0] [] [0] [] 1 ![1, 4]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32.size a ≤ S4x32.size a
  hwx0_3 : ∀ i : grid0.Coords, EltTy.bits .f32 = 32 ∨ (Rect.block (s := S4x32) S4x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x32.size a ≤ S4x32.size a
  hwx0_4 : ∀ i : grid0.Coords, EltTy.bits .f32 = 32 ∨ (Rect.block (s := S4x32) S4x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S50000x4.size a
  hwx0_6 : ∀ i : grid0.Coords, EltTy.bits .f32 = 32 ∨ (Rect.block (s := S50000x4) S2000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S50000x4.size a
  hwx0_7 : ∀ i : grid0.Coords, EltTy.bits .f32 = 32 ∨ (Rect.block (s := S50000x4) S2000x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S1600000x4.size a
  hwx1_0 : ∀ i : grid1.Coords, EltTy.bits .f32 = 32 ∨ (Rect.block (s := S1600000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S1600000x4.size a
  hwx1_1 : ∀ i : grid1.Coords, EltTy.bits .f32 = 32 ∨ (Rect.block (s := S1600000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S1600000x4.size a
  hwx1_2 : ∀ i : grid1.Coords, EltTy.bits .f32 = 32 ∨ (Rect.block (s := S1600000x4) S4000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x32.size a ≤ S4x32.size a
  hwx1_3 : ∀ i : grid1.Coords, EltTy.bits .f32 = 32 ∨ (Rect.block (s := S4x32) S4x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x4.size a ≤ S32x4.size a
  hwx1_5 : ∀ i : grid1.Coords, EltTy.bits .f32 = 32 ∨ (Rect.block (s := S32x4) S32x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4.size a ≤ S4.size a
  hwx1_6 : ∀ i : grid1.Coords, EltTy.bits .f32 = 32 ∨ (Rect.block (s := S4) S4.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x4.size a ≤ S1600000x4.size a
  hwx1_7 : ∀ i : grid1.Coords, EltTy.bits .f32 = 32 ∨ (Rect.block (s := S1600000x4) S4000x4.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x4.size a ≤ S50000x4.size a
  hwx2_0 : ∀ i : grid2.Coords, EltTy.bits .f32 = 32 ∨ (Rect.block (s := S50000x4) S2000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x4x32.size a ≤ S50000x4x32.size a
  hwx2_1 : ∀ i : grid2.Coords, EltTy.bits .f32 = 32 ∨ (Rect.block (s := S50000x4x32) S2000x4x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S50000x32.size a
  hwx2_2 : ∀ i : grid2.Coords, EltTy.bits .f32 = 32 ∨ (Rect.block (s := S50000x32) S2000x32.size (cc2_transform_2 i) (hinb2_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def dot_S4000x4_S4x32_S4000x32_1_0_0_1_n_n : DotDims S4000x4 S4x32 S4000x32 where
  lhsContracting := [1]
  rhsContracting := [0]
  lhsNonContracting := [0]
  rhsNonContracting := [1]
  lhsBatch := []
  rhsBatch := []
  wf := dot_S4000x4_S4x32_S4000x32_1_0_0_1_n_n_wf
def dot_S4000x32_S32x4_S4000x4_1_0_0_1_n_n : DotDims S4000x32 S32x4 S4000x4 where
  lhsContracting := [1]
  rhsContracting := [0]
  lhsNonContracting := [0]
  rhsNonContracting := [1]
  lhsBatch := []
  rhsBatch := []
  wf := dot_S4000x32_S32x4_S4000x4_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S1600000x4_S50000x1_S50000x4_1_0_n_n_0_1_14 : GatherDims S1600000x4 S50000x1 S50000x4 where
  offsetDims := [1]
  collapsedSliceDims := [0]
  operandBatchingDims := []
  startIndicesBatchingDims := []
  startIndexMap := [0]
  indexVectorDim := 1
  sliceSizes := ![1, 4]
  wf := gather_S1600000x4_S50000x1_S50000x4_1_0_n_n_0_1_14_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S2000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S4x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S4000x4.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v48) S2000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S2000x4x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x4 : Shape := ⟨2, ![1600000, 4]⟩
abbrev S128x128 : Shape := ⟨2, ![128, 128]⟩
abbrev S128 : Shape := ⟨1, ![128]⟩
abbrev S4x32 : Shape := ⟨2, ![4, 32]⟩
abbrev S32 : Shape := ⟨1, ![32]⟩
abbrev S32x4 : Shape := ⟨2, ![32, 4]⟩
abbrev S4 : Shape := ⟨1, ![4]⟩
abbrev S1x4x32 : Shape := ⟨3, ![1, 4, 32]⟩
abbrev S1x1600000 : Shape := ⟨2, ![1, 1600000]⟩
abbrev S1600000 : Shape := ⟨1, ![1600000]⟩
abbrev S1x128 : Shape := ⟨2, ![1, 128]⟩
abbrev S50000x4x32 : Shape := ⟨3, ![50000, 4, 32]⟩
abbrev S_ : Shape := ⟨0, ![]⟩
abbrev S1600000x1 : Shape := ⟨2, ![1600000, 1]⟩
abbrev S1600000x4x32 : Shape := ⟨3, ![1600000, 4, 32]⟩
abbrev S1600000x32 : Shape := ⟨2, ![1600000, 32]⟩
abbrev S1x32 : Shape := ⟨2, ![1, 32]⟩
abbrev S1x4 : Shape := ⟨2, ![1, 4]⟩
abbrev S50000 : Shape := ⟨1, ![50000]⟩
abbrev S50000x1 : Shape := ⟨2, ![50000, 1]⟩
abbrev S50000x4 : Shape := ⟨2, ![50000, 4]⟩
abbrev S1600000x4x1 : Shape := ⟨3, ![1600000, 4, 1]⟩
abbrev S50000x32 : Shape := ⟨2, ![50000, 32]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x1600000, .i32⟩
  | 2 => ⟨S1600000x4, .f32⟩
  | 3 => ⟨S128x128, .f32⟩
  | 4 => ⟨S128, .f32⟩
  | 5 => ⟨S4x32, .f32⟩
  | 6 => ⟨S32, .f32⟩
  | 7 => ⟨S32x4, .f32⟩
  | 8 => ⟨S4, .f32⟩
  | 9 => ⟨S1x4x32, .f32⟩
  | 10 => ⟨S1x4x32, .f32⟩
  | 11 => ⟨S1x1600000, .i32⟩
  | 12 => ⟨S1600000, .i32⟩
  | 13 => ⟨S1x1600000, .i32⟩
  | 14 => ⟨S1600000, .i32⟩
  | 15 => ⟨S50000x128, .f32⟩
  | 16 => ⟨S1x128, .f32⟩
  | 17 => ⟨S50000x128, .f32⟩
  | 18 => ⟨S50000x128, .f32⟩
  | 19 => ⟨S50000x4x32, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x4x32, .f32⟩
  | 29 => ⟨S1600000x4x32, .f32⟩
  | 30 => ⟨S1600000x4x32, .f32⟩
  | 31 => ⟨S_, .f32⟩
  | 32 => ⟨S1600000x4, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x4x32, .f32⟩
  | 42 => ⟨S1600000x4x32, .f32⟩
  | 43 => ⟨S1600000x4x32, .f32⟩
  | 44 => ⟨S_, .f32⟩
  | 45 => ⟨S1600000x4, .f32⟩
  | 46 => ⟨S1600000x32, .f32⟩
  | 47 => ⟨S1x32, .f32⟩
  | 48 => ⟨S1600000x32, .f32⟩
  | 49 => ⟨S1600000x32, .f32⟩
  | 50 => ⟨S_, .f32⟩
  | 51 => ⟨S1600000x32, .f32⟩
  | 52 => ⟨S1600000x32, .f32⟩
  | 53 => ⟨S1600000x4, .f32⟩
  | 54 => ⟨S1x4, .f32⟩
  | 55 => ⟨S1600000x4, .f32⟩
  | 56 => ⟨S1600000x4, .f32⟩
  | 57 => ⟨S1600000x4, .f32⟩
  | 58 => ⟨S1600000x4, .f32⟩
  | 59 => ⟨S_, .f32⟩
  | 60 => ⟨S_, .f32⟩
  | 61 => ⟨S1600000x4, .f32⟩
  | 62 => ⟨S1600000x4, .i1⟩
  | 63 => ⟨S_, .f32⟩
  | 64 => ⟨S1600000x4, .f32⟩
  | 65 => ⟨S1600000x4, .f32⟩
  | 66 => ⟨S1600000x4, .f32⟩
  | 67 => ⟨S1600000, .i32⟩
  | 68 => ⟨S_, .i32⟩
  | 69 => ⟨S50000, .i32⟩
  | 70 => ⟨S1600000x1, .i32⟩
  | 71 => ⟨S50000, .i32⟩
  | 72 => ⟨S_, .i32⟩
  | 73 => ⟨S50000, .i32⟩
  | 74 => ⟨S50000, .i1⟩
  | 75 => ⟨S50000x1, .i1⟩
  | 76 => ⟨S_, .i32⟩
  | 77 => ⟨S_, .i32⟩
  | 78 => ⟨S50000, .i32⟩
  | 79 => ⟨S50000, .i32⟩
  | 80 => ⟨S_, .i32⟩
  | 81 => ⟨S50000, .i32⟩
  | 82 => ⟨S50000, .i1⟩
  | 83 => ⟨S_, .i32⟩
  | 84 => ⟨S50000, .i32⟩
  | 85 => ⟨S50000, .i32⟩
  | 86 => ⟨S50000, .i32⟩
  | 87 => ⟨S50000x1, .i32⟩
  | 88 => ⟨S50000x4, .f32⟩
  | 89 => ⟨S_, .f32⟩
  | 90 => ⟨S_, .f32⟩
  | 91 => ⟨S50000x4, .i1⟩
  | 92 => ⟨S50000x4, .f32⟩
  | 93 => ⟨S50000x4, .f32⟩
  | 94 => ⟨S_, .f32⟩
  | 95 => ⟨S4, .f32⟩
  | 96 => ⟨S_, .f32⟩
  | 97 => ⟨S4, .f32⟩
  | 98 => ⟨S4, .f32⟩
  | 99 => ⟨S1x4, .f32⟩
  | 100 => ⟨S50000x4, .f32⟩
  | 101 => ⟨S50000x4, .f32⟩
  | 102 => ⟨S50000x4, .f32⟩
  | 103 => ⟨S_, .f32⟩
  | 104 => ⟨S4, .f32⟩
  | 105 => ⟨S1x4, .f32⟩
  | 106 => ⟨S50000x4, .f32⟩
  | 107 => ⟨S50000x4, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x4, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x4x32, .f32⟩
  | 126 => ⟨S1600000x4x1, .f32⟩
  | 127 => ⟨S1600000x4x32, .f32⟩
  | _ => ⟨S50000x128, .f32⟩

abbrev hbmTy0_1 (i : Nat) : BufTy := match i % 128 with
  | 0 => ⟨S1600000x4x32, .f32⟩
  | 1 => ⟨S_, .f32⟩
  | 2 => ⟨S50000x4x32, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S50000x4x32, .f32⟩
  | 12 => ⟨S_, .f32⟩
  | 13 => ⟨S50000x32, .f32⟩
  | 14 => ⟨S_, .f32⟩
  | 15 => ⟨S50000x32, .f32⟩
  | 16 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_call2_v0 : Ref sig .tc := ⟨.hbm, 77, rfl⟩
abbrev main_call2_v1 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_c_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_14 : Ref sig .tc := ⟨.hbm, 108, rfl⟩
abbrev main_v68 : Ref sig .tc := ⟨.hbm, 109, rfl⟩
abbrev main_v69 : Ref sig .tc := ⟨.hbm, 110, rfl⟩
abbrev main_c_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_c_16 : Ref sig .tc := ⟨.hbm, 117, rfl⟩
abbrev main_v75 : Ref sig .tc := ⟨.hbm, 118, rfl⟩
abbrev main_v76 : Ref sig .tc := ⟨.hbm, 119, rfl⟩
abbrev main_c_17 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_18 : Ref sig .tc := ⟨.hbm, 129, rfl⟩
abbrev main_v85 : Ref sig .tc := ⟨.hbm, 130, rfl⟩
abbrev main_c_19 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_21 : Ref sig .tc := ⟨.hbm, 140, rfl⟩
abbrev main_v93 : Ref sig .tc := ⟨.hbm, 141, rfl⟩
abbrev main_cst_22 : Ref sig .tc := ⟨.hbm, 142, rfl⟩
abbrev main_v94 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x4x32 : S50000x128.ShapeCasts S50000x4x32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x4x32_S1600000x4x32_0_1_2 : S1x4x32.BroadcastsInDim S1600000x4x32 (![0, 1, 2] : Fin 3 → Fin S1600000x4x32.rank)
  reducesTo_S1600000x4x32_S1600000x4_d2 : S1600000x4x32.ReducesTo [2] S1600000x4
  h_S_ : 0 < S_.numel
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S4_S1x4_1 : S4.BroadcastsInDim S1x4 (![1] : Fin 1 → Fin S1x4.rank)
  bcast_S1x4_S1600000x4_0_1 : S1x4.BroadcastsInDim S1600000x4 (![0, 1] : Fin 2 → Fin S1600000x4.rank)
  bcast_S_S1600000x4 : S_.BroadcastsInDim S1600000x4 (![] : Fin 0 → Fin S1600000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  bcast_S_S50000x4 : S_.BroadcastsInDim S50000x4 (![] : Fin 0 → Fin S50000x4.rank)
  reducesTo_S50000x4_S4_d0 : S50000x4.ReducesTo [0] S4
  bcast_S_S4 : S_.BroadcastsInDim S4 (![] : Fin 0 → Fin S4.rank)
  bcast_S1x4_S50000x4_0_1 : S1x4.BroadcastsInDim S50000x4 (![0, 1] : Fin 2 → Fin S50000x4.rank)
  bcast_S1600000x4_S1600000x4x1_0_1 : S1600000x4.BroadcastsInDim S1600000x4x1 (![0, 1] : Fin 2 → Fin S1600000x4x1.rank)
  bcast_S1600000x4x1_S1600000x4x32_0_1_2 : S1600000x4x1.BroadcastsInDim S1600000x4x32 (![0, 1, 2] : Fin 3 → Fin S1600000x4x32.rank)
  bcast_S_S50000x4x32 : S_.BroadcastsInDim S50000x4x32 (![] : Fin 0 → Fin S50000x4x32.rank)
  reducesTo_S50000x4x32_S50000x32_d1 : S50000x4x32.ReducesTo [1] S50000x32
  bcast_S_S50000x32 : S_.BroadcastsInDim S50000x32 (![] : Fin 0 → Fin S50000x32.rank)
  dot_S50000x128_S128x128_S50000x128_1_0_0_1_n_n_wf : DotDims.WF S50000x128 S128x128 S50000x128 [1] [0] [0] [1] [] []
  gather_S50000x4x32_S1600000x1_S1600000x4x32_12_0_n_n_0_1_1432_wf : GatherDims.WF S50000x4x32 S1600000x1 S1600000x4x32 [1, 2] [0] [] [0] [] 1 ![1, 4, 32]
  dot_S1600000x4_S4x32_S1600000x32_1_0_0_1_n_n_wf : DotDims.WF S1600000x4 S4x32 S1600000x32 [1] [0] [0] [1] [] []
  dot_S1600000x32_S32x4_S1600000x4_1_0_0_1_n_n_wf : DotDims.WF S1600000x32 S32x4 S1600000x4 [1] [0] [0] [1] [] []
  scatter_S50000_S1600000x1_S1600000_n_0_0_1_wf : ScatterDims.WF S50000 S1600000x1 S1600000 [] [0] [0] 1
  gather_S1600000x4_S50000x1_S50000x4_1_0_n_n_0_1_14_wf : GatherDims.WF S1600000x4 S50000x1 S50000x4 [1] [0] [] [0] [] 1 ![1, 4]
  gather_S50000x4_S1600000x1_S1600000x4_1_0_n_n_0_1_14_wf : GatherDims.WF S50000x4 S1600000x1 S1600000x4 [1] [0] [] [0] [] 1 ![1, 4]
  scatter_S50000x4x32_S1600000x1_S1600000x4x32_12_0_0_1_wf : ScatterDims.WF S50000x4x32 S1600000x1 S1600000x4x32 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x4x32_S1600000x1_S1600000x4x32_12_0_n_n_0_1_1432 : GatherDims S50000x4x32 S1600000x1 S1600000x4x32 where
  offsetDims := [1, 2]
  collapsedSliceDims := [0]
  operandBatchingDims := []
  startIndicesBatchingDims := []
  startIndexMap := [0]
  indexVectorDim := 1
  sliceSizes := ![1, 4, 32]
  wf := gather_S50000x4x32_S1600000x1_S1600000x4x32_12_0_n_n_0_1_1432_wf
def dot_S1600000x4_S4x32_S1600000x32_1_0_0_1_n_n : DotDims S1600000x4 S4x32 S1600000x32 where
  lhsContracting := [1]
  rhsContracting := [0]
  lhsNonContracting := [0]
  rhsNonContracting := [1]
  lhsBatch := []
  rhsBatch := []
  wf := dot_S1600000x4_S4x32_S1600000x32_1_0_0_1_n_n_wf
def dot_S1600000x32_S32x4_S1600000x4_1_0_0_1_n_n : DotDims S1600000x32 S32x4 S1600000x4 where
  lhsContracting := [1]
  rhsContracting := [0]
  lhsNonContracting := [0]
  rhsNonContracting := [1]
  lhsBatch := []
  rhsBatch := []
  wf := dot_S1600000x32_S32x4_S1600000x4_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S1600000x4_S50000x1_S50000x4_1_0_n_n_0_1_14 : GatherDims S1600000x4 S50000x1 S50000x4 where
  offsetDims := [1]
  collapsedSliceDims := [0]
  operandBatchingDims := []
  startIndicesBatchingDims := []
  startIndexMap := [0]
  indexVectorDim := 1
  sliceSizes := ![1, 4]
  wf := gather_S1600000x4_S50000x1_S50000x4_1_0_n_n_0_1_14_wf
def gather_S50000x4_S1600000x1_S1600000x4_1_0_n_n_0_1_14 : GatherDims S50000x4 S1600000x1 S1600000x4 where
  offsetDims := [1]
  collapsedSliceDims := [0]
  operandBatchingDims := []
  startIndicesBatchingDims := []
  startIndexMap := [0]
  indexVectorDim := 1
  sliceSizes := ![1, 4]
  wf := gather_S50000x4_S1600000x1_S1600000x4_1_0_n_n_0_1_14_wf
def scatter_S50000x4x32_S1600000x1_S1600000x4x32_12_0_0_1 : ScatterDims S50000x4x32 S1600000x1 S1600000x4x32 where
  updateWindowDims := [1, 2]
  insertedWindowDims := [0]
  scatterDimsToOperandDims := [0]
  indexVectorDim := 1
  wf := scatter_S50000x4x32_S1600000x1_S1600000x4x32_12_0_0_1_wf

class Facts : Prop extends Facts₀ where

variable [Facts]
-- ==== Proof.KernelRun.lean ====
/-
  The idealized kernel's run with its RESULT named. The program is three pipelined regions among stretches of host
  operations; the buffer contents at each boundary are a fold from the launch memory (host stretches applied in
  order, each region's arrays replaced by what its write-backs leave). Every weakly fair execution ends with the
  result buffer at the last boundary's contents and with the eleven argument arrays as launched.
-/
import proofs.«142816_j68169720922763_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are read off this statement
set_option backward.isDefEq.respectTransparency.types false in
/-- From any memory with zero counters, every weakly fair execution of the program terminates, nothing faulting;
    the result buffer ends at the contents the last boundary gives it, and every argument array ends as launched. -/
theorem run_value : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

/-- The result buffer is the last region's output window: its final contents are that window's array after the
    region's last grid point. -/
theorem result_arr (c : Dev nD) :
    W10 m ρ c (Proc.devRef .tc main_v60) = (dat2 (V9 m ρ) c).arrAt 2 cfg2.N :=
  W10_arr m ρ c 2

end Cert.KernelIdeal.KRun

end
-- ==== Proof.LibExtReal.lean ====
/-
  Extended-real facts for attention-style kernels, free of any program.

  * A calculus of "this extended real is a real number", closed under sums, products, maxima and finite sums.
  * A column softmax: entries that are real or minus infinity, at least one real. The column maximum is then real,
    every shifted exponential is a nonnegative real, their sum is a positive real, and each weight
    exp (z i - M) / (0 + sum_j exp (z j - M)) is a NONNEGATIVE REAL.
  * A nonnegative real weight moves across a finite sum of arbitrary extended reals:
    d * (sum_i a i) = sum_i (a i * d). (For an infinite or negative-infinite d this fails; that is why the weight's
    finiteness is needed before a per-node weight can be factored out of a sum over that node's edges.)
-/
import Idealize.ShloMosaic.PureOps.Ideal
import Mathlib.Data.Finset.Fold

namespace Cert.LibExtReal

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem isReal_of_ne {x : EReal} (h1 : x ≠ ⊤) (h2 : x ≠ ⊥) : IsReal x :=
  ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type*} (s : Finset ι) (f : ι → EReal) (h : ∀ i ∈ s, IsReal (f i)) :
    IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self _ _)).add (ih fun i hi => h i (Finset.mem_insert_of_mem hi))

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A shifted exponential exp (z - M), for a real shift M and an entry z that is real or minus infinity, is a
    nonnegative real, positive when z is real. -/
theorem exp_sub_real {z M : EReal} (hM : IsReal M) (hz : z = ⊥ ∨ IsReal z) :
    ∃ e : ℝ, 0 ≤ e ∧ Ideal.exp (z - M) = (e : EReal) ∧ (IsReal z → 0 < e) := by
  obtain ⟨b, rfl⟩ := hM
  rcases hz with rfl | ⟨a, rfl⟩
  · refine ⟨0, le_rfl, ?_, fun h => absurd rfl h.ne_bot⟩
    rw [EReal.bot_sub]; simp
  · refine ⟨Real.exp (a - b), (Real.exp_pos _).le, ?_, fun _ => Real.exp_pos _⟩
    rw [← EReal.coe_sub]; rfl

/-- THE SOFTMAX WEIGHT IS A NONNEGATIVE REAL: for a real shift M, entries real or minus infinity and one real entry,
    exp (z i - M) / (0 + sum_j exp (z j - M)) is a nonnegative real number. -/
theorem softmax_weight {ι : Type*} [Fintype ι] (z : ι → EReal) (M : EReal) (hM : IsReal M)
    (hz : ∀ i, z i = ⊥ ∨ IsReal (z i)) (i0 : ι) (h0 : IsReal (z i0)) (i : ι) :
    ∃ d : ℝ, 0 ≤ d ∧ Ideal.div (Ideal.exp (z i - M)) (0 + ∑ j, Ideal.exp (z j - M)) = (d : EReal) := by
  choose e he0 hee hpos using fun j => exp_sub_real hM (hz j)
  have hS : (0 : EReal) + ∑ j, Ideal.exp (z j - M) = ((∑ j, e j : ℝ) : EReal) := by
    rw [zero_add, coe_sum]; exact Finset.sum_congr rfl fun j _ => hee j
  have hpos' : 0 < ∑ j, e j :=
    lt_of_lt_of_le (hpos i0 h0) (Finset.single_le_sum (fun j _ => he0 j) (Finset.mem_univ i0))
  refine ⟨e i * (1 / ∑ j, e j), mul_nonneg (he0 i) (one_div_pos.mpr hpos').le, ?_⟩
  rw [hS, Ideal.div_coe hpos'.ne', hee i, ← EReal.coe_mul]

/-- The column maximum, taken as a fold of max from minus infinity and then once more against minus infinity, of
    entries real or minus infinity with one real entry, is a real number. -/
theorem colmax_isReal {ι : Type*} (s : Finset ι) (z : ι → EReal) (hz : ∀ i ∈ s, z i = ⊥ ∨ IsReal (z i))
    (i0 : ι) (hi0 : i0 ∈ s) (h0 : IsReal (z i0)) : IsReal (max ⊥ (s.fold max ⊥ z)) := by
  rw [max_eq_right bot_le]
  refine isReal_of_ne ?_ ?_
  · refine ((Finset.fold_max_lt ⊤).mpr ⟨bot_lt_top, fun i hi => ?_⟩).ne
    rcases hz i hi with h | h
    · rw [h]; exact bot_lt_top
    · exact lt_top_iff_ne_top.mpr h.ne_top
  · have hle : z i0 ≤ s.fold max ⊥ z := (Finset.le_fold_max _).mpr (Or.inr ⟨i0, hi0, le_rfl⟩)
    exact (lt_of_lt_of_le (bot_lt_iff_ne_bot.mpr h0.ne_bot) hle).ne'

/-- A NONNEGATIVE REAL WEIGHT MOVES ACROSS A FINITE SUM of arbitrary extended reals. -/
theorem mul_sum_of_nonneg {ι : Type*} (s : Finset ι) (d : ℝ) (hd : 0 ≤ d) (a : ι → EReal) :
    (d : EReal) * ∑ i ∈ s, a i = ∑ i ∈ s, a i * (d : EReal) := by
  classical
  refine Finset.induction_on s ?_ ?_
  · simp
  · intro j s hj ih
    rw [Finset.sum_insert hj, Finset.sum_insert hj,
      EReal.left_distrib_of_nonneg_of_ne_top (EReal.coe_nonneg.mpr hd) (EReal.coe_ne_top d), ih, mul_comm]

end Cert.LibExtReal
-- ==== Proof.SoftmaxRead.lean ====
/-
  The column softmax both programs apply to the per-node logits, read at one element.

  The logits z form a [50000, 4] array (node, head); a node that is the source of no edge holds minus infinity. Per head
  k the programs take M k = max (-inf, max over nodes of z), shift, exponentiate, sum over the nodes from 0, and divide:
      w (n, k) = exp (z (n, k) - M k) / (0 + sum over n' of exp (z (n', k) - M k)).
  When every logit is real or minus infinity and some node's logits are real, each weight is a NONNEGATIVE REAL.
-/
import proofs.«142816_j68169720922763_2_alg».proof.Proof.LibExtReal
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.SoftmaxRead

open Idealize.ShloMosaic Idealize.ShloMosaic.ValueIdx Cert.LibExtReal

abbrev Snk : Shape := ⟨2, ![50000, 4]⟩
abbrev Sk : Shape := ⟨1, ![4]⟩
abbrev S1k : Shape := ⟨2, ![1, 4]⟩
abbrev S0 : Shape := ⟨0, ![]⟩

/-- The per-head maximum, as the programs compute it: the max-reduction over the nodes from minus infinity, then once
    more the maximum with minus infinity. -/
def colMax (z : FVec Ideal Snk .f32) (hb0 : S0.BroadcastsInDim Sk (![] : Fin 0 → Fin Sk.rank))
    (hr : Snk.ReducesTo [0] Sk) (hu : 0 < S0.numel) : FVec Ideal Sk .f32 :=
  maximumf (broadcastInDim Sk ![] hb0 (constant S0 .f32 0xFF800000#32))
    ((fun x v => Host.reduce FloatOps.maximumf x v hr hu) z (constant S0 .f32 0xFF800000#32))

/-- The shifted exponentials. -/
def shiftExp (z : FVec Ideal Snk .f32) (hb0 : S0.BroadcastsInDim Sk (![] : Fin 0 → Fin Sk.rank))
    (hb1 : Sk.BroadcastsInDim S1k (![1] : Fin 1 → Fin S1k.rank)) (hb2 : S1k.BroadcastsInDim Snk (![0, 1] : Fin 2 → Fin Snk.rank))
    (hr : Snk.ReducesTo [0] Sk) (hu : 0 < S0.numel) : FVec Ideal Snk .f32 :=
  Host.exp (subf z (broadcastInDim Snk ![0, 1] hb2 (broadcastInDim S1k ![1] hb1 (colMax z hb0 hr hu))))

/-- The column softmax: the shifted exponentials over their per-head sums. -/
def softmaxCols (z : FVec Ideal Snk .f32) (hb0 : S0.BroadcastsInDim Sk (![] : Fin 0 → Fin Sk.rank))
    (hb1 : Sk.BroadcastsInDim S1k (![1] : Fin 1 → Fin S1k.rank)) (hb2 : S1k.BroadcastsInDim Snk (![0, 1] : Fin 2 → Fin Snk.rank))
    (hr : Snk.ReducesTo [0] Sk) (hu : 0 < S0.numel) : FVec Ideal Snk .f32 :=
  Host.divf (shiftExp z hb0 hb1 hb2 hr hu)
    (broadcastInDim Snk ![0, 1] hb2 (broadcastInDim S1k ![1] hb1
      ((fun x v => Host.reduceAdd x v hr hu) (shiftExp z hb0 hb1 hb2 hr hu) (constant S0 .f32 0x00000000#32))))

theorem hR : Snk.Reduces [0] Sk := by decide

/-- The node n of head k is the index (n, k). -/
theorem lift_eq (k : Fin 4) (n : Fin 50000) : hR.lift (ix1 k) n = ix2 n k := by
  funext c
  match c with
  | ⟨0, _⟩ => rfl
  | ⟨1, _⟩ => rfl

/-- A per-head value broadcast back over the nodes reads, at (n, k), the value at k. -/
theorem bcast_cols_apply (v : FVec Ideal Sk .f32) (hb1 : Sk.BroadcastsInDim S1k (![1] : Fin 1 → Fin S1k.rank))
    (hb2 : S1k.BroadcastsInDim Snk (![0, 1] : Fin 2 → Fin Snk.rank)) (n : Fin 50000) (k : Fin 4) :
    broadcastInDim Snk ![0, 1] hb2 (broadcastInDim S1k ![1] hb1 v) (ix2 n k) = v (ix1 k) := by
  rw [broadcastInDim_apply ![0, 1] hb2 _ (ix2 n k) (ix2 (0 : Fin 1) k)
      (fun a => by match a with | ⟨0, _⟩ => rfl | ⟨1, _⟩ => rfl),
    broadcastInDim_apply ![1] hb1 v (ix2 (0 : Fin 1) k) (ix1 k) (fun a => by match a with | ⟨0, _⟩ => rfl)]

theorem ofBits_neg_inf : Ideal.ofBits .f32 0xFF800000#32 = ⊥ := by simp [Ideal.ofBits, Ideal.ieee]

/-- The per-head maximum at k: minus infinity against the fold of max over the nodes. -/
theorem colMax_apply (z : FVec Ideal Snk .f32) (hb0 : S0.BroadcastsInDim Sk (![] : Fin 0 → Fin Sk.rank))
    (hr : Snk.ReducesTo [0] Sk) (hu : 0 < S0.numel) (k : Fin 4) :
    colMax z hb0 hr hu (ix1 k) = max ⊥ ((Finset.univ : Finset (Fin 50000)).fold max ⊥ (fun n => z (ix2 n k))) := by
  unfold colMax
  show max (broadcastInDim Sk ![] hb0 (constant S0 .f32 0xFF800000#32) (ix1 k))
      (Host.reduce FloatOps.maximumf z (constant S0 .f32 0xFF800000#32) hr hu (ix1 k)) = _
  rw [broadcastInDim_scalar_apply, Host.reduce_eq_fold_single FloatOps.maximumf z _ hr hR hu (ix1 k)]
  show max (Ideal.ofBits .f32 0xFF800000#32)
      ((Finset.univ : Finset (Fin 50000)).fold max (Ideal.ofBits .f32 0xFF800000#32) (z ∘ hR.lift (ix1 k))) = _
  rw [ofBits_neg_inf]
  refine congrArg (max ⊥) (congrArg (fun g => (Finset.univ : Finset (Fin 50000)).fold max ⊥ g) ?_)
  funext n
  exact congrArg z (lift_eq k n)

/-- A shifted exponential at (n, k). -/
theorem shiftExp_apply (z : FVec Ideal Snk .f32) (hb0 : S0.BroadcastsInDim Sk (![] : Fin 0 → Fin Sk.rank))
    (hb1 : Sk.BroadcastsInDim S1k (![1] : Fin 1 → Fin S1k.rank)) (hb2 : S1k.BroadcastsInDim Snk (![0, 1] : Fin 2 → Fin Snk.rank))
    (hr : Snk.ReducesTo [0] Sk) (hu : 0 < S0.numel) (n : Fin 50000) (k : Fin 4) :
    shiftExp z hb0 hb1 hb2 hr hu (ix2 n k) = Ideal.exp (z (ix2 n k) - colMax z hb0 hr hu (ix1 k)) := by
  unfold shiftExp
  show Ideal.exp (z (ix2 n k) - broadcastInDim Snk ![0, 1] hb2 (broadcastInDim S1k ![1] hb1 (colMax z hb0 hr hu)) (ix2 n k)) = _
  rw [bcast_cols_apply]

/-- THE WEIGHT AT (n, k), as a quotient of a shifted exponential by the head's sum. -/
theorem softmaxCols_apply (z : FVec Ideal Snk .f32) (hb0 : S0.BroadcastsInDim Sk (![] : Fin 0 → Fin Sk.rank))
    (hb1 : Sk.BroadcastsInDim S1k (![1] : Fin 1 → Fin S1k.rank)) (hb2 : S1k.BroadcastsInDim Snk (![0, 1] : Fin 2 → Fin Snk.rank))
    (hr : Snk.ReducesTo [0] Sk) (hu : 0 < S0.numel) (n : Fin 50000) (k : Fin 4) :
    softmaxCols z hb0 hb1 hb2 hr hu (ix2 n k)
      = Ideal.div (Ideal.exp (z (ix2 n k) - colMax z hb0 hr hu (ix1 k)))
          (0 + ∑ n' : Fin 50000, Ideal.exp (z (ix2 n' k) - colMax z hb0 hr hu (ix1 k))) := by
  unfold softmaxCols
  rw [hostDivf_apply, bcast_cols_apply, shiftExp_apply]
  beta_reduce
  rw [hostReduceAdd_apply, Ideal.hostReduceAdd_single hr hR]
  refine congrArg (Ideal.div _) ?_
  have h0 : (constant (F := Ideal) S0 .f32 0x00000000#32) (Shape.Idx.first hu) = 0 := Ideal.ofBits_zero_f32
  rw [h0]
  refine congrArg (fun s => (0 : EReal) + s) (Finset.sum_congr rfl fun n' _ => ?_)
  exact (congrArg (shiftExp z hb0 hb1 hb2 hr hu) (lift_eq k n')).trans (shiftExp_apply z hb0 hb1 hb2 hr hu n' k)

/-- EVERY WEIGHT IS A NONNEGATIVE REAL, when each logit is real or minus infinity and the logits of some node n0 are
    real. -/
theorem softmaxCols_nonneg_real (z : FVec Ideal Snk .f32) (hz : ∀ i, z i = ⊥ ∨ IsReal (z i)) (n0 : Fin 50000)
    (h0 : ∀ k, IsReal (z (ix2 n0 k))) (hb0 : S0.BroadcastsInDim Sk (![] : Fin 0 → Fin Sk.rank))
    (hb1 : Sk.BroadcastsInDim S1k (![1] : Fin 1 → Fin S1k.rank)) (hb2 : S1k.BroadcastsInDim Snk (![0, 1] : Fin 2 → Fin Snk.rank))
    (hr : Snk.ReducesTo [0] Sk) (hu : 0 < S0.numel) (n : Fin 50000) (k : Fin 4) :
    ∃ d : ℝ, 0 ≤ d ∧ softmaxCols z hb0 hb1 hb2 hr hu (ix2 n k) = (d : EReal) := by
  rw [softmaxCols_apply]
  have hM : IsReal (colMax z hb0 hr hu (ix1 k)) := by
    rw [colMax_apply]
    exact colmax_isReal Finset.univ (fun n' => z (ix2 n' k)) (fun n' _ => hz _) n0 (Finset.mem_univ _) (h0 k)
  exact softmax_weight (fun n' : Fin 50000 => z (ix2 n' k)) _ hM (fun n' => hz _) n0 (h0 k) n

end Cert.SoftmaxRead

end
-- ==== Proof.KernelWalk2.lean ====
/-
  What region 2 finds when it is entered: the softmax weights and the per-node neighbour sums, each as the host
  operations' term over what region 1 left. Five stretches of host operations lie between the two regions; each lemma
  below reads one buffer after ONE stretch, from an arbitrary valuation V of the buffers at the stretch's start.
-/
import proofs.«142816_j68169720922763_2_alg».proof.Proof.Gen.KernelIdeal.Frame
import Idealize.ShloMosaic.Lib.StableHlo.Run
import Idealize.ShloMosaic.PureOps.Ideal
import proofs.«142816_j68169720922763_2_alg».proof.Proof.SoftmaxRead

set_option maxRecDepth 16384
set_option pp.maxSteps 30000
set_option pp.proofs false

noncomputable section

namespace Cert.KernelIdeal.Walk2

open Cert.KernelIdeal Cert.KernelIdeal.Gen
open Idealize.ShloMosaic Idealize.ShloMosaic.TcCoe Idealize.SL.Sem Idealize.ShloMosaic.StableHlo

variable (V : Valuation τ sig (Elt Ideal))

/-- No operation of the stretch writes the buffer: its contents pass through. -/
macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The first stretch: the last edge of each node, and its validity -/

theorem s0_v25 : StableHlo.after (hostOps2 (F := Ideal)) V (Proc.devRef .tc main_v25)
    = (fun x i u => Host.scatter scatter_S50000_S1600000x1_S1600000_n_0_0_1 IntOp.maxsi x i u)
        (broadcastInDim S50000 ![] bcast_S_S50000 (constantI S_ 32 2147483648#32))
        (broadcastInDim S1600000x1 ![0] bcast_S1600000_S1600000x1_0 (V (Proc.devRef .tc main_v1)))
        (iotaInDim S1600000 32 0) := by
  after_results

theorem s0_v27 : StableHlo.after (hostOps2 (F := Ideal)) V (Proc.devRef .tc main_v27)
    = cmpi .sge (StableHlo.after (hostOps2 (F := Ideal)) V (Proc.devRef .tc main_v25))
        (broadcastInDim S50000 ![] bcast_S_S50000 (constantI S_ 32 0#32)) := by
  after_results

theorem s0_c5 : StableHlo.after (hostOps2 (F := Ideal)) V (Proc.devRef .tc main_c_5) = constantI S_ 32 0#32 := by
  after_results

theorem s0_v21 : StableHlo.after (hostOps2 (F := Ideal)) V (Proc.devRef .tc main_v21) = V (Proc.devRef .tc main_v21) := by
  not_written hostOps2
theorem s0_v1 : StableHlo.after (hostOps2 (F := Ideal)) V (Proc.devRef .tc main_v1) = V (Proc.devRef .tc main_v1) := by
  not_written hostOps2
theorem s0_v3 : StableHlo.after (hostOps2 (F := Ideal)) V (Proc.devRef .tc main_v3) = V (Proc.devRef .tc main_v3) := by
  not_written hostOps2
theorem s0_v6_0 : StableHlo.after (hostOps2 (F := Ideal)) V (Proc.devRef .tc main_v6_0) = V (Proc.devRef .tc main_v6_0) := by
  not_written hostOps2

/-! ## The second stretch: the last edge clipped below at 0 -/

theorem s1_v28 : StableHlo.after (hostOps2_1 (F := Ideal)) V (Proc.devRef .tc main_v28)
    = maxsi (broadcastInDim S50000 ![] bcast_S_S50000 (id (V (Proc.devRef .tc main_c_5)))) (V (Proc.devRef .tc main_v25)) := by
  after_results
  rfl

theorem s1_v27 : StableHlo.after (hostOps2_1 (F := Ideal)) V (Proc.devRef .tc main_v27) = V (Proc.devRef .tc main_v27) := by
  not_written hostOps2_1
theorem s1_v21 : StableHlo.after (hostOps2_1 (F := Ideal)) V (Proc.devRef .tc main_v21) = V (Proc.devRef .tc main_v21) := by
  not_written hostOps2_1
theorem s1_v1 : StableHlo.after (hostOps2_1 (F := Ideal)) V (Proc.devRef .tc main_v1) = V (Proc.devRef .tc main_v1) := by
  not_written hostOps2_1
theorem s1_v3 : StableHlo.after (hostOps2_1 (F := Ideal)) V (Proc.devRef .tc main_v3) = V (Proc.devRef .tc main_v3) := by
  not_written hostOps2_1
theorem s1_v6_0 : StableHlo.after (hostOps2_1 (F := Ideal)) V (Proc.devRef .tc main_v6_0) = V (Proc.devRef .tc main_v6_0) := by
  not_written hostOps2_1

/-! ## The third stretch: the validity column, and the score row each node reads -/

theorem s2_v29 : StableHlo.after (hostOps2_2 (F := Ideal)) V (Proc.devRef .tc main_v29)
    = broadcastInDim S50000x1 ![0] bcast_S50000_S50000x1_0 (V (Proc.devRef .tc main_v27)) := by
  after_results

theorem s2_v36 : StableHlo.after (hostOps2_2 (F := Ideal)) V (Proc.devRef .tc main_v36)
    = (fun x i => Host.gather gather_S1600000x4_S50000x1_S50000x4_1_0_n_n_0_1_14 x i) (V (Proc.devRef .tc main_v21))
        (broadcastInDim S50000x1 ![0] bcast_S50000_S50000x1_0
          (select (cmpi .slt (V (Proc.devRef .tc main_v28)) (broadcastInDim S50000 ![] bcast_S_S50000 (constantI S_ 32 0#32)))
            (addi (V (Proc.devRef .tc main_v28)) (broadcastInDim S50000 ![] bcast_S_S50000 (constantI S_ 32 1600000#32)))
            (V (Proc.devRef .tc main_v28)))) := by
  after_results

theorem s2_cst : StableHlo.after (hostOps2_2 (F := Ideal)) V (Proc.devRef .tc main_cst)
    = constant (F := Ideal) S_ .f32 0xFF800000#32 := by
  after_results

theorem s2_v1 : StableHlo.after (hostOps2_2 (F := Ideal)) V (Proc.devRef .tc main_v1) = V (Proc.devRef .tc main_v1) := by
  not_written hostOps2_2
theorem s2_v3 : StableHlo.after (hostOps2_2 (F := Ideal)) V (Proc.devRef .tc main_v3) = V (Proc.devRef .tc main_v3) := by
  not_written hostOps2_2
theorem s2_v6_0 : StableHlo.after (hostOps2_2 (F := Ideal)) V (Proc.devRef .tc main_v6_0) = V (Proc.devRef .tc main_v6_0) := by
  not_written hostOps2_2

/-! ## The fourth stretch: the logits -/

theorem s3_v37 : StableHlo.after (hostOps2_3 (F := Ideal)) V (Proc.devRef .tc main_v37)
    = select (broadcastInDim S50000x4 ![0, 1] bcast_S50000x1_S50000x4_0_1 (V (Proc.devRef .tc main_v29)))
        (V (Proc.devRef .tc main_v36))
        (broadcastInDim S50000x4 ![] bcast_S_S50000x4 (id (V (Proc.devRef .tc main_cst)))) := by
  after_results
  rfl

theorem s3_v1 : StableHlo.after (hostOps2_3 (F := Ideal)) V (Proc.devRef .tc main_v1) = V (Proc.devRef .tc main_v1) := by
  not_written hostOps2_3
theorem s3_v3 : StableHlo.after (hostOps2_3 (F := Ideal)) V (Proc.devRef .tc main_v3) = V (Proc.devRef .tc main_v3) := by
  not_written hostOps2_3
theorem s3_v6_0 : StableHlo.after (hostOps2_3 (F := Ideal)) V (Proc.devRef .tc main_v6_0) = V (Proc.devRef .tc main_v6_0) := by
  not_written hostOps2_3

/-! ## The fifth stretch: the softmax weights, and each node's sum of its neighbours' projected features -/

set_option maxHeartbeats 1000000 in
theorem s4_v48 : StableHlo.after (hostOps2_4 (F := Ideal)) V (Proc.devRef .tc main_v48)
    = Cert.SoftmaxRead.softmaxCols (V (Proc.devRef .tc main_v37)) bcast_S_S4 bcast_S4_S1x4_1 bcast_S1x4_S50000x4_0_1
        reducesTo_S50000x4_S4_d0 h_S_ := by
  unfold Cert.SoftmaxRead.softmaxCols Cert.SoftmaxRead.shiftExp Cert.SoftmaxRead.colMax
  after_results

set_option maxHeartbeats 4000000 in
theorem s4_v59 : StableHlo.after (hostOps2_4 (F := Ideal)) V (Proc.devRef .tc main_v59)
    = shapeCast S50000x4x32
        ((fun x i u => Host.scatterAdd scatter_S50000x128_S1600000x1_S1600000x128_1_0_0_1 x i u)
          (broadcastInDim S50000x128 ![] bcast_S_S50000x128 (constant (F := Ideal) S_ .f32 0x00000000#32))
          (broadcastInDim S1600000x1 ![0] bcast_S1600000_S1600000x1_0 (V (Proc.devRef .tc main_v1)))
          ((fun x i => Host.gather gather_S50000x128_S1600000x1_S1600000x128_1_0_n_n_0_1_1128 x i) (V (Proc.devRef .tc main_v6_0))
            (broadcastInDim S1600000x1 ![0] bcast_S1600000_S1600000x1_0
              (select (cmpi .slt (V (Proc.devRef .tc main_v3)) (broadcastInDim S1600000 ![] bcast_S_S1600000 (constantI S_ 32 0#32)))
                (addi (V (Proc.devRef .tc main_v3)) (broadcastInDim S1600000 ![] bcast_S_S1600000 (constantI S_ 32 50000#32)))
                (V (Proc.devRef .tc main_v3))))))
        shapeCasts_S50000x128_S50000x4x32 := by
  after_results_simp
  rfl

end Cert.KernelIdeal.Walk2

end
-- ==== Proof.DenseChain.lean ====
/-
  From the per-edge scores to the per-node softmax weights: the host chain both programs share.

  last n   = the largest edge number among the edges whose source is n (an integer scatter-max from the least integer);
  valid n  = last n >= 0;  the logit of node n at head k is the score of edge (last n clipped at 0) when n is valid and
  minus infinity otherwise; the weights are the column softmax of the logits.

  With every score a real number, each logit is real or minus infinity; and the source node of edge 0 is valid, because the
  scatter-max at that node is at least the edge number 0. So every weight is a nonnegative real.
-/
import proofs.«142816_j68169720922763_2_alg».proof.Proof.SoftmaxRead
import Idealize.ShloMosaic.Lib.Affine
import Idealize.ShloMosaic.Lib.ValueLayout

noncomputable section

namespace Cert.DenseChain

open Idealize.ShloMosaic Idealize.ShloMosaic.ValueIdx Cert.LibExtReal Cert.SoftmaxRead

abbrev SN : Shape := ⟨1, ![50000]⟩
abbrev SE : Shape := ⟨1, ![1600000]⟩
abbrev SE1 : Shape := ⟨2, ![1600000, 1]⟩
abbrev SN1 : Shape := ⟨2, ![50000, 1]⟩
abbrev SEk : Shape := ⟨2, ![1600000, 4]⟩

section Chain

variable (D : ScatterDims SN SE1 SE) (G : GatherDims SEk SN1 Snk)
  (hb0N : S0.BroadcastsInDim SN (![] : Fin 0 → Fin SN.rank))
  (hbE1 : SE.BroadcastsInDim SE1 (![0] : Fin 1 → Fin SE1.rank))
  (hbN1 : SN.BroadcastsInDim SN1 (![0] : Fin 1 → Fin SN1.rank))
  (hbN1Nk : SN1.BroadcastsInDim Snk (![0, 1] : Fin 2 → Fin Snk.rank))
  (hb0Nk : S0.BroadcastsInDim Snk (![] : Fin 0 → Fin Snk.rank))

/-- The last edge of each source node (the least integer where the node has no edge). -/
def lastEdge (src : IVec SE 32) : IVec SN 32 :=
  (fun x i u => Host.scatter D IntOp.maxsi x i u) (broadcastInDim SN ![] hb0N (constantI S0 32 2147483648#32))
    (broadcastInDim SE1 ![0] hbE1 src) (iotaInDim SE 32 0)

/-- The node is the source of some edge. -/
def valid (src : IVec SE 32) : IVec SN 1 :=
  cmpi .sge (lastEdge D hb0N hbE1 src) (broadcastInDim SN ![] hb0N (constantI S0 32 0#32))

/-- The row of the score array each node reads: its last edge, clipped below at 0, a negative value wrapped. -/
def readIdx (src : IVec SE 32) : IVec SN1 32 :=
  let cl : IVec SN 32 := maxsi (broadcastInDim SN ![] hb0N (id (constantI S0 32 0#32))) (lastEdge D hb0N hbE1 src)
  broadcastInDim SN1 ![0] hbN1
    (select (cmpi .slt cl (broadcastInDim SN ![] hb0N (constantI S0 32 0#32)))
      (addi cl (broadcastInDim SN ![] hb0N (constantI S0 32 1600000#32))) cl)

/-- The logits: the score of the node's last edge where the node is valid, minus infinity elsewhere. -/
def logits (alpha : FVec Ideal SEk .f32) (src : IVec SE 32) : FVec Ideal Snk .f32 :=
  select (broadcastInDim Snk ![0, 1] hbN1Nk (broadcastInDim SN1 ![0] hbN1 (valid D hb0N hbE1 src)))
    ((fun x i => Host.gather G x i) alpha (readIdx D hb0N hbE1 hbN1 src))
    (broadcastInDim Snk ![] hb0Nk (id (constant S0 .f32 0xFF800000#32)))

/-- A logit is the score at some edge, or minus infinity, by the node's validity bit. -/
theorem logits_apply (alpha : FVec Ideal SEk .f32) (src : IVec SE 32) (n : Fin 50000) (k : Fin 4) :
    logits D G hb0N hbE1 hbN1 hbN1Nk hb0Nk alpha src (ix2 n k)
      = Scalar.select (valid D hb0N hbE1 src (ix1 n))
          (alpha (G.operandIdx (ix2 n k) (readIdx D hb0N hbE1 hbN1 src))) ⊥ := by
  unfold logits
  rw [select_apply]
  have h1 : broadcastInDim Snk ![0, 1] hbN1Nk (broadcastInDim SN1 ![0] hbN1 (valid D hb0N hbE1 src)) (ix2 n k)
      = valid D hb0N hbE1 src (ix1 n) := by
    rw [broadcastInDim_apply ![0, 1] hbN1Nk _ (ix2 n k) (ix2 n (0 : Fin 1))
        (fun a => by match a with | ⟨0, _⟩ => rfl | ⟨1, _⟩ => rfl),
      broadcastInDim_apply ![0] hbN1 _ (ix2 n (0 : Fin 1)) (ix1 n) (fun a => by match a with | ⟨0, _⟩ => rfl)]
  have h3 : broadcastInDim Snk ![] hb0Nk (id (constant (F := Ideal) S0 .f32 0xFF800000#32)) (ix2 n k) = ⊥ := by
    rw [broadcastInDim_scalar_apply]; exact ofBits_neg_inf
  rw [h1, h3]
  rfl

/-- With real scores every logit is real or minus infinity. -/
theorem logits_bot_or_real (alpha : FVec Ideal SEk .f32) (hα : ∀ i, IsReal (alpha i)) (src : IVec SE 32) (i : Snk.Idx) :
    logits D G hb0N hbE1 hbN1 hbN1Nk hb0Nk alpha src i = ⊥
      ∨ IsReal (logits D G hb0N hbE1 hbN1 hbN1Nk hb0Nk alpha src i) := by
  obtain ⟨n, k, rfl⟩ : ∃ (n : Fin 50000) (k : Fin 4), i = ix2 n k := ⟨i 0, i 1, eq_ix2 i⟩
  rw [logits_apply]
  rcases BitVec.eq_zero_or_eq_one (valid D hb0N hbE1 src (ix1 n)) with h | h
  · rw [h, select_zero]; exact Or.inl rfl
  · rw [h, select_one]; exact Or.inr (hα _)

/-- THE SOURCE NODE OF AN EDGE IS VALID, given that the scatter-max at a node is at least every edge number aimed at it. -/
theorem valid_of_edge
    (hD : ∀ (x : IVec SN 32) (idx : IVec SE1 32) (upd : IVec SE 32) (e : Fin 1600000) (n : Fin 50000),
      (idx (ix2 e 0)).toInt = (n.val : Int) → (upd (ix1 e)).toInt ≤ (Host.scatter D IntOp.maxsi x idx upd (ix1 n)).toInt)
    (src : IVec SE 32) (e : Fin 1600000) (n : Fin 50000)
    (hn : (src (ix1 e)).toInt = (n.val : Int)) : valid D hb0N hbE1 src (ix1 n) = 1#1 := by
  unfold valid
  show IntOp.cmpi .sge (lastEdge D hb0N hbE1 src (ix1 n)) (broadcastInDim SN ![] hb0N (constantI S0 32 0#32) (ix1 n)) = 1#1
  rw [IntOp.cmpi_sge, broadcastInDim_scalar_apply, constantI_apply]
  have hidx : broadcastInDim SE1 ![0] hbE1 src (ix2 e (0 : Fin 1)) = src (ix1 e) :=
    broadcastInDim_apply ![0] hbE1 src (ix2 e (0 : Fin 1)) (ix1 e) (fun a => by match a with | ⟨0, _⟩ => rfl)
  have hge := hD (broadcastInDim SN ![] hb0N (constantI S0 32 2147483648#32)) (broadcastInDim SE1 ![0] hbE1 src)
    (iotaInDim SE 32 0) e n (by rw [hidx]; exact hn)
  have hiota : (iotaInDim SE 32 0 (ix1 e)).toInt = (e.val : Int) := by
    rw [iotaInDim_apply]
    show (BitVec.ofNat 32 e.val).toInt = _
    have he := e.isLt
    rw [BitVec.toInt_eq_toNat_cond, BitVec.toNat_ofNat, Nat.mod_eq_of_lt (by omega), if_pos (by omega)]
  have h0 : (0#32 : BitVec 32).toInt = 0 := by decide
  rw [h0]
  unfold lastEdge
  show (0 : Int) ≤ (Host.scatter D IntOp.maxsi (broadcastInDim SN ![] hb0N (constantI S0 32 2147483648#32))
    (broadcastInDim SE1 ![0] hbE1 src) (iotaInDim SE 32 0) (ix1 n)).toInt
  have : (0 : Int) ≤ (e.val : Int) := Int.natCast_nonneg _
  omega

end Chain

end Cert.DenseChain

end
-- ==== Proof.KernelValue.lean ====
/-
  The contents of region 2's two input windows, composed through the five host stretches back to what region 1 left:
  the softmax weights are the column softmax of the logits built from region 1's score array and the source row; the
  neighbour sums are the accumulating scatter, by the raw source row, of region 0's projected rows gathered at the
  (wrapped) target row.
-/
import proofs.«142816_j68169720922763_2_alg».proof.Proof.KernelWalk2
import proofs.«142816_j68169720922763_2_alg».proof.Proof.DenseChain

set_option maxRecDepth 16384
set_option pp.maxSteps 30000
set_option pp.proofs false

noncomputable section

namespace Cert.KernelIdeal.KValue

open Cert.KernelIdeal Cert.KernelIdeal.Gen Cert.KernelIdeal.Walk2
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Region 2's first input window holds the softmax weights of the logits built from region 1's scores. -/
theorem V9_v48 : V9 (F := Ideal) m ρ c main_v48
    = Cert.SoftmaxRead.softmaxCols
        (Cert.DenseChain.logits scatter_S50000_S1600000x1_S1600000_n_0_0_1 gather_S1600000x4_S50000x1_S50000x4_1_0_n_n_0_1_14
          Facts₀.bcast_S_S50000 Facts₀.bcast_S1600000_S1600000x1_0 Facts₀.bcast_S50000_S50000x1_0 Facts₀.bcast_S50000x1_S50000x4_0_1
          Facts₀.bcast_S_S50000x4 (W4 m ρ c (Proc.devRef .tc main_v21)) (W4 m ρ c (Proc.devRef .tc main_v1)))
        Facts₀.bcast_S_S4 Facts₀.bcast_S4_S1x4_1 Facts₀.bcast_S1x4_S50000x4_0_1 Facts₀.reducesTo_S50000x4_S4_d0 Facts₀.h_S_ := by
  show StableHlo.after hostOps2_4 (StableHlo.after hostOps2_3 (StableHlo.after hostOps2_2 (StableHlo.after hostOps2_1
    (StableHlo.after hostOps2 (W4 m ρ c))))) (Proc.devRef .tc main_v48) = _
  rw [s4_v48, s3_v37, s2_v29, s2_v36, s2_cst, s1_v27, s1_v21, s1_v28, s0_v27, s0_c5, s0_v21, s0_v25]
  rfl

/-- Region 2's second input window holds, reshaped to [node, head, feature], the sum over each node's edges of the
    projected row of the edge's target. -/
theorem V9_v59 : V9 (F := Ideal) m ρ c main_v59
    = shapeCast S50000x4x32
        ((fun x i u => Host.scatterAdd scatter_S50000x128_S1600000x1_S1600000x128_1_0_0_1 x i u)
          (broadcastInDim S50000x128 ![] Facts₀.bcast_S_S50000x128 (constant (F := Ideal) S_ .f32 0x00000000#32))
          (broadcastInDim S1600000x1 ![0] Facts₀.bcast_S1600000_S1600000x1_0 (W4 m ρ c (Proc.devRef .tc main_v1)))
          ((fun x i => Host.gather gather_S50000x128_S1600000x1_S1600000x128_1_0_n_n_0_1_1128 x i) (W4 m ρ c (Proc.devRef .tc main_v6_0))
            (broadcastInDim S1600000x1 ![0] Facts₀.bcast_S1600000_S1600000x1_0
              (select (cmpi .slt (W4 m ρ c (Proc.devRef .tc main_v3)) (broadcastInDim S1600000 ![] Facts₀.bcast_S_S1600000 (constantI S_ 32 0#32)))
                (addi (W4 m ρ c (Proc.devRef .tc main_v3)) (broadcastInDim S1600000 ![] Facts₀.bcast_S_S1600000 (constantI S_ 32 50000#32)))
                (W4 m ρ c (Proc.devRef .tc main_v3))))))
        Facts₀.shapeCasts_S50000x128_S50000x4x32 := by
  show StableHlo.after hostOps2_4 (StableHlo.after hostOps2_3 (StableHlo.after hostOps2_2 (StableHlo.after hostOps2_1
    (StableHlo.after hostOps2 (W4 m ρ c))))) (Proc.devRef .tc main_v59) = _
  rw [s4_v59, s3_v1, s2_v1, s1_v1, s0_v1, s3_v3, s2_v3, s1_v3, s0_v3, s3_v6_0, s2_v6_0, s1_v6_0, s0_v6_0]

end Cert.KernelIdeal.KValue

end
-- ==== Proof.KernelWalk01.lean ====
/-
  THE KERNEL PROGRAM'S BUFFERS AT THE BOUNDARIES OF ITS FIRST TWO REGIONS.

  The program is pipelined regions among stretches of host operations, and the contents of every buffer at each
  boundary are a fold from the launch memory: a host stretch rewrites the buffers its operations write and leaves the
  rest, a region replaces its arrays by what its write-backs leave. This file walks that fold for the buffers the first
  two regions read and write. Region 0 (the projection) reads the node features, the weights and the bias as launched
  and the two attention vectors reshaped; its three outputs are what its write-backs leave. The two index rows are the
  two rows of the launched edge list. Region 1 (the edge attention) reads the edge attributes and the edge network's
  parameters as launched, and region 0's two score outputs gathered along the edges at the index rows (a negative
  index moved up by the number of nodes first); its output is what its write-backs leave. Each equation is obtained
  by rewriting every host operation's result at its own buffer to its function's value and at any other buffer to
  what was there.
-/
import proofs.«142816_j68169720922763_2_alg».proof.Proof.Gen.KernelIdeal.Frame
import Idealize.ShloMosaic.Lib.StableHlo.Run
import Idealize.ShloMosaic.PureOps.Ideal

set_option maxRecDepth 16384

noncomputable section

namespace Cert.KernelIdeal.Walk01

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Region 0's inputs: the launch arrays, and the two attention vectors seen as `4 × 32` -/

/-- Region 0 reads the node features as launched: no host operation before it writes them. -/
theorem V1_main_arg0 : V1 m ρ c main_arg0 = m ((c : Thread nD τ).loc main_arg0) := by
  show StableHlo.after hostOps0 (W0 m ρ c) (Proc.devRef .tc main_arg0) = _
  after_results

/-- Region 0 reads the projection weights as launched. -/
theorem V1_main_arg3 : V1 m ρ c main_arg3 = m ((c : Thread nD τ).loc main_arg3) := by
  show StableHlo.after hostOps0 (W0 m ρ c) (Proc.devRef .tc main_arg3) = _
  after_results

/-- Region 0 reads the projection bias as launched. -/
theorem V1_main_arg4 : V1 m ρ c main_arg4 = m ((c : Thread nD τ).loc main_arg4) := by
  show StableHlo.after hostOps0 (W0 m ρ c) (Proc.devRef .tc main_arg4) = _
  after_results

/-- Region 0's source attention vector: the launched `1 × 4 × 32` array seen as `4 × 32`. -/
theorem V1_main_v4 :
    V1 m ρ c main_v4 = shapeCast S4x32 (m ((c : Thread nD τ).loc main_arg9)) Facts₀.shapeCasts_S1x4x32_S4x32 := by
  show StableHlo.after hostOps0 (W0 m ρ c) (Proc.devRef .tc main_v4) = _
  after_results
  rfl

/-- Region 0's destination attention vector: the launched `1 × 4 × 32` array seen as `4 × 32`. -/
theorem V1_main_v5 :
    V1 m ρ c main_v5 = shapeCast S4x32 (m ((c : Thread nD τ).loc main_arg10)) Facts₀.shapeCasts_S1x4x32_S4x32 := by
  show StableHlo.after hostOps0 (W0 m ρ c) (Proc.devRef .tc main_v5) = _
  after_results
  rfl

/-! ## The two index rows of the edge list -/

/-- The first index row: row 0 of the launched `2 × 1600000` edge list, flattened. -/
theorem W1_main_v1 :
    W1 m ρ c (Proc.devRef .tc main_v1)
      = shapeCast S1600000 (extractStridedSlice S1x1600000 ![0, 0] (m ((c : Thread nD τ).loc main_arg1))
          Facts₀.slices_S2x1600000_S1x1600000_0_0) Facts₀.shapeCasts_S1x1600000_S1600000 := by
  show StableHlo.after hostOps0 (W0 m ρ c) (Proc.devRef .tc main_v1) = _
  after_results
  rfl

/-- The second index row: row 1 of the launched edge list, flattened. -/
theorem W1_main_v3 :
    W1 m ρ c (Proc.devRef .tc main_v3)
      = shapeCast S1600000 (extractStridedSlice S1x1600000 ![1, 0] (m ((c : Thread nD τ).loc main_arg1))
          Facts₀.slices_S2x1600000_S1x1600000_1_0) Facts₀.shapeCasts_S1x1600000_S1600000 := by
  show StableHlo.after hostOps0 (W0 m ρ c) (Proc.devRef .tc main_v3) = _
  after_results
  rfl

/-- No host operation before region 1 writes this argument array, and it is no window of region 0: at region 0's entry it
    still holds its launch contents. -/
theorem V1_walk_arg2 : W1 m ρ c (Proc.devRef .tc main_arg2) = m ((c : Thread nD τ).loc main_arg2) := by
  show StableHlo.after hostOps0 (W0 m ρ c) (Proc.devRef .tc main_arg2) = _
  after_results

/-! ## Region 0's exit -/

/-- At region 0's exit its first output holds what the region's write-backs leave. -/
theorem W2_main_v6_0 : W2 m ρ c (Proc.devRef .tc main_v6_0) = (dat0 (V1 m ρ) c).arrAt 5 cfg0.N := W2_arr m ρ c 5
/-- At region 0's exit its second output holds what the region's write-backs leave. -/
theorem W2_main_v6_1 : W2 m ρ c (Proc.devRef .tc main_v6_1) = (dat0 (V1 m ρ) c).arrAt 6 cfg0.N := W2_arr m ρ c 6
/-- At region 0's exit its third output holds what the region's write-backs leave. -/
theorem W2_main_v6_2 : W2 m ρ c (Proc.devRef .tc main_v6_2) = (dat0 (V1 m ρ) c).arrAt 7 cfg0.N := W2_arr m ρ c 7
/-- Region 0 touches no index row: the first is as at the region's entry. -/
theorem W2_main_v1 : W2 m ρ c (Proc.devRef .tc main_v1) = W1 m ρ c (Proc.devRef .tc main_v1) :=
  W2_of_ne m ρ c main_v1 (by decide)
/-- Region 0 touches no index row: the second is as at the region's entry. -/
theorem W2_main_v3 : W2 m ρ c (Proc.devRef .tc main_v3) = W1 m ρ c (Proc.devRef .tc main_v3) :=
  W2_of_ne m ρ c main_v3 (by decide)

/-! ## Region 1's inputs -/

/-- Region 1 reads the edge attributes as launched: nothing before it writes them. -/
theorem V3_main_arg2 : V3 m ρ c main_arg2 = m ((c : Thread nD τ).loc main_arg2) := by
  show StableHlo.after hostOps1 (W2 m ρ c) (Proc.devRef .tc main_arg2) = _
  after_results
  rw [W2_of_ne m ρ c main_arg2 (by decide)]
  exact V1_walk_arg2 m ρ c

/-- No host operation before region 1 writes this argument array, and it is no window of region 0: at region 0's entry it
    still holds its launch contents. -/
theorem V1_walk_arg5 : W1 m ρ c (Proc.devRef .tc main_arg5) = m ((c : Thread nD τ).loc main_arg5) := by
  show StableHlo.after hostOps0 (W0 m ρ c) (Proc.devRef .tc main_arg5) = _
  after_results

/-- Region 1 reads the first edge-network weights as launched. -/
theorem V3_main_arg5 : V3 m ρ c main_arg5 = m ((c : Thread nD τ).loc main_arg5) := by
  show StableHlo.after hostOps1 (W2 m ρ c) (Proc.devRef .tc main_arg5) = _
  after_results
  rw [W2_of_ne m ρ c main_arg5 (by decide)]
  exact V1_walk_arg5 m ρ c

/-- No host operation before region 1 writes this argument array, and it is no window of region 0: at region 0's entry it
    still holds its launch contents. -/
theorem V1_walk_arg6 : W1 m ρ c (Proc.devRef .tc main_arg6) = m ((c : Thread nD τ).loc main_arg6) := by
  show StableHlo.after hostOps0 (W0 m ρ c) (Proc.devRef .tc main_arg6) = _
  after_results

/-- Region 1 reads the first edge-network bias as launched. -/
theorem V3_main_arg6 : V3 m ρ c main_arg6 = m ((c : Thread nD τ).loc main_arg6) := by
  show StableHlo.after hostOps1 (W2 m ρ c) (Proc.devRef .tc main_arg6) = _
  after_results
  rw [W2_of_ne m ρ c main_arg6 (by decide)]
  exact V1_walk_arg6 m ρ c

/-- No host operation before region 1 writes this argument array, and it is no window of region 0: at region 0's entry it
    still holds its launch contents. -/
theorem V1_walk_arg7 : W1 m ρ c (Proc.devRef .tc main_arg7) = m ((c : Thread nD τ).loc main_arg7) := by
  show StableHlo.after hostOps0 (W0 m ρ c) (Proc.devRef .tc main_arg7) = _
  after_results

/-- Region 1 reads the second edge-network weights as launched. -/
theorem V3_main_arg7 : V3 m ρ c main_arg7 = m ((c : Thread nD τ).loc main_arg7) := by
  show StableHlo.after hostOps1 (W2 m ρ c) (Proc.devRef .tc main_arg7) = _
  after_results
  rw [W2_of_ne m ρ c main_arg7 (by decide)]
  exact V1_walk_arg7 m ρ c

/-- No host operation before region 1 writes this argument array, and it is no window of region 0: at region 0's entry it
    still holds its launch contents. -/
theorem V1_walk_arg8 : W1 m ρ c (Proc.devRef .tc main_arg8) = m ((c : Thread nD τ).loc main_arg8) := by
  show StableHlo.after hostOps0 (W0 m ρ c) (Proc.devRef .tc main_arg8) = _
  after_results

/-- Region 1 reads the second edge-network bias as launched. -/
theorem V3_main_arg8 : V3 m ρ c main_arg8 = m ((c : Thread nD τ).loc main_arg8) := by
  show StableHlo.after hostOps1 (W2 m ρ c) (Proc.devRef .tc main_arg8) = _
  after_results
  rw [W2_of_ne m ρ c main_arg8 (by decide)]
  exact V1_walk_arg8 m ρ c

/-- Region 1's source-side scores: region 0's second output gathered along the edges at the first index row, the
    row's negative entries moved up by the number of nodes first. -/
theorem V3_main_v13 :
    V3 m ρ c main_v13
      = Host.gather gather_S50000x4_S1600000x1_S1600000x4_1_0_n_n_0_1_14 (W2 m ρ c (Proc.devRef .tc main_v6_1))
          (broadcastInDim S1600000x1 ![0] Facts₀.bcast_S1600000_S1600000x1_0
            (select
              (cmpi .slt (W2 m ρ c (Proc.devRef .tc main_v1))
                (broadcastInDim S1600000 ![] Facts₀.bcast_S_S1600000 (constantI S_ 32 0#32)))
              (addi (W2 m ρ c (Proc.devRef .tc main_v1))
                (broadcastInDim S1600000 ![] Facts₀.bcast_S_S1600000 (constantI S_ 32 50000#32)))
              (W2 m ρ c (Proc.devRef .tc main_v1)))) := by
  show StableHlo.after hostOps1 (W2 m ρ c) (Proc.devRef .tc main_v13) = _
  after_results <;> rfl

set_option maxHeartbeats 2000000 in
/-- Region 1's destination-side scores: region 0's third output gathered at the second index row, likewise. -/
theorem V3_main_v20 :
    V3 m ρ c main_v20
      = Host.gather gather_S50000x4_S1600000x1_S1600000x4_1_0_n_n_0_1_14 (W2 m ρ c (Proc.devRef .tc main_v6_2))
          (broadcastInDim S1600000x1 ![0] Facts₀.bcast_S1600000_S1600000x1_0
            (select
              (cmpi .slt (W2 m ρ c (Proc.devRef .tc main_v3))
                (broadcastInDim S1600000 ![] Facts₀.bcast_S_S1600000 (constantI S_ 32 0#32)))
              (addi (W2 m ρ c (Proc.devRef .tc main_v3))
                (broadcastInDim S1600000 ![] Facts₀.bcast_S_S1600000 (constantI S_ 32 50000#32)))
              (W2 m ρ c (Proc.devRef .tc main_v3)))) := by
  show StableHlo.after hostOps1 (W2 m ρ c) (Proc.devRef .tc main_v20) = _
  after_results_simp <;> rfl

/-! ## Region 1's exit -/

/-- At region 1's exit its output holds what the region's write-backs leave. -/
theorem W4_main_v21 : W4 m ρ c (Proc.devRef .tc main_v21) = (dat1 (V3 m ρ) c).arrAt 7 cfg1.N := W4_arr m ρ c 7

/-- Nothing up to region 1's exit writes the first index row after it is made. -/
theorem W4_main_v1 : W4 m ρ c (Proc.devRef .tc main_v1) = W1 m ρ c (Proc.devRef .tc main_v1) := by
  rw [W4_of_ne m ρ c main_v1 (by decide)]
  show StableHlo.after hostOps1 (W2 m ρ c) (Proc.devRef .tc main_v1) = _
  after_results
  exact W2_main_v1 m ρ c

/-- Nothing up to region 1's exit writes the second index row after it is made. -/
theorem W4_main_v3 : W4 m ρ c (Proc.devRef .tc main_v3) = W1 m ρ c (Proc.devRef .tc main_v3) := by
  rw [W4_of_ne m ρ c main_v3 (by decide)]
  show StableHlo.after hostOps1 (W2 m ρ c) (Proc.devRef .tc main_v3) = _
  after_results
  exact W2_main_v3 m ρ c

/-- Region 0's first output is still what region 0 left at region 1's exit. -/
theorem W4_main_v6_0 : W4 m ρ c (Proc.devRef .tc main_v6_0) = (dat0 (V1 m ρ) c).arrAt 5 cfg0.N := by
  rw [W4_of_ne m ρ c main_v6_0 (by decide)]
  show StableHlo.after hostOps1 (W2 m ρ c) (Proc.devRef .tc main_v6_0) = _
  after_results
  exact W2_main_v6_0 m ρ c

end Cert.KernelIdeal.Walk01
-- ==== Proof.Region0.lean ====
/- The node-projection region of the graph-attention layer, read as three whole-array functions.

   For every node n (50000 of them, taken 2000 at a time) the region computes
     h[n, j]    = Σ_k X[n, k] · W[k, j] + b[j]                (128 features: 4 heads of 32),
     qsrc[n, k] = Σ_f h[n, 32 k + f] · att_src[k, f]          (one score per head),
     qdst[n, k] = Σ_f h[n, 32 k + f] · att_dst[k, f].
   Read at the exact extended reals, where a change of float format is the identity, a matrix product into a zero
   accumulator is the plain sum of products and a lane reduction is the plain sum.

   First the body's stored values at an index (the matrix product, the bias laid along the rows, a head's 32 columns cut
   out and multiplied by that head's attention row, the lane sum, the four per-head columns set side by side); then each
   block of 2000 rows as rows 2000 t … 2000 t + 1999 of one function of the whole arrays; then the three arrays after
   the region, every row n lying in the block of point n / 2000. Everything is stated for arbitrary contents V of the
   buffers when the region is entered. -/
import proofs.«142816_j68169720922763_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored values at an index -/

/-- The dimension numbers of the projection's matrix product: rows of the left operand against columns of the right. -/
abbrev projDims : DotDims S2000x128 S128x128 S2000x128 := dot_S2000x128_S128x128_S2000x128_1_0_0_1_n_n

theorem projDims_lhs_row (i : S2000x128.Idx) (q : projDims.contr.Idx) : (projDims.lhsIdx i q 0).val = (i 0).val := by
  unfold DotDims.lhsIdx
  rw [dif_neg (show ¬(0 : Fin S2000x128.rank) ∈ projDims.lhsBatch by decide), dif_pos (show (0 : Fin S2000x128.rank) ∈ projDims.lhsNonContracting by decide)]
  rfl

theorem projDims_lhs_col (i : S2000x128.Idx) (q : projDims.contr.Idx) : (projDims.lhsIdx i q 1).val = (q ⟨0, by decide⟩).val :=
  projDims.lhsIdx_val_of_single rfl i q

theorem projDims_rhs_row (i : S2000x128.Idx) (q : projDims.contr.Idx) : (projDims.rhsIdx i q 0).val = (q ⟨0, by decide⟩).val :=
  projDims.rhsIdx_val_of_single rfl i q

theorem projDims_rhs_col (i : S2000x128.Idx) (q : projDims.contr.Idx) : (projDims.rhsIdx i q 1).val = (i 1).val := by
  unfold DotDims.rhsIdx
  rw [dif_neg (show ¬(1 : Fin S128x128.rank) ∈ projDims.rhsBatch by decide), dif_pos (show (1 : Fin S128x128.rank) ∈ projDims.rhsNonContracting by decide)]
  rfl

/-- The matrix product into a zero accumulator, at row r and column j: the sum over the 128 shared coordinates. -/
theorem matmul_zero_apply (a : FVec Ideal S2000x128 .bf16) (b : FVec Ideal S128x128 .bf16) (r : Fin 2000) (j : Fin 128) :
    matmul projDims none a b (constant (F := Ideal) S2000x128 .f32 0x00000000#32) (ix2 r j)
      = ∑ k : Fin 128, a (ix2 r k) * b (ix2 k j) := by
  refine (Ideal.matmul_constant_zero_apply projDims none a b (ix2 r j)).trans ?_
  rw [← Equiv.sum_comp (contrEquiv1 projDims 128 rfl rfl).symm]
  refine Finset.sum_congr rfl fun k _ => ?_
  have hk := contrEquiv1_symm_val projDims 128 rfl rfl k
  have el : projDims.lhsIdx (ix2 r j) ((contrEquiv1 projDims 128 rfl rfl).symm k) = ix2 r k := funext fun ax => Fin.ext (by
    match ax with
    | ⟨0, _⟩ => exact projDims_lhs_row _ _
    | ⟨1, _⟩ => exact (projDims_lhs_col _ _).trans hk)
  have er : projDims.rhsIdx (ix2 r j) ((contrEquiv1 projDims 128 rfl rfl).symm k) = ix2 k j := funext fun ax => Fin.ext (by
    match ax with
    | ⟨0, _⟩ => exact (projDims_rhs_row _ _).trans hk
    | ⟨1, _⟩ => exact projDims_rhs_col _ _)
  rw [el, er]

/-- The bias laid along every row, at row r and column j. -/
theorem bias_rows_apply (x2 : FVec Ideal S128 .f32) (r : Fin 2000) (j : Fin 128) :
    broadcastTo S2000x128 (shapeCast S1x128 x2 shapeCasts_S128_S1x128) broadcasts_S1x128_S2000x128 (ix2 r j) = x2 (ix1 j) :=
  (broadcastTo_1b_ab_apply _ broadcasts_S1x128_S2000x128 r j).trans (shapeCast_a_1a_apply x2 shapeCasts_S128_S1x128 0 j)

/-- The projected block at row r and column j. -/
theorem proj_apply (x0 : Vec Ideal S2000x128 .f32) (x1 : Vec Ideal S128x128 .f32) (x2 : Vec Ideal S128 .f32) (r : Fin 2000) (j : Fin 128) :
    k0_pay5 x0 x1 x2 (ix2 r j) = (∑ k : Fin 128, x0 (ix2 r k) * x1 (ix2 k j)) + x2 (ix1 j) := by
  unfold k0_pay5
  exact congrArg₂ (fun a b : EReal => a + b) (matmul_zero_apply _ _ r j) (bias_rows_apply x2 r j)

/-- Column 32k + f of the projected block: feature f of head k. -/
abbrev headCol (k : Fin 4) (f : Fin 32) : Fin 128 := ⟨32 * k.val + f.val, by have := k.isLt; have := f.isLt; omega⟩

/-- A sum along the 32 lanes of a row, kept as a one-column matrix, read at row r. -/
theorem row_sum_apply (v : FVec Ideal S2000x32 .f32) (r : Fin 2000) :
    shapeCast S2000x1 (multiReduction (F := Ideal) .add [1] S2000 v 0x00000000#32 reduces_S2000x32_S2000 (.inl rfl) rfl) shapeCasts_S2000_S2000x1 (ix2 r (0 : Fin 1))
      = ∑ f : Fin 32, v (ix2 r f) := by
  refine (shapeCast_apply _ shapeCasts_S2000_S2000x1 (ix2 r (0 : Fin 1)) (ix1 r) ?_).trans ?_
  · rw [Shape.rowMajor_val_one, Shape.rowMajor_val_two]; show r.val = r.val * 1 + 0; omega
  refine (Ideal.multiReduction_add_single v 0x00000000#32 reduces_S2000x32_S2000 (.inl rfl) rfl (ix1 r)).trans ?_
  refine Finset.sum_congr rfl fun f _ => congrArg v ?_
  funext c; apply Fin.ext
  match c with
  | ⟨0, _⟩ => rfl
  | ⟨1, _⟩ => rfl

/-- Row a of the attention vectors laid along every row of the block, read at row r and lane f. -/
theorem att_row_apply (att : FVec Ideal S4x32 .f32) (a : Nat) (ha : S4x32.Slices ![a, 0] S1x32) (k : Fin 4) (hk : k.val = a)
    (r : Fin 2000) (f : Fin 32) :
    broadcastTo S2000x32 (shapeCast S1x32 (shapeCast S32 (extractStridedSlice S1x32 ![a, 0] att ha) shapeCasts_S1x32_S32) shapeCasts_S32_S1x32)
        broadcasts_S1x32_S2000x32 (ix2 r f) = att (ix2 k f) :=
  (broadcastTo_1b_ab_apply _ broadcasts_S1x32_S2000x32 r f).trans
    ((shapeCast_a_1a_apply _ shapeCasts_S32_S1x32 0 f).trans
      ((shapeCast_1a_a_apply _ shapeCasts_S1x32_S32 f).trans
        (slice2_axis0_apply a att ha (0 : Fin 1) f k (by show k.val = a + 0; omega))))

/-- One head's dot product with its attention vector, kept as a one-column matrix, read at row r. -/
theorem head_dot_apply (hb : FVec Ideal S2000x128 .f32) (att : FVec Ideal S4x32 .f32) (o a : Nat)
    (hs : S2000x128.Slices ![0, o] S2000x32) (ha : S4x32.Slices ![a, 0] S1x32) (k : Fin 4) (hk : k.val = a) (ho : o = 32 * a) (r : Fin 2000) :
    shapeCast S2000x1 (multiReduction (F := Ideal) .add [1] S2000
        (mulf (extractStridedSlice S2000x32 ![0, o] hb hs)
          (broadcastTo S2000x32 (shapeCast S1x32 (shapeCast S32 (extractStridedSlice S1x32 ![a, 0] att ha) shapeCasts_S1x32_S32) shapeCasts_S32_S1x32)
            broadcasts_S1x32_S2000x32))
        0x00000000#32 reduces_S2000x32_S2000 (.inl rfl) rfl) shapeCasts_S2000_S2000x1 (ix2 r (0 : Fin 1))
      = ∑ f : Fin 32, hb (ix2 r (headCol k f)) * att (ix2 k f) :=
  (row_sum_apply _ r).trans (Finset.sum_congr rfl fun f _ =>
    congrArg₂ (fun x y : EReal => x * y)
      (slice2_axis1_apply o hb hs r f (headCol k f) (by show 32 * k.val + f.val = o + f.val; omega))
      (att_row_apply att a ha k hk r f))

section Columns
variable (c0 c1 c2 c3 : FVec Ideal S2000x1 .f32) (r : Fin 2000)

/-- Off the concatenation axis a one-column matrix's index and the four-column matrix's index agree. -/
theorem concat_side (k : Fin 4) : ∀ b : Fin S2000x1.rank, b.cast (rfl : S2000x1.rank = S2000x4.rank) ≠ (1 : Fin S2000x4.rank) →
    ((ix2 r (0 : Fin 1) : S2000x1.Idx) b).val = ((ix2 r k : S2000x4.Idx) (b.cast rfl)).val := fun b hb => by
  match b with
  | ⟨0, _⟩ => rfl
  | ⟨1, _⟩ => exact absurd rfl hb

/-- Four one-column matrices set side by side, read at row r: column 0 is the first matrix, -/
theorem concat_col0_apply :
    concatenate S2000x4 1 [⟨S2000x1, c0⟩, ⟨S2000x1, c1⟩, ⟨S2000x1, c2⟩, ⟨S2000x1, c3⟩]
        concatenates_S2000x1_S2000x1_S2000x1_S2000x1_S2000x4_d1 (ix2 r (0 : Fin 4)) = c0 (ix2 r (0 : Fin 1)) :=
  concatenate_apply_piece (1 : Fin S2000x4.rank) [⟨S2000x1, c0⟩, ⟨S2000x1, c1⟩, ⟨S2000x1, c2⟩, ⟨S2000x1, c3⟩]
    concatenates_S2000x1_S2000x1_S2000x1_S2000x1_S2000x4_d1 (ix2 r (0 : Fin 4))
    0 (by show _ < 4; omega) S2000x1 c0 rfl rfl 0 rfl (ix2 r (0 : Fin 1)) (concat_side r 0) rfl

/-- column 1 the second, -/
theorem concat_col1_apply :
    concatenate S2000x4 1 [⟨S2000x1, c0⟩, ⟨S2000x1, c1⟩, ⟨S2000x1, c2⟩, ⟨S2000x1, c3⟩]
        concatenates_S2000x1_S2000x1_S2000x1_S2000x1_S2000x4_d1 (ix2 r (1 : Fin 4)) = c1 (ix2 r (0 : Fin 1)) :=
  concatenate_apply_piece (1 : Fin S2000x4.rank) [⟨S2000x1, c0⟩, ⟨S2000x1, c1⟩, ⟨S2000x1, c2⟩, ⟨S2000x1, c3⟩]
    concatenates_S2000x1_S2000x1_S2000x1_S2000x1_S2000x4_d1 (ix2 r (1 : Fin 4))
    1 (by show _ < 4; omega) S2000x1 c1 rfl rfl 1 rfl (ix2 r (0 : Fin 1)) (concat_side r 1) rfl

/-- column 2 the third, -/
theorem concat_col2_apply :
    concatenate S2000x4 1 [⟨S2000x1, c0⟩, ⟨S2000x1, c1⟩, ⟨S2000x1, c2⟩, ⟨S2000x1, c3⟩]
        concatenates_S2000x1_S2000x1_S2000x1_S2000x1_S2000x4_d1 (ix2 r (2 : Fin 4)) = c2 (ix2 r (0 : Fin 1)) :=
  concatenate_apply_piece (1 : Fin S2000x4.rank) [⟨S2000x1, c0⟩, ⟨S2000x1, c1⟩, ⟨S2000x1, c2⟩, ⟨S2000x1, c3⟩]
    concatenates_S2000x1_S2000x1_S2000x1_S2000x1_S2000x4_d1 (ix2 r (2 : Fin 4))
    2 (by show _ < 4; omega) S2000x1 c2 rfl rfl 2 rfl (ix2 r (0 : Fin 1)) (concat_side r 2) rfl

/-- column 3 the fourth. -/
theorem concat_col3_apply :
    concatenate S2000x4 1 [⟨S2000x1, c0⟩, ⟨S2000x1, c1⟩, ⟨S2000x1, c2⟩, ⟨S2000x1, c3⟩]
        concatenates_S2000x1_S2000x1_S2000x1_S2000x1_S2000x4_d1 (ix2 r (3 : Fin 4)) = c3 (ix2 r (0 : Fin 1)) :=
  concatenate_apply_piece (1 : Fin S2000x4.rank) [⟨S2000x1, c0⟩, ⟨S2000x1, c1⟩, ⟨S2000x1, c2⟩, ⟨S2000x1, c3⟩]
    concatenates_S2000x1_S2000x1_S2000x1_S2000x1_S2000x4_d1 (ix2 r (3 : Fin 4))
    3 (by show _ < 4; omega) S2000x1 c3 rfl rfl 3 rfl (ix2 r (0 : Fin 1)) (concat_side r 3) rfl

end Columns

section Heads
variable (x0 : Vec Ideal S2000x128 .f32) (x1 : Vec Ideal S128x128 .f32) (x2 : Vec Ideal S128 .f32) (x3 : Vec Ideal S4x32 .f32)

/-- The attention vectors pass through a cast to their own shape unchanged. -/
theorem att_src_cast : k0_pay6 x3 = x3 := shapeCast_self x3 _
theorem att_dst_cast : k0_pay7 x3 = x3 := shapeCast_self x3 _

/-- The source-attention output block at row r and head k: the head's 32 projected features against the head's attention vector. -/
theorem qsrc_pay_apply (r : Fin 2000) (k : Fin 4) :
    k0_pay3 (k0_pay5 x0 x1 x2) (k0_pay6 x3) (k0_pay9 x0 x1 x2 x3) (k0_pay12 x0 x1 x2 x3) (ix2 r k)
      = ∑ f : Fin 32, k0_pay5 x0 x1 x2 (ix2 r (headCol k f)) * x3 (ix2 k f) := by
  obtain ⟨kv, hk⟩ := k
  unfold k0_pay3
  match kv, hk with
  | 0, _ =>
    refine (concat_col0_apply _ _ _ _ r).trans ?_
    unfold k0_pay9 k0_pay8
    refine (head_dot_apply (k0_pay5 x0 x1 x2) (k0_pay6 x3) 0 0 _ _ 0 rfl rfl r).trans ?_
    rw [att_src_cast]; rfl
  | 1, _ =>
    refine (concat_col1_apply _ _ _ _ r).trans ?_
    unfold k0_pay12 k0_pay11
    refine (head_dot_apply (k0_pay5 x0 x1 x2) (k0_pay6 x3) 32 1 _ _ 1 rfl rfl r).trans ?_
    rw [att_src_cast]; rfl
  | 2, _ =>
    refine (concat_col2_apply _ _ _ _ r).trans ?_
    unfold k0_pay1
    refine (head_dot_apply (k0_pay5 x0 x1 x2) (k0_pay6 x3) 64 2 _ _ 2 rfl rfl r).trans ?_
    rw [att_src_cast]; rfl
  | 3, _ =>
    refine (concat_col3_apply _ _ _ _ r).trans ?_
    unfold k0_pay2
    refine (head_dot_apply (k0_pay5 x0 x1 x2) (k0_pay6 x3) 96 3 _ _ 3 rfl rfl r).trans ?_
    rw [att_src_cast]; rfl
  | n + 4, h => exact absurd h (by omega)

/-- The destination-attention output block at row r and head k, likewise. -/
theorem qdst_pay_apply (r : Fin 2000) (k : Fin 4) :
    k0_pay4 (k0_pay5 x0 x1 x2) (k0_pay7 x3) (k0_pay10 x0 x1 x2 x3) (k0_pay13 x0 x1 x2 x3) (ix2 r k)
      = ∑ f : Fin 32, k0_pay5 x0 x1 x2 (ix2 r (headCol k f)) * x3 (ix2 k f) := by
  obtain ⟨kv, hk⟩ := k
  unfold k0_pay4
  match kv, hk with
  | 0, _ =>
    refine (concat_col0_apply _ _ _ _ r).trans ?_
    unfold k0_pay10 k0_pay8
    refine (head_dot_apply (k0_pay5 x0 x1 x2) (k0_pay7 x3) 0 0 _ _ 0 rfl rfl r).trans ?_
    rw [att_dst_cast]; rfl
  | 1, _ =>
    refine (concat_col1_apply _ _ _ _ r).trans ?_
    unfold k0_pay13 k0_pay11
    refine (head_dot_apply (k0_pay5 x0 x1 x2) (k0_pay7 x3) 32 1 _ _ 1 rfl rfl r).trans ?_
    rw [att_dst_cast]; rfl
  | 2, _ =>
    refine (concat_col2_apply _ _ _ _ r).trans ?_
    unfold k0_pay1
    refine (head_dot_apply (k0_pay5 x0 x1 x2) (k0_pay7 x3) 64 2 _ _ 2 rfl rfl r).trans ?_
    rw [att_dst_cast]; rfl
  | 3, _ =>
    refine (concat_col3_apply _ _ _ _ r).trans ?_
    unfold k0_pay2
    refine (head_dot_apply (k0_pay5 x0 x1 x2) (k0_pay7 x3) 96 3 _ _ 3 rfl rfl r).trans ?_
    rw [att_dst_cast]; rfl
  | n + 4, h => exact absurd h (by omega)

end Heads

/-! ## The specification: the three arrays as functions of the arrays the region finds -/

section Spec
variable (X : S50000x128.Idx → EReal) (Wt : S128x128.Idx → EReal) (B : S128.Idx → EReal)

/-- The projected feature j of node n: row n of X against column j of the weights, plus the bias. -/
def proj (n : Fin 50000) (j : Fin 128) : EReal := (∑ k : Fin 128, X (ix2 n k) * Wt (ix2 k j)) + B (ix1 j)

/-- The attention score of node n at head k for attention vectors A: the head's 32 projected features against A's row k. -/
def headScore (A : S4x32.Idx → EReal) (n : Fin 50000) (k : Fin 4) : EReal :=
  ∑ f : Fin 32, proj X Wt B n (headCol k f) * A (ix2 k f)

/-- A block of 2000 rows of the projection, from the rows' block of X: block b holds rows 2000 b … 2000 b + 1999. -/
theorem proj_block_apply (x0 : Vec Ideal S2000x128 .f32) (b : Nat)
    (h0 : ∀ (y : S2000x128.Idx) (i : S50000x128.Idx), (i 0).val = 2000 * b + (y 0).val → (i 1).val = (y 1).val → x0 y = X i)
    (y : S2000x128.Idx) (i : S50000x128.Idx) (hi0 : (i 0).val = 2000 * b + (y 0).val) (hi1 : (i 1).val = (y 1).val) :
    k0_pay5 x0 Wt B y = proj X Wt B (i 0) (i 1) := by
  obtain ⟨r, j, rfl⟩ : ∃ (r : Fin 2000) (j : Fin 128), y = ix2 r j := ⟨y 0, y 1, eq_ix2 y⟩
  have hj : (i 1 : Fin 128) = j := Fin.ext hi1
  rw [proj_apply, hj]
  unfold proj
  refine congrArg (fun s : EReal => s + B (ix1 j)) (Finset.sum_congr rfl fun k _ => ?_)
  exact congrArg (fun s : EReal => s * Wt (ix2 k j)) (h0 (ix2 r k) (ix2 (i 0) k) hi0 rfl)

/-- A block of 2000 rows of the scores, from the same rows' block of X. -/
theorem headScore_block_apply (A : S4x32.Idx → EReal) (x0 : Vec Ideal S2000x128 .f32) (b : Nat)
    (h0 : ∀ (y : S2000x128.Idx) (i : S50000x128.Idx), (i 0).val = 2000 * b + (y 0).val → (i 1).val = (y 1).val → x0 y = X i)
    (r : Fin 2000) (k : Fin 4) (i : S50000x4.Idx) (hi0 : (i 0).val = 2000 * b + r.val) (hi1 : (i 1).val = k.val) :
    (∑ f : Fin 32, k0_pay5 x0 Wt B (ix2 r (headCol k f)) * A (ix2 k f)) = headScore X Wt B A (i 0) (i 1) := by
  have hk : (i 1 : Fin 4) = k := Fin.ext hi1
  rw [hk]
  unfold headScore
  refine Finset.sum_congr rfl fun f _ => ?_
  exact congrArg (fun s : EReal => s * A (ix2 k f))
    (proj_block_apply X Wt B x0 b h0 (ix2 r (headCol k f)) (ix2 (i 0) (headCol k f)) hi0 rfl)

end Spec

section SpecBlocks
variable (X : S50000x128.Idx → EReal) (Wt : S128x128.Idx → EReal) (B : S128.Idx → EReal) (A : S4x32.Idx → EReal)

/-- A block of 2000 rows of the source scores as the body stores it. -/
theorem qsrc_block_apply (x0 : Vec Ideal S2000x128 .f32) (b : Nat)
    (h0 : ∀ (y : S2000x128.Idx) (i : S50000x128.Idx), (i 0).val = 2000 * b + (y 0).val → (i 1).val = (y 1).val → x0 y = X i)
    (y : S2000x4.Idx) (i : S50000x4.Idx) (hi0 : (i 0).val = 2000 * b + (y 0).val) (hi1 : (i 1).val = (y 1).val) :
    k0_pay3 (k0_pay5 x0 Wt B) (k0_pay6 A) (k0_pay9 x0 Wt B A) (k0_pay12 x0 Wt B A) y = headScore X Wt B A (i 0) (i 1) := by
  obtain ⟨r, k, rfl⟩ : ∃ (r : Fin 2000) (k : Fin 4), y = ix2 r k := ⟨y 0, y 1, eq_ix2 y⟩
  exact (qsrc_pay_apply x0 Wt B A r k).trans (headScore_block_apply X Wt B A x0 b h0 r k i hi0 hi1)

/-- A block of 2000 rows of the destination scores as the body stores it. -/
theorem qdst_block_apply (x0 : Vec Ideal S2000x128 .f32) (b : Nat)
    (h0 : ∀ (y : S2000x128.Idx) (i : S50000x128.Idx), (i 0).val = 2000 * b + (y 0).val → (i 1).val = (y 1).val → x0 y = X i)
    (y : S2000x4.Idx) (i : S50000x4.Idx) (hi0 : (i 0).val = 2000 * b + (y 0).val) (hi1 : (i 1).val = (y 1).val) :
    k0_pay4 (k0_pay5 x0 Wt B) (k0_pay7 A) (k0_pay10 x0 Wt B A) (k0_pay13 x0 Wt B A) y = headScore X Wt B A (i 0) (i 1) := by
  obtain ⟨r, k, rfl⟩ : ∃ (r : Fin 2000) (k : Fin 4), y = ix2 r k := ⟨y 0, y 1, eq_ix2 y⟩
  exact (qdst_pay_apply x0 Wt B A r k).trans (headScore_block_apply X Wt B A x0 b h0 r k i hi0 hi1)

end SpecBlocks

/-! ## From blocks to the arrays -/

section Arrays
variable (V : (c : Dev nD) → (b : Ref sig .tc) → Buf (Elt Ideal) ((c : Thread nD τ).loc b)) (c : Dev nD)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The windows' block indices at the 25 grid points: the row windows (X and the three outputs) sit at block t of their
    arrays, the other inputs are whole arrays. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- X's block at point t is rows 2000 t … 2000 t + 1999 of X. -/
theorem x_block_apply (t : Fin cfg0.N) (y : S2000x128.Idx) (i : S50000x128.Idx)
    (hi0 : (i 0).val = 2000 * t.val + (y 0).val) (hi1 : (i 1).val = (y 1).val) :
    (iblk0 V c 0 t : Vec Ideal S2000x128 .f32) y = (V c (Pipeline.arrRef spec0 0) : S50000x128.Idx → EReal) i := by
  obtain ⟨e0, e1, -⟩ := index_facts t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 2000 + 1 * (y 0).val = (i 0).val; rw [e0, hi0]; omega
  | ⟨1, _⟩ => show win0_0.index t (1 : Fin 2) * 128 + 1 * (y 1).val = (i 1).val; rw [e1, hi1]; omega

/-- The weights' block at every point is the weights. -/
theorem w_block (t : Fin cfg0.N) :
    (iblk0 V c 1 t : Vec Ideal S128x128 .f32) = (V c (Pipeline.arrRef spec0 1) : S128x128.Idx → EReal) := by
  obtain ⟨-, -, e0, e1, -⟩ := index_facts t
  funext y
  unfold iblk0
  rw [View.read_apply]
  show V c (Pipeline.arrRef spec0 1) _ = V c (Pipeline.arrRef spec0 1) y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block at every point is the bias. -/
theorem b_block (t : Fin cfg0.N) :
    (iblk0 V c 2 t : Vec Ideal S128 .f32) = (V c (Pipeline.arrRef spec0 2) : S128.Idx → EReal) := by
  obtain ⟨-, -, -, -, e0, -⟩ := index_facts t
  funext y
  unfold iblk0
  rw [View.read_apply]
  show V c (Pipeline.arrRef spec0 2) _ = V c (Pipeline.arrRef spec0 2) y
  congr 1
  funext a; apply Fin.ext
  match a with
  | ⟨0, _⟩ => show win0_2.index t (0 : Fin 1) * 128 + 1 * (y 0).val = (y 0).val; rw [e0]; omega

/-- The source attention vectors' block at every point is the vectors. -/
theorem as_block (t : Fin cfg0.N) :
    (iblk0 V c 3 t : Vec Ideal S4x32 .f32) = (V c (Pipeline.arrRef spec0 3) : S4x32.Idx → EReal) := by
  obtain ⟨-, -, -, -, -, e0, e1, -⟩ := index_facts t
  funext y
  unfold iblk0
  rw [View.read_apply]
  show V c (Pipeline.arrRef spec0 3) _ = V c (Pipeline.arrRef spec0 3) y
  congr 1
  funext a; apply Fin.ext
  match a with
  | ⟨0, _⟩ => show win0_3.index t (0 : Fin 2) * 4 + 1 * (y 0).val = (y 0).val; rw [e0]; omega
  | ⟨1, _⟩ => show win0_3.index t (1 : Fin 2) * 32 + 1 * (y 1).val = (y 1).val; rw [e1]; omega

/-- The destination attention vectors' block at every point is the vectors. -/
theorem ad_block (t : Fin cfg0.N) :
    (iblk0 V c 4 t : Vec Ideal S4x32 .f32) = (V c (Pipeline.arrRef spec0 4) : S4x32.Idx → EReal) := by
  obtain ⟨-, -, -, -, -, -, -, e0, e1, -⟩ := index_facts t
  funext y
  unfold iblk0
  rw [View.read_apply]
  show V c (Pipeline.arrRef spec0 4) _ = V c (Pipeline.arrRef spec0 4) y
  congr 1
  funext a; apply Fin.ext
  match a with
  | ⟨0, _⟩ => show win0_4.index t (0 : Fin 2) * 4 + 1 * (y 0).val = (y 0).val; rw [e0]; omega
  | ⟨1, _⟩ => show win0_4.index t (1 : Fin 2) * 32 + 1 * (y 1).val = (y 1).val; rw [e1]; omega

/-- What point t writes back to the projection's array: block t of the projection of the arrays the region finds. -/
theorem flushed_h (t : Fin cfg0.N) :
    (dat0 V c).flushed 5 t = ((cfg0.win 5).blk t).view.read (Elt Ideal)
      (fun i : S50000x128.Idx => proj (V c (Pipeline.arrRef spec0 0)) (V c (Pipeline.arrRef spec0 1)) (V c (Pipeline.arrRef spec0 2)) (i 0) (i 1)) := by
  show (cfg0.win 5).cut (grid0.coords t) ((dat0 V c).after 5 t) = _
  rw [after0_5]
  unfold out0_5
  rw [View.canon_unit_zero zero_offsets2]
  simp only [View.ld_unit_zero (S := S2000x128) zero_offsets2, View.ld_unit_zero (S := S128x128) zero_offsets2,
    View.ld_unit_zero (S := S128) zero_offsets1]
  rw [w_block V c t, b_block V c t]
  obtain ⟨-, -, -, -, -, -, -, -, -, e0, e1, -⟩ := index_facts t
  funext y
  show k0_pay5 (iblk0 V c 0 t) (V c (Pipeline.arrRef spec0 1)) (V c (Pipeline.arrRef spec0 2)) y
    = proj (V c (Pipeline.arrRef spec0 0)) (V c (Pipeline.arrRef spec0 1)) (V c (Pipeline.arrRef spec0 2))
        ((((cfg0.win 5).blk t).view.emb y) 0) ((((cfg0.win 5).blk t).view.emb y) 1)
  refine proj_block_apply (V c (Pipeline.arrRef spec0 0)) (V c (Pipeline.arrRef spec0 1)) (V c (Pipeline.arrRef spec0 2))
    (iblk0 V c 0 t) t.val (fun y i h0 h1 => x_block_apply V c t y i h0 h1) y (((cfg0.win 5).blk t).view.emb y) ?_ ?_
  · show win0_5.index t (0 : Fin 2) * 2000 + 1 * (y 0).val = 2000 * t.val + (y 0).val; rw [e0]; omega
  · show win0_5.index t (1 : Fin 2) * 128 + 1 * (y 1).val = (y 1).val; rw [e1]; omega

/-- An index of the projection's array is in point t's block iff each coordinate is in the block's range on its axis. -/
theorem mem_blk_h (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v6_0).slice (win0_5.rect t)).set ↔ _
  rw [View.set_slice_whole, Rect.mem_set_unit]
  exact Iff.rfl

/-- Row n lies in the block of point n / 2000. -/
theorem cover_h (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, e0, e1, -⟩ := index_facts t
  refine ⟨t, flush0_5 t, ?_⟩
  rw [mem_blk_h]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 128 ≤ (i 1).val ∧ (i 1).val < win0_5.index t (1 : Fin 2) * 128 + 128; rw [e1]; omega

/-- THE PROJECTION'S ARRAY after the region: h[n, j] = Σ_k X[n, k] · W[k, j] + b[j], of the arrays the region finds. -/
theorem h_arr : (dat0 V c).arrAt 5 cfg0.N
    = fun i : S50000x128.Idx => proj (V c (Pipeline.arrRef spec0 0)) (V c (Pipeline.arrRef spec0 1)) (V c (Pipeline.arrRef spec0 2)) (i 0) (i 1) :=
  (dat0 V c).arrAt_eq_of_cover 5 _ (fun t _ => flushed_h V c t) (cover_h)

/-- What point t writes back to the source scores' array: block t of the scores of the arrays the region finds. -/
theorem flushed_qsrc (t : Fin cfg0.N) :
    (dat0 V c).flushed 6 t = ((cfg0.win 6).blk t).view.read (Elt Ideal)
      (fun i : S50000x4.Idx => headScore (V c (Pipeline.arrRef spec0 0)) (V c (Pipeline.arrRef spec0 1)) (V c (Pipeline.arrRef spec0 2))
        (V c (Pipeline.arrRef spec0 3)) (i 0) (i 1)) := by
  show (cfg0.win 6).cut (grid0.coords t) ((dat0 V c).after 6 t) = _
  rw [after0_6]
  unfold out0_6
  rw [View.canon_unit_zero zero_offsets2]
  simp only [View.ld_unit_zero (S := S2000x128) zero_offsets2, View.ld_unit_zero (S := S128x128) zero_offsets2,
    View.ld_unit_zero (S := S128) zero_offsets1, View.ld_unit_zero (S := S4x32) zero_offsets2]
  rw [w_block V c t, b_block V c t, as_block V c t]
  obtain ⟨-, -, -, -, -, -, -, -, -, -, -, e0, e1, -⟩ := index_facts t
  funext y
  show k0_pay3 (k0_pay5 (iblk0 V c 0 t) (V c (Pipeline.arrRef spec0 1)) (V c (Pipeline.arrRef spec0 2))) (k0_pay6 (V c (Pipeline.arrRef spec0 3))) (k0_pay9 (iblk0 V c 0 t) (V c (Pipeline.arrRef spec0 1)) (V c (Pipeline.arrRef spec0 2)) (V c (Pipeline.arrRef spec0 3))) (k0_pay12 (iblk0 V c 0 t) (V c (Pipeline.arrRef spec0 1)) (V c (Pipeline.arrRef spec0 2)) (V c (Pipeline.arrRef spec0 3))) y
    = headScore (V c (Pipeline.arrRef spec0 0)) (V c (Pipeline.arrRef spec0 1)) (V c (Pipeline.arrRef spec0 2)) (V c (Pipeline.arrRef spec0 3))
        ((((cfg0.win 6).blk t).view.emb y) 0) ((((cfg0.win 6).blk t).view.emb y) 1)
  refine qsrc_block_apply (V c (Pipeline.arrRef spec0 0)) (V c (Pipeline.arrRef spec0 1)) (V c (Pipeline.arrRef spec0 2)) (V c (Pipeline.arrRef spec0 3))
    (iblk0 V c 0 t) t.val (fun y i h0 h1 => x_block_apply V c t y i h0 h1) y (((cfg0.win 6).blk t).view.emb y) ?_ ?_
  · show win0_6.index t (0 : Fin 2) * 2000 + 1 * (y 0).val = 2000 * t.val + (y 0).val; rw [e0]; omega
  · show win0_6.index t (1 : Fin 2) * 4 + 1 * (y 1).val = (y 1).val; rw [e1]; omega

/-- An index of the source scores' array is in point t's block iff each coordinate is in the block's range on its axis. -/
theorem mem_blk_qsrc (t : Fin cfg0.N) (i : S50000x4.Idx) :
    i ∈ ((cfg0.win 6).blk t).view.set ↔ ∀ a : Fin 2, win0_6.index t a * S2000x4.size a ≤ (i a).val ∧ (i a).val < win0_6.index t a * S2000x4.size a + S2000x4.size a := by
  show i ∈ ((View.whole main_v6_1).slice (win0_6.rect t)).set ↔ _
  rw [View.set_slice_whole, Rect.mem_set_unit]
  exact Iff.rfl

/-- Row n lies in the block of point n / 2000. -/
theorem cover_qsrc (i : S50000x4.Idx) : ∃ t : Fin cfg0.N, (cfg0.win 6).flush t = true ∧ i ∈ ((cfg0.win 6).blk t).view.set := by
  have h0 : (i 0).val < 50000 := (i 0).isLt
  have h1 : (i 1).val < 4 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, e0, e1, -⟩ := index_facts t
  refine ⟨t, flush0_6 t, ?_⟩
  rw [mem_blk_qsrc]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 4 ≤ (i 1).val ∧ (i 1).val < win0_6.index t (1 : Fin 2) * 4 + 4; rw [e1]; omega

/-- THE SOURCE SCORES' ARRAY after the region: qsrc[n, k] = Σ_f h[n, 32 k + f] · att[k, f], h the projection above. -/
theorem qsrc_arr : (dat0 V c).arrAt 6 cfg0.N
    = fun i : S50000x4.Idx => headScore (V c (Pipeline.arrRef spec0 0)) (V c (Pipeline.arrRef spec0 1)) (V c (Pipeline.arrRef spec0 2))
        (V c (Pipeline.arrRef spec0 3)) (i 0) (i 1) :=
  (dat0 V c).arrAt_eq_of_cover 6 _ (fun t _ => flushed_qsrc V c t) (cover_qsrc)

/-- What point t writes back to the destination scores' array: block t of the scores of the arrays the region finds. -/
theorem flushed_qdst (t : Fin cfg0.N) :
    (dat0 V c).flushed 7 t = ((cfg0.win 7).blk t).view.read (Elt Ideal)
      (fun i : S50000x4.Idx => headScore (V c (Pipeline.arrRef spec0 0)) (V c (Pipeline.arrRef spec0 1)) (V c (Pipeline.arrRef spec0 2))
        (V c (Pipeline.arrRef spec0 4)) (i 0) (i 1)) := by
  show (cfg0.win 7).cut (grid0.coords t) ((dat0 V c).after 7 t) = _
  rw [after0_7]
  unfold out0_7
  rw [View.canon_unit_zero zero_offsets2]
  simp only [View.ld_unit_zero (S := S2000x128) zero_offsets2, View.ld_unit_zero (S := S128x128) zero_offsets2,
    View.ld_unit_zero (S := S128) zero_offsets1, View.ld_unit_zero (S := S4x32) zero_offsets2]
  rw [w_block V c t, b_block V c t, ad_block V c t]
  obtain ⟨-, -, -, -, -, -, -, -, -, -, -, -, -, e0, e1⟩ := index_facts t
  funext y
  show k0_pay4 (k0_pay5 (iblk0 V c 0 t) (V c (Pipeline.arrRef spec0 1)) (V c (Pipeline.arrRef spec0 2))) (k0_pay7 (V c (Pipeline.arrRef spec0 4))) (k0_pay10 (iblk0 V c 0 t) (V c (Pipeline.arrRef spec0 1)) (V c (Pipeline.arrRef spec0 2)) (V c (Pipeline.arrRef spec0 4))) (k0_pay13 (iblk0 V c 0 t) (V c (Pipeline.arrRef spec0 1)) (V c (Pipeline.arrRef spec0 2)) (V c (Pipeline.arrRef spec0 4))) y
    = headScore (V c (Pipeline.arrRef spec0 0)) (V c (Pipeline.arrRef spec0 1)) (V c (Pipeline.arrRef spec0 2)) (V c (Pipeline.arrRef spec0 4))
        ((((cfg0.win 7).blk t).view.emb y) 0) ((((cfg0.win 7).blk t).view.emb y) 1)
  refine qdst_block_apply (V c (Pipeline.arrRef spec0 0)) (V c (Pipeline.arrRef spec0 1)) (V c (Pipeline.arrRef spec0 2)) (V c (Pipeline.arrRef spec0 4))
    (iblk0 V c 0 t) t.val (fun y i h0 h1 => x_block_apply V c t y i h0 h1) y (((cfg0.win 7).blk t).view.emb y) ?_ ?_
  · show win0_7.index t (0 : Fin 2) * 2000 + 1 * (y 0).val = 2000 * t.val + (y 0).val; rw [e0]; omega
  · show win0_7.index t (1 : Fin 2) * 4 + 1 * (y 1).val = (y 1).val; rw [e1]; omega

/-- An index of the destination scores' array is in point t's block iff each coordinate is in the block's range on its axis. -/
theorem mem_blk_qdst (t : Fin cfg0.N) (i : S50000x4.Idx) :
    i ∈ ((cfg0.win 7).blk t).view.set ↔ ∀ a : Fin 2, win0_7.index t a * S2000x4.size a ≤ (i a).val ∧ (i a).val < win0_7.index t a * S2000x4.size a + S2000x4.size a := by
  show i ∈ ((View.whole main_v6_2).slice (win0_7.rect t)).set ↔ _
  rw [View.set_slice_whole, Rect.mem_set_unit]
  exact Iff.rfl

/-- Row n lies in the block of point n / 2000. -/
theorem cover_qdst (i : S50000x4.Idx) : ∃ t : Fin cfg0.N, (cfg0.win 7).flush t = true ∧ i ∈ ((cfg0.win 7).blk t).view.set := by
  have h0 : (i 0).val < 50000 := (i 0).isLt
  have h1 : (i 1).val < 4 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, -, e0, e1⟩ := index_facts t
  refine ⟨t, flush0_7 t, ?_⟩
  rw [mem_blk_qdst]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 4 ≤ (i 1).val ∧ (i 1).val < win0_7.index t (1 : Fin 2) * 4 + 4; rw [e1]; omega

/-- THE DESTINATION SCORES' ARRAY after the region: qdst[n, k] = Σ_f h[n, 32 k + f] · att[k, f], h the projection above. -/
theorem qdst_arr : (dat0 V c).arrAt 7 cfg0.N
    = fun i : S50000x4.Idx => headScore (V c (Pipeline.arrRef spec0 0)) (V c (Pipeline.arrRef spec0 1)) (V c (Pipeline.arrRef spec0 2))
        (V c (Pipeline.arrRef spec0 4)) (i 0) (i 1) :=
  (dat0 V c).arrAt_eq_of_cover 7 _ (fun t _ => flushed_qdst V c t) (cover_qdst)

end Arrays

end Cert.KernelIdeal.Region0

end
-- ==== Proof.Region1.lean ====
/-
  The second region of the graph-attention layer (the edge-attention logits) as ONE function of the arrays it finds.

  For every edge e (1600000 of them) and head k (4 of them) the region's output is
      alpha (e, k) = L ( (Asrc (e, k) + Adst (e, k)) + ( ∑ over j < 32 of  max ( ∑ over i < 4 of EA (e, i) · W1 (i, j) + B1 (j), 0 ) · W2 (j, k)  +  B2 (k) ) )
  where EA is the [1600000, 4] array of edge attributes, Asrc and Adst the [1600000, 4] arrays of the source and the
  target node terms, W1 [4, 32], B1 [32], W2 [32, 4], B2 [4] the perceptron's weights and biases, all as the region
  finds them, and L is the leaky rectifier of slope 0.2: L (s) is s where s ≥ 0 and the 32-bit word 0x3E4CCCCD times s
  elsewhere, kept as the select on the comparison the body writes.
  The region works on 400 blocks of 4000 edges; block t holds edges 4000 t … 4000 t + 3999 of the three per-edge arrays,
  while the weights and biases are one block each. Read at the extended reals every operation is exact and a change of
  float format is the identity, so each of the body's two matrix products into a zero accumulator is the plain finite
  sum of products, and the entry at (r, k) of a block is the formula above over the block's rows; the blocks tile the
  edge axis (edge e lies in block e / 4000), hence the whole array is the function `alpha`.
-/
import proofs.«142816_j68169720922763_2_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region1

open Cert.KernelIdeal Cert.KernelIdeal.Gen

/-! ## The two matrix products and the bias rows of the body, read at one element -/

/-- A matrix product `[m, k] × [k, n]` into the zero accumulator, read at `(a, b)` over the extended reals, is the sum over
    the contracted coordinate of the products of the entries. -/
theorem matmul_zero_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A bias vector `[b]` viewed as one row `[1, b]` and repeated over `a` rows reads, at `(p, c)`, its entry `c`. -/
theorem bias_row_apply {α : Type} {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ (0 : Fin 1) c)

/-! ## The body's arithmetic at one element -/

/-- The leaky rectifier of slope 0.2 as the body writes it: where `s ≥ 0` the value `s`, elsewhere the word of 0.2 times `s`. -/
def leaky (s : EReal) : EReal :=
  Scalar.select (FloatOps.cmpf (F := Ideal) (φ := .f32) .oge s 0) s (Ideal.ofBits .f32 0x3E4CCCCD#32 * s)

/-- The select of the body on a vector `X`, read where `X` is `s`, is `leaky s`. -/
theorem leaky_select_apply {sh : Shape} (X : FVec Ideal sh .f32) (i : sh.Idx) (s : EReal) (hX : X i = s) :
    select (cmpf .oge X (broadcast sh (Scalar.ofBits (F := Ideal) .f32 0x00000000#32))) X
        (mulf (broadcast sh (Scalar.ofBits (F := Ideal) .f32 0x3E4CCCCD#32)) X) i = leaky s := by
  subst hX
  show Scalar.select (FloatOps.cmpf (F := Ideal) (φ := .f32) .oge (X i) (Ideal.ofBits .f32 0x00000000#32)) (X i)
      (Ideal.ofBits .f32 0x3E4CCCCD#32 * X i) = _
  rw [Ideal.ofBits_zero_f32]
  rfl

/-- The body's stored value at edge row `e`, head `k` of a block: the leaky rectifier of the two node terms added, plus
    the two-layer perceptron of the edge's four attributes (hidden width 32, rectified) at head `k`. -/
theorem edge_payload_apply (v0 : Vec Ideal S4000x4 .f32) (v2 : Vec Ideal S4x32 .f32) (v5 : Vec Ideal S32 .f32)
    (v12 : Vec Ideal S32x4 .f32) (v15 : Vec Ideal S4 .f32) (v19 : Vec Ideal S4000x4 .f32) (v21 : Vec Ideal S4000x4 .f32)
    (e : Fin 4000) (k : Fin 4) :
    k1_pay1 (F := Ideal) v0 v2 v5 v12 v15 v19 v21 (ix2 e k)
      = leaky ((v19 (ix2 e k) + v21 (ix2 e k))
          + ((∑ j : Fin 32, max ((∑ i : Fin 4, v0 (ix2 e i) * v2 (ix2 i j)) + v5 (ix1 j)) 0 * v12 (ix2 j k))
              + v15 (ix1 k))) := by
  unfold k1_pay1
  refine leaky_select_apply _ (ix2 e k) _ ?_
  refine (addf_apply _ _ (ix2 e k)).trans (congrArg₂ (· + ·) ?_ ?_)
  · refine (addf_apply _ _ (ix2 e k)).trans (congrArg₂ (· + ·) ?_ ?_)
    · exact congrFun (shapeCast_self v19 _) (ix2 e k)
    · exact congrFun (shapeCast_self v21 _) (ix2 e k)
  · refine (addf_apply _ _ (ix2 e k)).trans (congrArg₂ (· + ·) ?_ ?_)
    · refine (matmul_zero_plain_apply _ none _ _ e k).trans ?_
      refine Finset.sum_congr rfl fun j _ => congrArg₂ (· * ·) ?_ rfl
      refine (truncf_apply (φ := .f32) (ψ := .bf16) _ bitsLt_bf16_f32 (ix2 e j)).trans ?_
      refine (maximumf_apply _ _ (ix2 e j)).trans (congrArg₂ max ?_ Ideal.ofBits_zero_f32)
      refine (addf_apply _ _ (ix2 e j)).trans (congrArg₂ (· + ·) ?_ ?_)
      · exact (matmul_zero_plain_apply _ none _ _ e j).trans (Finset.sum_congr rfl fun i _ => rfl)
      · exact bias_row_apply v5 _ _ e j
    · exact bias_row_apply v15 _ _ e k

/-! ## The region's output as one function of the arrays it finds -/

/-- The two-layer perceptron of edge `e`'s four attributes at head `k`: a hidden layer of width 32 with its bias, rectified
    at zero, then the second layer with its bias. -/
def edgeMlp (EA : S1600000x4.Idx → EReal) (W1 : S4x32.Idx → EReal) (B1 : S32.Idx → EReal) (W2 : S32x4.Idx → EReal)
    (B2 : S4.Idx → EReal) (e : Fin 1600000) (k : Fin 4) : EReal :=
  (∑ j : Fin 32, max ((∑ i : Fin 4, EA (ix2 e i) * W1 (ix2 i j)) + B1 (ix1 j)) 0 * W2 (ix2 j k)) + B2 (ix1 k)

/-- The attention logit of edge `e` at head `k`: the leaky rectifier of the source term plus the target term plus the
    perceptron of the edge's attributes. -/
def alpha (EA Asrc Adst : S1600000x4.Idx → EReal) (W1 : S4x32.Idx → EReal) (B1 : S32.Idx → EReal)
    (W2 : S32x4.Idx → EReal) (B2 : S4.Idx → EReal) (e : Fin 1600000) (k : Fin 4) : EReal :=
  leaky ((Asrc (ix2 e k) + Adst (ix2 e k)) + edgeMlp EA W1 B1 W2 B2 e k)

/-! ## From the blocks to the array -/

section Blocks

variable (V : (c : Dev nD) → (b : Ref sig .tc) → Buf (Elt Ideal) ((c : Thread nD τ).loc b))

theorem zeros1 : (![0] : Fin 1 → Nat) = fun _ => 0 := funext fun a => by fin_cases a; rfl
theorem zeros2 : (![0, 0] : Fin 2 → Nat) = fun _ => 0 := funext fun a => by fin_cases a <;> rfl

/-- The printed index maps, decided over the 400 grid points: the three per-edge inputs and the output move with the
    point on the edge axis; the two weight matrices and the two bias vectors are one block each. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- The edge attributes' block at point `t` is rows `4000 t … 4000 t + 3999` of their array. -/
theorem attr_block_apply (c : Dev nD) (t : Fin cfg1.N) (p : Fin 4000) (q : Fin 4) (n : Fin 1600000)
    (hn : n.val = t.val * 4000 + p.val) :
    (iblk1 V c 0 t : Vec Ideal S4000x4 .f32) (ix2 p q)
      = (V c (Pipeline.arrRef spec1 0) : S1600000x4.Idx → EReal) (ix2 n q) := by
  have e := block_index t
  unfold iblk1
  rw [View.read_apply]
  refine congrArg (V c (Pipeline.arrRef spec1 0) : S1600000x4.Idx → EReal) ?_
  funext a
  apply Fin.ext
  match a with
  | ⟨0, _⟩ => show win1_0.index t (0 : Fin 2) * 4000 + 1 * p.val = n.val; rw [hn]; omega
  | ⟨1, _⟩ => show win1_0.index t (1 : Fin 2) * 4 + 1 * q.val = q.val; omega

/-- The source-node terms' block at point `t` is rows `4000 t … 4000 t + 3999` of their array. -/
theorem src_block_apply (c : Dev nD) (t : Fin cfg1.N) (p : Fin 4000) (q : Fin 4) (n : Fin 1600000)
    (hn : n.val = t.val * 4000 + p.val) :
    (iblk1 V c 1 t : Vec Ideal S4000x4 .f32) (ix2 p q)
      = (V c (Pipeline.arrRef spec1 1) : S1600000x4.Idx → EReal) (ix2 n q) := by
  have e := block_index t
  unfold iblk1
  rw [View.read_apply]
  refine congrArg (V c (Pipeline.arrRef spec1 1) : S1600000x4.Idx → EReal) ?_
  funext a
  apply Fin.ext
  match a with
  | ⟨0, _⟩ => show win1_1.index t (0 : Fin 2) * 4000 + 1 * p.val = n.val; rw [hn]; omega
  | ⟨1, _⟩ => show win1_1.index t (1 : Fin 2) * 4 + 1 * q.val = q.val; omega

/-- The target-node terms' block at point `t` is rows `4000 t … 4000 t + 3999` of their array. -/
theorem dst_block_apply (c : Dev nD) (t : Fin cfg1.N) (p : Fin 4000) (q : Fin 4) (n : Fin 1600000)
    (hn : n.val = t.val * 4000 + p.val) :
    (iblk1 V c 2 t : Vec Ideal S4000x4 .f32) (ix2 p q)
      = (V c (Pipeline.arrRef spec1 2) : S1600000x4.Idx → EReal) (ix2 n q) := by
  have e := block_index t
  unfold iblk1
  rw [View.read_apply]
  refine congrArg (V c (Pipeline.arrRef spec1 2) : S1600000x4.Idx → EReal) ?_
  funext a
  apply Fin.ext
  match a with
  | ⟨0, _⟩ => show win1_2.index t (0 : Fin 2) * 4000 + 1 * p.val = n.val; rw [hn]; omega
  | ⟨1, _⟩ => show win1_2.index t (1 : Fin 2) * 4 + 1 * q.val = q.val; omega

/-- The first layer's weights are one block: the whole `[4, 32]` matrix at every point. -/
theorem w1_block_apply (c : Dev nD) (t : Fin cfg1.N) (p : Fin 4) (q : Fin 32) :
    (iblk1 V c 3 t : Vec Ideal S4x32 .f32) (ix2 p q)
      = (V c (Pipeline.arrRef spec1 3) : S4x32.Idx → EReal) (ix2 p q) := by
  have e := block_index t
  unfold iblk1
  rw [View.read_apply]
  refine congrArg (V c (Pipeline.arrRef spec1 3) : S4x32.Idx → EReal) ?_
  funext a
  apply Fin.ext
  match a with
  | ⟨0, _⟩ => show win1_3.index t (0 : Fin 2) * 4 + 1 * p.val = p.val; omega
  | ⟨1, _⟩ => show win1_3.index t (1 : Fin 2) * 32 + 1 * q.val = q.val; omega

/-- The first layer's bias is one block: the whole vector at every point. -/
theorem b1_block_apply (c : Dev nD) (t : Fin cfg1.N) (q : Fin 32) :
    (iblk1 V c 4 t : Vec Ideal S32 .f32) (ix1 q)
      = (V c (Pipeline.arrRef spec1 4) : S32.Idx → EReal) (ix1 q) := by
  have e := block_index t
  unfold iblk1
  rw [View.read_apply]
  refine congrArg (V c (Pipeline.arrRef spec1 4) : S32.Idx → EReal) ?_
  funext a
  apply Fin.ext
  match a with
  | ⟨0, _⟩ => show win1_4.index t (0 : Fin 1) * 32 + 1 * q.val = q.val; omega

/-- The second layer's weights are one block: the whole `[32, 4]` matrix at every point. -/
theorem w2_block_apply (c : Dev nD) (t : Fin cfg1.N) (p : Fin 32) (q : Fin 4) :
    (iblk1 V c 5 t : Vec Ideal S32x4 .f32) (ix2 p q)
      = (V c (Pipeline.arrRef spec1 5) : S32x4.Idx → EReal) (ix2 p q) := by
  have e := block_index t
  unfold iblk1
  rw [View.read_apply]
  refine congrArg (V c (Pipeline.arrRef spec1 5) : S32x4.Idx → EReal) ?_
  funext a
  apply Fin.ext
  match a with
  | ⟨0, _⟩ => show win1_5.index t (0 : Fin 2) * 32 + 1 * p.val = p.val; omega
  | ⟨1, _⟩ => show win1_5.index t (1 : Fin 2) * 4 + 1 * q.val = q.val; omega

/-- The second layer's bias is one block: the whole vector at every point. -/
theorem b2_block_apply (c : Dev nD) (t : Fin cfg1.N) (q : Fin 4) :
    (iblk1 V c 6 t : Vec Ideal S4 .f32) (ix1 q)
      = (V c (Pipeline.arrRef spec1 6) : S4.Idx → EReal) (ix1 q) := by
  have e := block_index t
  unfold iblk1
  rw [View.read_apply]
  refine congrArg (V c (Pipeline.arrRef spec1 6) : S4.Idx → EReal) ?_
  funext a
  apply Fin.ext
  match a with
  | ⟨0, _⟩ => show win1_6.index t (0 : Fin 1) * 4 + 1 * q.val = q.val; omega

end Blocks

section Array

variable (V : (c : Dev nD) → (b : Ref sig .tc) → Buf (Elt Ideal) ((c : Thread nD τ).loc b))

/-- What point `t` writes back, read at row `p`, head `q` of its block, is the logit of edge `4000 t + p` at head `q`. -/
theorem flushed_entry (c : Dev nD) (t : Fin cfg1.N) (p : Fin 4000) (q : Fin 4) (n : Fin 1600000) (q' : Fin 4)
    (hn : n.val = t.val * 4000 + p.val) (hq : q' = q) :
    k1_pay1 (F := Ideal) (iblk1 V c 0 t) (iblk1 V c 3 t) (iblk1 V c 4 t) (iblk1 V c 5 t) (iblk1 V c 6 t)
        (iblk1 V c 1 t) (iblk1 V c 2 t) (ix2 p q)
      = alpha (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) n q' := by
  subst hq
  refine (edge_payload_apply (iblk1 V c 0 t) (iblk1 V c 3 t) (iblk1 V c 4 t) (iblk1 V c 5 t) (iblk1 V c 6 t)
    (iblk1 V c 1 t) (iblk1 V c 2 t) p q').trans ?_
  unfold alpha edgeMlp
  refine congrArg leaky (congrArg₂ (· + ·)
    (congrArg₂ (· + ·) (src_block_apply V c t p q' n hn) (dst_block_apply V c t p q' n hn))
    (congrArg₂ (· + ·) (Finset.sum_congr rfl fun j _ => congrArg₂ (· * ·)
      (congrArg₂ max (congrArg₂ (· + ·)
        (Finset.sum_congr rfl fun i _ => congrArg₂ (· * ·) (attr_block_apply V c t p i n hn) (w1_block_apply V c t i j))
        (b1_block_apply V c t j)) rfl)
      (w2_block_apply V c t j q')) (b2_block_apply V c t q')))

/-- What point `t` writes back is block `t` of the logits of the arrays as the region finds them. -/
theorem flushed_eq (c : Dev nD) (t : Fin cfg1.N) :
    (dat1 V c).flushed 7 t = ((cfg1.win 7).blk t).view.read (Elt Ideal)
      (fun i : S1600000x4.Idx => alpha (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)) (i 0) (i 1)) := by
  show (cfg1.win 7).cut (grid1.coords t) ((dat1 V c).after 7 t) = _
  rw [after1_7]
  unfold out1_7
  rw [View.canon_unit_zero zeros2]
  simp only [View.ld_unit_zero (S := S4000x4) zeros2, View.ld_unit_zero (S := S4x32) zeros2,
    View.ld_unit_zero (S := S32x4) zeros2, View.ld_unit_zero (S := S32) zeros1, View.ld_unit_zero (S := S4) zeros1]
  have e := block_index t
  funext j
  obtain ⟨p, q, rfl⟩ : ∃ (p : Fin 4000) (q : Fin 4), j = ix2 p q := ⟨j 0, j 1, eq_ix2 j⟩
  have hn : ((((cfg1.win 7).blk t).view.emb (ix2 p q)) 0 : Fin 1600000).val = t.val * 4000 + p.val := by
    show win1_7.index t (0 : Fin 2) * 4000 + 1 * p.val = _
    omega
  have hq : ((((cfg1.win 7).blk t).view.emb (ix2 p q)) 1 : Fin 4) = q := Fin.ext (by
    show win1_7.index t (1 : Fin 2) * 4 + 1 * q.val = q.val
    omega)
  exact flushed_entry V c t p q _ _ hn hq

/-- An index of the output array is in point `t`'s block iff each coordinate is in the block's range on its axis. -/
theorem mem_blk (t : Fin cfg1.N) (i : S1600000x4.Idx) :
    i ∈ ((cfg1.win 7).blk t).view.set ↔ ∀ a : Fin 2, win1_7.index t a * S4000x4.size a ≤ (i a).val
      ∧ (i a).val < win1_7.index t a * S4000x4.size a + S4000x4.size a := by
  show i ∈ ((View.whole main_v21).slice (win1_7.rect t)).set ↔ _
  rw [View.set_slice_whole, Rect.mem_set_unit]
  exact Iff.rfl

/-- Edge `e` is written back by point `e / 4000`: the 400 blocks of 4000 edges tile the 1600000 edges. -/
theorem covered (i : S1600000x4.Idx) :
    ∃ t : Fin cfg1.N, (cfg1.win 7).flush t = true ∧ i ∈ ((cfg1.win 7).blk t).view.set := by
  have h0 : (i 0).val < 1600000 := (i 0).isLt
  have h1 : (i 1).val < 4 := (i 1).isLt
  have hN : cfg1.N = 400 := N_1
  let t : Fin cfg1.N := ⟨(i 0).val / 4000, by rw [hN]; omega⟩
  have ht : t.val = (i 0).val / 4000 := rfl
  have e := block_index t
  refine ⟨t, flush1_7 t, ?_⟩
  rw [mem_blk]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 4 ≤ (i 1).val ∧ (i 1).val < win1_7.index t (1 : Fin 2) * 4 + 4
    omega

/-- THE LOGITS' ARRAY after the region's write-backs, for any entry contents `V`: at edge `e` and head `k`, the leaky
    rectifier of the source term plus the target term plus the perceptron of the edge's attributes, over the seven arrays
    as the region finds them. -/
theorem alpha_arr (c : Dev nD) :
    (dat1 V c).arrAt 7 cfg1.N
      = fun i : S1600000x4.Idx => alpha (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) (V c (Pipeline.arrRef spec1 6)) (i 0) (i 1) :=
  (dat1 V c).arrAt_eq_of_cover 7 _ (fun t _ => flushed_eq V c t) covered

/-- The same read at one entry `(e, k)`. -/
theorem alpha_arr_apply (c : Dev nD) (e : Fin 1600000) (k : Fin 4) :
    ((dat1 V c).arrAt 7 cfg1.N : S1600000x4.Idx → EReal) (ix2 e k)
      = alpha (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) e k :=
  congrFun (alpha_arr V c) (ix2 e k)

end Array

end Cert.KernelIdeal.Region1
-- ==== Proof.Region2.lean ====
/-
  The third region of the graph-attention layer (the combine step) as ONE function of the arrays it finds.

  For every node n (50000 of them) and feature f (32 of them) the region's output is
      out (n, f) = ( ∑ over the four heads k of  D (n, k) · S (n, k, f) ) · ¼
  where D is the [50000, 4] array of per-head weights and S the [50000, 4, 32] array of per-head aggregated
  features, both as the region finds them, and ¼ is kept as the 32-bit word 0x3E800000 it is written with.
  The region works on 25 blocks of 2000 nodes; block t holds nodes 2000 t … 2000 t + 1999 of each array, and the body
  computes, inside one block, the product of the weights (viewed [2000, 4, 1] and repeated along the features) with the
  features, summed over the head axis, times the quarter. Read at the extended reals every operation is exact, so the
  entry at (r, f) of a block is the finite sum above over the block's rows; the blocks tile the node axis (node n lies
  in block n / 2000), hence the whole array is the function `combine`.
-/
import proofs.«142816_j68169720922763_2_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region2

open Cert.KernelIdeal Cert.KernelIdeal.Gen

/-! ## Layout steps of the body, read at one element -/

/-- An `[a, b]` array viewed as `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its last axis to `[a, b, c]` reads, at `(i, j, l)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else l.val
    rfl

/-! ## The body's arithmetic at one element -/

/-- One entry of the combined output: the per-head weights of node `n` times the per-head aggregated features, summed
    over the four heads, then scaled by the word of one quarter (the mean over the heads). -/
def combine (D : S50000x4.Idx → EReal) (S : S50000x4x32.Idx → EReal) (n : Fin 50000) (f : Fin 32) : EReal :=
  (∑ k : Fin 4, D (ix2 n k) * S (ix3 n k f)) * Ideal.ofBits .f32 0x3E800000#32

/-- The index of the `[2000, 4, 32]` product over output entry `(r, f)` with head `k` on the summed axis is `(r, k, f)`. -/
theorem head_lift (r : Fin 2000) (f : Fin 32) (k : Fin 4) :
    (reduces_S2000x4x32_S2000x32.lift (ix2 r f) k : S2000x4x32.Idx) = ix3 r k f :=
  funext fun a => Fin.ext (match a with | ⟨0, _⟩ => rfl | ⟨1, _⟩ => rfl | ⟨2, _⟩ => rfl)

/-- The body's stored value at row `r`, feature `f` of a block: the sum over the heads of weight times feature, times
    the word of one quarter. -/
theorem combine_payload_apply (x0 : Vec Ideal S2000x4 .f32) (x1 : Vec Ideal S2000x4x32 .f32) (r : Fin 2000) (f : Fin 32) :
    k2_pay1 (F := Ideal) x0 x1 (ix2 r f)
      = (∑ k : Fin 4, x0 (ix2 r k) * x1 (ix3 r k f)) * Ideal.ofBits .f32 0x3E800000#32 := by
  unfold k2_pay1
  refine (mulf_apply _ _ (ix2 r f)).trans ?_
  refine congrArg₂ (· * ·) ?_ rfl
  refine (Ideal.multiReduction_add_single _ _ _ _ _ (ix2 r f)).trans ?_
  show ∑ k : Fin 4, _ = ∑ k : Fin 4, _
  refine Finset.sum_congr rfl fun (k : Fin 4) _ => ?_
  refine (congrArg (mulf _ _) (head_lift r f k)).trans ?_
  refine (mulf_apply _ _ (ix3 r k f)).trans ?_
  refine congrArg₂ (· * ·) ?_ ?_
  · refine (broadcastTo_ab1_abc_apply _ _ r k f).trans ?_
    refine (shapeCast_ab_ab1_apply _ _ r k (0 : Fin 1)).trans ?_
    exact congrFun (shapeCast_self x0 _) (ix2 r k)
  · exact congrFun (shapeCast_self x1 _) (ix3 r k f)

/-! ## From the blocks to the array -/

section Blocks

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 25 grid points: every window's block index is the point on the node axis
    and zero on the others. -/
theorem block_index : ∀ t : Fin cfg2.N,
    win2_0.index t (0 : Fin 2) = t.val ∧ win2_0.index t (1 : Fin 2) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0 :=
  (by decide +kernel : ∀ t : Fin grid2.N, _)

/-- The weights' block at point `t` is rows `2000 t … 2000 t + 1999` of the weights' array. -/
theorem dense_block_apply (c : Dev nD) (t : Fin cfg2.N) (p : Fin 2000) (k : Fin 4) (n : Fin 50000)
    (hn : n.val = t.val * 2000 + p.val) :
    (iblk2 V c 0 t : Vec Ideal S2000x4 .f32) (ix2 p k)
      = (V c (Pipeline.arrRef spec2 0) : S50000x4.Idx → EReal) (ix2 n k) := by
  obtain ⟨e0, e1, -⟩ := block_index t
  unfold iblk2
  rw [View.read_apply]
  refine congrArg (V c (Pipeline.arrRef spec2 0) : S50000x4.Idx → EReal) ?_
  funext a
  apply Fin.ext
  match a with
  | ⟨0, _⟩ => show win2_0.index t (0 : Fin 2) * 2000 + 1 * p.val = n.val; rw [e0, hn]; omega
  | ⟨1, _⟩ => show win2_0.index t (1 : Fin 2) * 4 + 1 * k.val = k.val; rw [e1]; omega

/-- The features' block at point `t` is rows `2000 t … 2000 t + 1999` of the features' array. -/
theorem feat_block_apply (c : Dev nD) (t : Fin cfg2.N) (p : Fin 2000) (k : Fin 4) (f : Fin 32) (n : Fin 50000)
    (hn : n.val = t.val * 2000 + p.val) :
    (iblk2 V c 1 t : Vec Ideal S2000x4x32 .f32) (ix3 p k f)
      = (V c (Pipeline.arrRef spec2 1) : S50000x4x32.Idx → EReal) (ix3 n k f) := by
  obtain ⟨-, -, e2, e3, e4, -⟩ := block_index t
  unfold iblk2
  rw [View.read_apply]
  refine congrArg (V c (Pipeline.arrRef spec2 1) : S50000x4x32.Idx → EReal) ?_
  funext a
  apply Fin.ext
  match a with
  | ⟨0, _⟩ => show win2_1.index t (0 : Fin 3) * 2000 + 1 * p.val = n.val; rw [e2, hn]; omega
  | ⟨1, _⟩ => show win2_1.index t (1 : Fin 3) * 4 + 1 * k.val = k.val; rw [e3]; omega
  | ⟨2, _⟩ => show win2_1.index t (2 : Fin 3) * 32 + 1 * f.val = f.val; rw [e4]; omega

/-- What point `t` writes back is block `t` of the combined output of the two arrays as the region finds them. -/
theorem flushed_eq (c : Dev nD) (t : Fin cfg2.N) :
    (dat2 V c).flushed 2 t = ((cfg2.win 2).blk t).view.read (Elt Ideal)
      (fun i : S50000x32.Idx => combine (V c (Pipeline.arrRef spec2 0)) (V c (Pipeline.arrRef spec2 1)) (i 0) (i 1)) := by
  show (cfg2.win 2).cut (grid2.coords t) ((dat2 V c).after 2 t) = _
  rw [after2_2]
  unfold out2_2
  rw [View.canon_unit_zero zeros2]
  simp only [View.ld_unit_zero (S := S2000x4) zeros2, View.ld_unit_zero (S := S2000x4x32) zeros3]
  obtain ⟨-, -, -, -, -, e5, e6⟩ := block_index t
  funext j
  obtain ⟨p, q, rfl⟩ : ∃ (p : Fin 2000) (q : Fin 32), j = ix2 p q := ⟨j 0, j 1, eq_ix2 j⟩
  have hn : ((((cfg2.win 2).blk t).view.emb (ix2 p q)) 0 : Fin 50000).val = t.val * 2000 + p.val := by
    show win2_2.index t (0 : Fin 2) * 2000 + 1 * p.val = _
    rw [e5]; omega
  have hq : ((((cfg2.win 2).blk t).view.emb (ix2 p q)) 1 : Fin 32) = q := Fin.ext (by
    show win2_2.index t (1 : Fin 2) * 32 + 1 * q.val = q.val
    rw [e6]; omega)
  show k2_pay1 (iblk2 V c 0 t) (iblk2 V c 1 t) (ix2 p q)
    = combine (V c (Pipeline.arrRef spec2 0)) (V c (Pipeline.arrRef spec2 1))
        ((((cfg2.win 2).blk t).view.emb (ix2 p q)) 0) ((((cfg2.win 2).blk t).view.emb (ix2 p q)) 1)
  refine (combine_payload_apply (iblk2 V c 0 t) (iblk2 V c 1 t) p q).trans ?_
  refine Eq.trans ?_ (congrArg (combine (V c (Pipeline.arrRef spec2 0)) (V c (Pipeline.arrRef spec2 1))
        ((((cfg2.win 2).blk t).view.emb (ix2 p q)) 0)) hq.symm)
  unfold combine
  refine congrArg₂ (· * ·) (Finset.sum_congr rfl fun k _ => ?_) rfl
  exact congrArg₂ (· * ·) (dense_block_apply V c t p k _ hn) (feat_block_apply V c t p k q _ hn)

/-- An index of the output array is in point `t`'s block iff each coordinate is in the block's range on its axis. -/
theorem mem_blk (t : Fin cfg2.N) (i : S50000x32.Idx) :
    i ∈ ((cfg2.win 2).blk t).view.set ↔ ∀ a : Fin 2, win2_2.index t a * S2000x32.size a ≤ (i a).val
      ∧ (i a).val < win2_2.index t a * S2000x32.size a + S2000x32.size a := by
  show i ∈ ((View.whole main_v60).slice (win2_2.rect t)).set ↔ _
  rw [View.set_slice_whole, Rect.mem_set_unit]
  exact Iff.rfl

/-- Row `r` of the output is written back by point `r / 2000`: the 25 blocks of 2000 rows tile the 50000 rows. -/
theorem covered (i : S50000x32.Idx) :
    ∃ t : Fin cfg2.N, (cfg2.win 2).flush t = true ∧ i ∈ ((cfg2.win 2).blk t).view.set := by
  have h0 : (i 0).val < 50000 := (i 0).isLt
  have h1 : (i 1).val < 32 := (i 1).isLt
  have hN : cfg2.N = 25 := N_2
  let t : Fin cfg2.N := ⟨(i 0).val / 2000, by rw [hN]; omega⟩
  have ht : t.val = (i 0).val / 2000 := rfl
  obtain ⟨-, -, -, -, -, e5, e6⟩ := block_index t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    rw [e5, ht]; omega
  | ⟨1, _⟩ =>
    show win2_2.index t (1 : Fin 2) * 32 ≤ (i 1).val ∧ (i 1).val < win2_2.index t (1 : Fin 2) * 32 + 32
    rw [e6]; omega

/-- THE OUTPUT ARRAY after the region's write-backs, for any entry contents `V`: at node `n` and feature `f`, the sum
    over the four heads of the weight `D (n, k)` times the aggregated feature `S (n, k, f)`, times the word of one quarter,
    with `D` and `S` the weights' and the features' arrays as the region finds them. -/
theorem out_arr (c : Dev nD) :
    (dat2 V c).arrAt 2 cfg2.N
      = fun i : S50000x32.Idx => combine (V c (Pipeline.arrRef spec2 0)) (V c (Pipeline.arrRef spec2 1)) (i 0) (i 1) :=
  (dat2 V c).arrAt_eq_of_cover 2 _ (fun t _ => flushed_eq V c t) covered

/-- The same read at one entry `(n, f)`. -/
theorem out_arr_apply (c : Dev nD) (n : Fin 50000) (f : Fin 32) :
    ((dat2 V c).arrAt 2 cfg2.N : S50000x32.Idx → EReal) (ix2 n f)
      = combine (V c (Pipeline.arrRef spec2 0)) (V c (Pipeline.arrRef spec2 1)) n f :=
  congrFun (out_arr V c) (ix2 n f)

end Blocks

end Cert.KernelIdeal.Region2
-- ==== Proof.RefRun.lean ====
/-
  The run of the reference program. Its @main is a straight line of 134 host operations once the four outlined
  functions (the rectifier, the leaky rectifier with its masked choice, the clip at zero, the masked choice against
  a scalar) stand at their calls. The line is cut into seven stretches where the stages of the computation end.
  Each stage is a named function of the stages before it and of the argument arrays; each stretch leaves its
  stage at its last buffer from ANY contents of the buffers it reads; and every weakly fair execution of @main
  therefore ends with the result buffer at the stages composed over the arguments' launch contents, the
  arguments unchanged.
-/
import proofs.«142816_j68169720922763_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages

The reference computes, in order: the two rows of the edge table; the projected node features, one 32-vector per
head; per edge and head a logit (the source's and the target's feature rows each contracted with a learned vector,
plus a two-layer perceptron of the edge's attributes) passed through the leaky rectifier; per source node and
head the logit of the LAST edge leaving it, normalised over all nodes by a softmax; and per source node the sum
over its edges of the target's feature rows weighted by the source's coefficient, averaged over the four heads. -/

/-- Row 0 of the edge table: each edge's source node. -/
def srcIdx (a1 : IVec S2x1600000 32) : IVec S1600000 32 :=
  shapeCast S1600000 (extractStridedSlice S1x1600000 ![0, 0] a1 slices_S2x1600000_S1x1600000_0_0)
    shapeCasts_S1x1600000_S1600000

/-- Row 1 of the edge table: each edge's target node. -/
def dstIdx (a1 : IVec S2x1600000 32) : IVec S1600000 32 :=
  shapeCast S1600000 (extractStridedSlice S1x1600000 ![1, 0] a1 slices_S2x1600000_S1x1600000_1_0)
    shapeCasts_S1x1600000_S1600000

/-- The projected node features `x · W + b`, each row of 128 read as 4 heads of 32. -/
def h3 (a0 : FVec F S50000x128 .f32) (a3 : FVec F S128x128 .f32) (a4 : FVec F S128 .f32) : FVec F S50000x4x32 .f32 :=
  shapeCast S50000x4x32
    (addf (Host.dotGeneral dot_S50000x128_S128x128_S50000x128_1_0_0_1_n_n none a0 a3)
      (broadcastInDim S50000x128 ![0, 1] bcast_S1x128_S50000x128_0_1 (broadcastInDim S1x128 ![1] bcast_S128_S1x128_1 a4)))
    shapeCasts_S50000x128_S50000x4x32

/-- A node index as numpy reads it: `i + 50000` where `i` is negative, `i` elsewhere. -/
def wrapIdx (i : IVec S1600000 32) : IVec S1600000 32 :=
  select (cmpi .slt i (broadcastInDim S1600000 ![] bcast_S_S1600000 (constantI S_ 32 0#32)))
    (addi i (broadcastInDim S1600000 ![] bcast_S_S1600000 (constantI S_ 32 50000#32))) i

/-- Per edge, the feature rows of the node `i` names (all heads). -/
def rowsAt (h : FVec F S50000x4x32 .f32) (i : IVec S1600000 32) : FVec F S1600000x4x32 .f32 :=
  Host.gather gather_S50000x4x32_S1600000x1_S1600000x4x32_12_0_n_n_0_1_1432 h
    (broadcastInDim S1600000x1 ![0] bcast_S1600000_S1600000x1_0 (wrapIdx i))

/-- Per edge and head, the named node's 32 features contracted with the head's vector `att`. -/
def headDot (h : FVec F S50000x4x32 .f32) (i : IVec S1600000 32) (att : FVec F S1x4x32 .f32) : FVec F S1600000x4 .f32 :=
  Host.reduceAdd (mulf (rowsAt h i) (broadcastInDim S1600000x4x32 ![0, 1, 2] bcast_S1x4x32_S1600000x4x32_0_1_2 att))
    (constant S_ .f32 0x00000000#32) reducesTo_S1600000x4x32_S1600000x4_d2 h_S_

/-- The positive part, elementwise. -/
def relu (x : FVec F S1600000x32 .f32) : FVec F S1600000x32 .f32 :=
  maximumf x (broadcastInDim S1600000x32 ![] bcast_S_S1600000x32 (constant S_ .f32 0x00000000#32))

/-- Per edge and head, the two-layer perceptron of the edge's four attributes. -/
def edgeMlp (a2 : FVec F S1600000x4 .f32) (a5 : FVec F S4x32 .f32) (a6 : FVec F S32 .f32) (a7 : FVec F S32x4 .f32)
    (a8 : FVec F S4 .f32) : FVec F S1600000x4 .f32 :=
  addf
    (Host.dotGeneral dot_S1600000x32_S32x4_S1600000x4_1_0_0_1_n_n none
      (relu (addf (Host.dotGeneral dot_S1600000x4_S4x32_S1600000x32_1_0_0_1_n_n none a2 a5)
        (broadcastInDim S1600000x32 ![0, 1] bcast_S1x32_S1600000x32_0_1 (broadcastInDim S1x32 ![1] bcast_S32_S1x32_1 a6))))
      a7)
    (broadcastInDim S1600000x4 ![0, 1] bcast_S1x4_S1600000x4_0_1 (broadcastInDim S1x4 ![1] bcast_S4_S1x4_1 a8))

/-- The leaky rectifier of slope 0.2: `x` where `x ≥ 0`, `0.2 · x` elsewhere. -/
def leakyRelu (x : FVec F S1600000x4 .f32) : FVec F S1600000x4 .f32 :=
  select (cmpf .oge x (broadcastInDim S1600000x4 ![] bcast_S_S1600000x4 (constant S_ .f32 0x00000000#32))) x
    (mulf (broadcastInDim S1600000x4 ![] bcast_S_S1600000x4 (constant S_ .f32 0x3E4CCCCD#32)) x)

/-- The sum fed to the rectifier: source term, target term, edge term, added in this order. -/
def logits (h : FVec F S50000x4x32 .f32) (src dst : IVec S1600000 32) (a2 : FVec F S1600000x4 .f32) (a5 : FVec F S4x32 .f32)
    (a6 : FVec F S32 .f32) (a7 : FVec F S32x4 .f32) (a8 : FVec F S4 .f32) (a9 a10 : FVec F S1x4x32 .f32) :
    FVec F S1600000x4 .f32 :=
  addf (addf (headDot h src a9) (headDot h dst a10)) (edgeMlp a2 a5 a6 a7 a8)

/-- Per edge and head, the attention logit. -/
def alpha (h : FVec F S50000x4x32 .f32) (src dst : IVec S1600000 32) (a2 : FVec F S1600000x4 .f32) (a5 : FVec F S4x32 .f32)
    (a6 : FVec F S32 .f32) (a7 : FVec F S32x4 .f32) (a8 : FVec F S4 .f32) (a9 a10 : FVec F S1x4x32 .f32) :
    FVec F S1600000x4 .f32 :=
  leakyRelu (logits h src dst a2 a5 a6 a7 a8 a9 a10)

/-- Per node, the greatest edge number among the edges whose source it is, the least 32-bit integer where there
    is none (an edge whose source is outside `[0, 50000)` is dropped). -/
def lastEdge (src : IVec S1600000 32) : IVec S50000 32 :=
  Host.scatter scatter_S50000_S1600000x1_S1600000_n_0_0_1 IntOp.maxsi
    (broadcastInDim S50000 ![] bcast_S_S50000 (constantI S_ 32 2147483648#32))
    (broadcastInDim S1600000x1 ![0] bcast_S1600000_S1600000x1_0 src) (iotaInDim S1600000 32 0)

/-- Per node, whether some edge leaves it. -/
def hasEdge (src : IVec S1600000 32) : IVec S50000x1 1 :=
  broadcastInDim S50000x1 ![0] bcast_S50000_S50000x1_0
    (cmpi .sge (lastEdge src) (broadcastInDim S50000 ![] bcast_S_S50000 (constantI S_ 32 0#32)))

/-- Per node, the edge number its logit is read at: the last edge leaving it, edge 0 where there is none. -/
def pickEdge (src : IVec S1600000 32) : IVec S50000 32 :=
  maxsi (broadcastInDim S50000 ![] bcast_S_S50000 (constantI S_ 32 0#32)) (lastEdge src)

/-- `pickEdge` as numpy reads an index: `e + 1600000` where negative (nowhere, after the clip). -/
def pickEdgeWrapped (src : IVec S1600000 32) : IVec S50000 32 :=
  select (cmpi .slt (pickEdge src) (broadcastInDim S50000 ![] bcast_S_S50000 (constantI S_ 32 0#32)))
    (addi (pickEdge src) (broadcastInDim S50000 ![] bcast_S_S50000 (constantI S_ 32 1600000#32))) (pickEdge src)

/-- Per node and head, the logit of the node's last edge, `-∞` where no edge leaves the node. -/
def nodeLogit (al : FVec F S1600000x4 .f32) (src : IVec S1600000 32) : FVec F S50000x4 .f32 :=
  select (broadcastInDim S50000x4 ![0, 1] bcast_S50000x1_S50000x4_0_1 (hasEdge src))
    (Host.gather gather_S1600000x4_S50000x1_S50000x4_1_0_n_n_0_1_14 al
      (broadcastInDim S50000x1 ![0] bcast_S50000_S50000x1_0 (pickEdgeWrapped src)))
    (broadcastInDim S50000x4 ![] bcast_S_S50000x4 (constant S_ .f32 0xFF800000#32))

/-- Per head, the greatest node logit (at least `-∞`), spread back over the nodes. -/
def nodeMax (z : FVec F S50000x4 .f32) : FVec F S50000x4 .f32 :=
  broadcastInDim S50000x4 ![0, 1] bcast_S1x4_S50000x4_0_1 (broadcastInDim S1x4 ![1] bcast_S4_S1x4_1
    (maximumf (broadcastInDim S4 ![] bcast_S_S4 (constant S_ .f32 0xFF800000#32))
      (Host.reduce FloatOps.maximumf z (constant S_ .f32 0xFF800000#32) reducesTo_S50000x4_S4_d0 h_S_)))

/-- Per node and head, the exponential of the logit less the head's greatest. -/
def nodeExp (z : FVec F S50000x4 .f32) : FVec F S50000x4 .f32 :=
  Host.exp (subf z (nodeMax z))

/-- The softmax over the NODES (axis 0), per head. -/
def softmax0 (z : FVec F S50000x4 .f32) : FVec F S50000x4 .f32 :=
  Host.divf (nodeExp z)
    (broadcastInDim S50000x4 ![0, 1] bcast_S1x4_S50000x4_0_1 (broadcastInDim S1x4 ![1] bcast_S4_S1x4_1
      (Host.reduceAdd (nodeExp z) (constant S_ .f32 0x00000000#32) reducesTo_S50000x4_S4_d0 h_S_)))

/-- Per node and head, the attention coefficient. -/
def dense (al : FVec F S1600000x4 .f32) (src : IVec S1600000 32) : FVec F S50000x4 .f32 :=
  softmax0 (nodeLogit al src)

/-- Per edge, head and feature: the target's feature times the source's coefficient. -/
def messages (h : FVec F S50000x4x32 .f32) (d : FVec F S50000x4 .f32) (src dst : IVec S1600000 32) :
    FVec F S1600000x4x32 .f32 :=
  mulf (rowsAt h dst)
    (broadcastInDim S1600000x4x32 ![0, 1, 2] bcast_S1600000x4x1_S1600000x4x32_0_1_2
      (broadcastInDim S1600000x4x1 ![0, 1] bcast_S1600000x4_S1600000x4x1_0_1
        (Host.gather gather_S50000x4_S1600000x1_S1600000x4_1_0_n_n_0_1_14 d
          (broadcastInDim S1600000x1 ![0] bcast_S1600000_S1600000x1_0 (wrapIdx src)))))

/-- Per node, head and feature: the sum of the messages of the edges leaving the node. -/
def aggregated (h : FVec F S50000x4x32 .f32) (d : FVec F S50000x4 .f32) (src dst : IVec S1600000 32) :
    FVec F S50000x4x32 .f32 :=
  Host.scatterAdd scatter_S50000x4x32_S1600000x1_S1600000x4x32_12_0_0_1
    (broadcastInDim S50000x4x32 ![] bcast_S_S50000x4x32 (constant S_ .f32 0x00000000#32))
    (broadcastInDim S1600000x1 ![0] bcast_S1600000_S1600000x1_0 (wrapIdx src)) (messages h d src dst)

/-- The output: the aggregate summed over the four heads and divided by 4. -/
def result (h : FVec F S50000x4x32 .f32) (d : FVec F S50000x4 .f32) (src dst : IVec S1600000 32) : FVec F S50000x32 .f32 :=
  Host.divf (Host.reduceAdd (aggregated h d src dst) (constant S_ .f32 0x00000000#32) reducesTo_S50000x4x32_S50000x32_d1 h_S_)
    (broadcastInDim S50000x32 ![] bcast_S_S50000x32 (constant S_ .f32 0x40800000#32))

/-- Each stage's defining equation, stated in this module once for every later one that unfolds a stage. -/
theorem stage_equations : True := by
  have := @srcIdx.eq_1; have := @srcIdx.eq_def
  have := @dstIdx.eq_1; have := @dstIdx.eq_def
  have := @h3.eq_1; have := @h3.eq_def
  have := @wrapIdx.eq_1; have := @wrapIdx.eq_def
  have := @rowsAt.eq_1; have := @rowsAt.eq_def
  have := @headDot.eq_1; have := @headDot.eq_def
  have := @relu.eq_1; have := @relu.eq_def
  have := @edgeMlp.eq_1; have := @edgeMlp.eq_def
  have := @leakyRelu.eq_1; have := @leakyRelu.eq_def
  have := @logits.eq_1; have := @logits.eq_def
  have := @alpha.eq_1; have := @alpha.eq_def
  have := @lastEdge.eq_1; have := @lastEdge.eq_def
  have := @hasEdge.eq_1; have := @hasEdge.eq_def
  have := @pickEdge.eq_1; have := @pickEdge.eq_def
  have := @pickEdgeWrapped.eq_1; have := @pickEdgeWrapped.eq_def
  have := @nodeLogit.eq_1; have := @nodeLogit.eq_def
  have := @nodeMax.eq_1; have := @nodeMax.eq_def
  have := @nodeExp.eq_1; have := @nodeExp.eq_def
  have := @softmax0.eq_1; have := @softmax0.eq_def
  have := @dense.eq_1; have := @dense.eq_def
  have := @messages.eq_1; have := @messages.eq_def
  have := @aggregated.eq_1; have := @aggregated.eq_def
  have := @result.eq_1; have := @result.eq_def
  trivial

/-! ## The operations

@main's operations in program order, cut where the stages below end. An outlined function's operations stand at its
call, each over the buffers that call names for its operands and values. -/

/-- @main's operations 1 … 4: the two rows of the edge table, each sliced out and flattened. -/
abbrev opsIdx : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- @main's operations 5 … 9: the node features times the weight matrix, plus the bias, read as 4 heads of 32. -/
abbrev opsH3 : List (HloOp τ sig (Elt F)) :=
  [ StableHlo.binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S50000x128 ![0, 1] bcast_S1x128_S50000x128_0_1 : (⟨S1x128, .f32⟩ : BufTy).Contents (Elt F) → (⟨S50000x128, .f32⟩ : BufTy).Contents (Elt F)),
    StableHlo.binary main_v4 main_v6 main_v7 (addf : (⟨S50000x128, .f32⟩ : BufTy).Contents (Elt F) → (⟨S50000x128, .f32⟩ : BufTy).Contents (Elt F) → (⟨S50000x128, .f32⟩ : BufTy).Contents (Elt F)),
    StableHlo.reshape main_v7 main_v8 rfl shapeCasts_S50000x128_S50000x4x32 ]

/-- @main's operations 10 … 48 (the rectifier and the leaky rectifier inlined at their calls, 47 in all): per edge and head the source term, the target term, the perceptron of the edge attributes, their sum and its leaky rectifier. -/
abbrev opsAlpha : List (HloOp τ sig (Elt F)) :=
  [ StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_v1 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_v1 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_v8 main_v14 main_v15 ((fun x i => Host.gather gather_S50000x4x32_S1600000x1_S1600000x4x32_12_0_n_n_0_1_1432 x i) : (⟨S50000x4x32, .f32⟩ : BufTy).Contents (Elt F) → (⟨S1600000x1, .i32⟩ : BufTy).Contents (Elt F) → (⟨S1600000x4x32, .f32⟩ : BufTy).Contents (Elt F)),
    StableHlo.unary main_arg9 main_v16 (broadcastInDim S1600000x4x32 ![0, 1, 2] bcast_S1x4x32_S1600000x4x32_0_1_2 : (⟨S1x4x32, .f32⟩ : BufTy).Contents (Elt F) → (⟨S1600000x4x32, .f32⟩ : BufTy).Contents (Elt F)),
    StableHlo.binary main_v15 main_v16 main_v17 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst (constant S_ .f32 0x00000000#32),
    StableHlo.binary main_v17 main_cst main_v18 ((fun x v => Host.reduceAdd x v reducesTo_S1600000x4x32_S1600000x4_d2 h_S_) : (⟨S1600000x4x32, .f32⟩ : BufTy).Contents (Elt F) → (⟨S_, .f32⟩ : BufTy).Contents (Elt F) → (⟨S1600000x4, .f32⟩ : BufTy).Contents (Elt F)),
    StableHlo.nullary main_c_1 (constantI S_ 32 0#32),
    StableHlo.unary main_c_1 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 50000#32),
    StableHlo.unary main_c_2 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v8 main_v24 main_v25 ((fun x i => Host.gather gather_S50000x4x32_S1600000x1_S1600000x4x32_12_0_n_n_0_1_1432 x i) : (⟨S50000x4x32, .f32⟩ : BufTy).Contents (Elt F) → (⟨S1600000x1, .i32⟩ : BufTy).Contents (Elt F) → (⟨S1600000x4x32, .f32⟩ : BufTy).Contents (Elt F)),
    StableHlo.unary main_arg10 main_v26 (broadcastInDim S1600000x4x32 ![0, 1, 2] bcast_S1x4x32_S1600000x4x32_0_1_2 : (⟨S1x4x32, .f32⟩ : BufTy).Contents (Elt F) → (⟨S1600000x4x32, .f32⟩ : BufTy).Contents (Elt F)),
    StableHlo.binary main_v25 main_v26 main_v27 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst_3 (constant S_ .f32 0x00000000#32),
    StableHlo.binary main_v27 main_cst_3 main_v28 ((fun x v => Host.reduceAdd x v reducesTo_S1600000x4x32_S1600000x4_d2 h_S_) : (⟨S1600000x4x32, .f32⟩ : BufTy).Contents (Elt F) → (⟨S_, .f32⟩ : BufTy).Contents (Elt F) → (⟨S1600000x4, .f32⟩ : BufTy).Contents (Elt F)),
    StableHlo.binary main_arg2 main_arg5 main_v29 ((fun l r => Host.dotGeneral dot_S1600000x4_S4x32_S1600000x32_1_0_0_1_n_n none l r) : (⟨S1600000x4, .f32⟩ : BufTy).Contents (Elt F) → (⟨S4x32, .f32⟩ : BufTy).Contents (Elt F) → (⟨S1600000x32, .f32⟩ : BufTy).Contents (Elt F)),
    StableHlo.unary main_arg6 main_v30 (broadcastInDim S1x32 ![1] bcast_S32_S1x32_1 : (⟨S32, .f32⟩ : BufTy).Contents (Elt F) → (⟨S1x32, .f32⟩ : BufTy).Contents (Elt F)),
    StableHlo.unary main_v30 main_v31 (broadcastInDim S1600000x32 ![0, 1] bcast_S1x32_S1600000x32_0_1 : (⟨S1x32, .f32⟩ : BufTy).Contents (Elt F) → (⟨S1600000x32, .f32⟩ : BufTy).Contents (Elt F)),
    StableHlo.binary main_v29 main_v31 main_v32 (addf : (⟨S1600000x32, .f32⟩ : BufTy).Contents (Elt F) → (⟨S1600000x32, .f32⟩ : BufTy).Contents (Elt F) → (⟨S1600000x32, .f32⟩ : BufTy).Contents (Elt F)),
    StableHlo.nullary main_call0_cst (constant S_ .f32 0x00000000#32),
    StableHlo.unary main_call0_cst main_call0_v0 (broadcastInDim S1600000x32 ![] bcast_S_S1600000x32 : (⟨S_, .f32⟩ : BufTy).Contents (Elt F) → (⟨S1600000x32, .f32⟩ : BufTy).Contents (Elt F)),
    StableHlo.binary main_v32 main_call0_v0 main_v33 (maximumf : (⟨S1600000x32, .f32⟩ : BufTy).Contents (Elt F) → (⟨S1600000x32, .f32⟩ : BufTy).Contents (Elt F) → (⟨S1600000x32, .f32⟩ : BufTy).Contents (Elt F)),
    StableHlo.binary main_v33 main_arg7 main_v34 ((fun l r => Host.dotGeneral dot_S1600000x32_S32x4_S1600000x4_1_0_0_1_n_n none l r) : (⟨S1600000x32, .f32⟩ : BufTy).Contents (Elt F) → (⟨S32x4, .f32⟩ : BufTy).Contents (Elt F) → (⟨S1600000x4, .f32⟩ : BufTy).Contents (Elt F)),
    StableHlo.unary main_arg8 main_v35 (broadcastInDim S1x4 ![1] bcast_S4_S1x4_1 : (⟨S4, .f32⟩ : BufTy).Contents (Elt F) → (⟨S1x4, .f32⟩ : BufTy).Contents (Elt F)),
    StableHlo.unary main_v35 main_v36 (broadcastInDim S1600000x4 ![0, 1] bcast_S1x4_S1600000x4_0_1 : (⟨S1x4, .f32⟩ : BufTy).Contents (Elt F) → (⟨S1600000x4, .f32⟩ : BufTy).Contents (Elt F)),
    StableHlo.binary main_v34 main_v36 main_v37 (addf : (⟨S1600000x4, .f32⟩ : BufTy).Contents (Elt F) → (⟨S1600000x4, .f32⟩ : BufTy).Contents (Elt F) → (⟨S1600000x4, .f32⟩ : BufTy).Contents (Elt F)),
    StableHlo.binary main_v18 main_v28 main_v38 (addf : (⟨S1600000x4, .f32⟩ : BufTy).Contents (Elt F) → (⟨S1600000x4, .f32⟩ : BufTy).Contents (Elt F) → (⟨S1600000x4, .f32⟩ : BufTy).Contents (Elt F)),
    StableHlo.binary main_v38 main_v37 main_v39 (addf : (⟨S1600000x4, .f32⟩ : BufTy).Contents (Elt F) → (⟨S1600000x4, .f32⟩ : BufTy).Contents (Elt F) → (⟨S1600000x4, .f32⟩ : BufTy).Contents (Elt F)),
    StableHlo.nullary main_cst_4 (constant S_ .f32 0x3E4CCCCD#32),
    StableHlo.nullary main_call1_cst (constant S_ .f32 0x00000000#32),
    StableHlo.unary main_call1_cst main_call1_v0 (broadcastInDim S1600000x4 ![] bcast_S_S1600000x4 : (⟨S_, .f32⟩ : BufTy).Contents (Elt F) → (⟨S1600000x4, .f32⟩ : BufTy).Contents (Elt F)),
    StableHlo.binary main_v39 main_call1_v0 main_call1_v1 (cmpf .oge : (⟨S1600000x4, .f32⟩ : BufTy).Contents (Elt F) → (⟨S1600000x4, .f32⟩ : BufTy).Contents (Elt F) → (⟨S1600000x4, .i1⟩ : BufTy).Contents (Elt F)),
    StableHlo.unary main_cst_4 main_call1_v2 (id : (⟨S_, .f32⟩ : BufTy).Contents (Elt F) → (⟨S_, .f32⟩ : BufTy).Contents (Elt F)),
    StableHlo.unary main_call1_v2 main_call1_v3 (broadcastInDim S1600000x4 ![] bcast_S_S1600000x4 : (⟨S_, .f32⟩ : BufTy).Contents (Elt F) → (⟨S1600000x4, .f32⟩ : BufTy).Contents (Elt F)),
    StableHlo.binary main_call1_v3 main_v39 main_call1_v4 (mulf : (⟨S1600000x4, .f32⟩ : BufTy).Contents (Elt F) → (⟨S1600000x4, .f32⟩ : BufTy).Contents (Elt F) → (⟨S1600000x4, .f32⟩ : BufTy).Contents (Elt F)),
    StableHlo.ternary main_call1_v1 main_v39 main_call1_v4 main_v40 (select : (⟨S1600000x4, .i1⟩ : BufTy).Contents (Elt F) → (⟨S1600000x4, .f32⟩ : BufTy).Contents (Elt F) → (⟨S1600000x4, .f32⟩ : BufTy).Contents (Elt F) → (⟨S1600000x4, .f32⟩ : BufTy).Contents (Elt F)) ]

/-- @main's operations 49 … 60 (the clip inlined, 14 in all): per node the last edge leaving it, whether there is one, and that edge number clipped at 0. -/
abbrev opsDenseA : List (HloOp τ sig (Elt F)) :=
  [ StableHlo.nullary main_v41 (iotaInDim S1600000 32 0),
    StableHlo.nullary main_c_5 (constantI S_ 32 2147483648#32),
    StableHlo.unary main_c_5 main_v42 (broadcastInDim S50000 ![] bcast_S_S50000 : (⟨S_, .i32⟩ : BufTy).Contents (Elt F) → (⟨S50000, .i32⟩ : BufTy).Contents (Elt F)),
    StableHlo.unary main_v1 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatter scatter_S50000_S1600000x1_S1600000_n_0_0_1 IntOp.maxsi x i u) : (⟨S50000, .i32⟩ : BufTy).Contents (Elt F) → (⟨S1600000x1, .i32⟩ : BufTy).Contents (Elt F) → (⟨S1600000, .i32⟩ : BufTy).Contents (Elt F) → (⟨S50000, .i32⟩ : BufTy).Contents (Elt F)),
    StableHlo.nullary main_c_6 (constantI S_ 32 0#32),
    StableHlo.unary main_c_6 main_v45 (broadcastInDim S50000 ![] bcast_S_S50000 : (⟨S_, .i32⟩ : BufTy).Contents (Elt F) → (⟨S50000, .i32⟩ : BufTy).Contents (Elt F)),
    StableHlo.binary main_v44 main_v45 main_v46 (cmpi .sge : (⟨S50000, .i32⟩ : BufTy).Contents (Elt F) → (⟨S50000, .i32⟩ : BufTy).Contents (Elt F) → (⟨S50000, .i1⟩ : BufTy).Contents (Elt F)),
    StableHlo.unary main_v46 main_v47 (broadcastInDim S50000x1 ![0] bcast_S50000_S50000x1_0 : (⟨S50000, .i1⟩ : BufTy).Contents (Elt F) → (⟨S50000x1, .i1⟩ : BufTy).Contents (Elt F)),
    StableHlo.nullary main_c_7 (constantI S_ 32 0#32),
    StableHlo.unary main_c_7 main_call2_v0 (id : (⟨S_, .i32⟩ : BufTy).Contents (Elt F) → (⟨S_, .i32⟩ : BufTy).Contents (Elt F)),
    StableHlo.unary main_call2_v0 main_call2_v1 (broadcastInDim S50000 ![] bcast_S_S50000 : (⟨S_, .i32⟩ : BufTy).Contents (Elt F) → (⟨S50000, .i32⟩ : BufTy).Contents (Elt F)),
    StableHlo.binary main_call2_v1 main_v44 main_v48 (maxsi : (⟨S50000, .i32⟩ : BufTy).Contents (Elt F) → (⟨S50000, .i32⟩ : BufTy).Contents (Elt F) → (⟨S50000, .i32⟩ : BufTy).Contents (Elt F)),
    StableHlo.nullary main_c_8 (constantI S_ 32 0#32) ]

/-- @main's operations 61 … 84 (the masked choice inlined, 27 in all): the logit of each node's last edge, `-∞` where there is none, and its softmax over the nodes. -/
abbrev opsDenseB : List (HloOp τ sig (Elt F)) :=
  [ StableHlo.unary main_c_8 main_v49 (broadcastInDim S50000 ![] bcast_S_S50000 : (⟨S_, .i32⟩ : BufTy).Contents (Elt F) → (⟨S50000, .i32⟩ : BufTy).Contents (Elt F)),
    StableHlo.binary main_v48 main_v49 main_v50 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 1600000#32),
    StableHlo.unary main_c_9 main_v51 (broadcastInDim S50000 ![] bcast_S_S50000 : (⟨S_, .i32⟩ : BufTy).Contents (Elt F) → (⟨S50000, .i32⟩ : BufTy).Contents (Elt F)),
    StableHlo.binary main_v48 main_v51 main_v52 (addi : (⟨S50000, .i32⟩ : BufTy).Contents (Elt F) → (⟨S50000, .i32⟩ : BufTy).Contents (Elt F) → (⟨S50000, .i32⟩ : BufTy).Contents (Elt F)),
    StableHlo.ternary main_v50 main_v52 main_v48 main_v53 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v53 main_v54 (broadcastInDim S50000x1 ![0] bcast_S50000_S50000x1_0 : (⟨S50000, .i32⟩ : BufTy).Contents (Elt F) → (⟨S50000x1, .i32⟩ : BufTy).Contents (Elt F)),
    StableHlo.binary main_v40 main_v54 main_v55 ((fun x i => Host.gather gather_S1600000x4_S50000x1_S50000x4_1_0_n_n_0_1_14 x i) : (⟨S1600000x4, .f32⟩ : BufTy).Contents (Elt F) → (⟨S50000x1, .i32⟩ : BufTy).Contents (Elt F) → (⟨S50000x4, .f32⟩ : BufTy).Contents (Elt F)),
    StableHlo.nullary main_cst_10 (constant S_ .f32 0xFF800000#32),
    StableHlo.unary main_cst_10 main_call3_v0 (id : (⟨S_, .f32⟩ : BufTy).Contents (Elt F) → (⟨S_, .f32⟩ : BufTy).Contents (Elt F)),
    StableHlo.unary main_v47 main_call3_v1 (broadcastInDim S50000x4 ![0, 1] bcast_S50000x1_S50000x4_0_1 : (⟨S50000x1, .i1⟩ : BufTy).Contents (Elt F) → (⟨S50000x4, .i1⟩ : BufTy).Contents (Elt F)),
    StableHlo.unary main_call3_v0 main_call3_v2 (broadcastInDim S50000x4 ![] bcast_S_S50000x4 : (⟨S_, .f32⟩ : BufTy).Contents (Elt F) → (⟨S50000x4, .f32⟩ : BufTy).Contents (Elt F)),
    StableHlo.ternary main_call3_v1 main_v55 main_call3_v2 main_v56 (select : (⟨S50000x4, .i1⟩ : BufTy).Contents (Elt F) → (⟨S50000x4, .f32⟩ : BufTy).Contents (Elt F) → (⟨S50000x4, .f32⟩ : BufTy).Contents (Elt F) → (⟨S50000x4, .f32⟩ : BufTy).Contents (Elt F)),
    StableHlo.nullary main_cst_11 (constant S_ .f32 0xFF800000#32),
    StableHlo.binary main_v56 main_cst_11 main_v57 ((fun x v => Host.reduce FloatOps.maximumf x v reducesTo_S50000x4_S4_d0 h_S_) : (⟨S50000x4, .f32⟩ : BufTy).Contents (Elt F) → (⟨S_, .f32⟩ : BufTy).Contents (Elt F) → (⟨S4, .f32⟩ : BufTy).Contents (Elt F)),
    StableHlo.nullary main_cst_12 (constant S_ .f32 0xFF800000#32),
    StableHlo.unary main_cst_12 main_v58 (broadcastInDim S4 ![] bcast_S_S4 : (⟨S_, .f32⟩ : BufTy).Contents (Elt F) → (⟨S4, .f32⟩ : BufTy).Contents (Elt F)),
    StableHlo.binary main_v58 main_v57 main_v59 (maximumf : (⟨S4, .f32⟩ : BufTy).Contents (Elt F) → (⟨S4, .f32⟩ : BufTy).Contents (Elt F) → (⟨S4, .f32⟩ : BufTy).Contents (Elt F)),
    StableHlo.unary main_v59 main_v60 (broadcastInDim S1x4 ![1] bcast_S4_S1x4_1 : (⟨S4, .f32⟩ : BufTy).Contents (Elt F) → (⟨S1x4, .f32⟩ : BufTy).Contents (Elt F)),
    StableHlo.unary main_v60 main_v61 (broadcastInDim S50000x4 ![0, 1] bcast_S1x4_S50000x4_0_1 : (⟨S1x4, .f32⟩ : BufTy).Contents (Elt F) → (⟨S50000x4, .f32⟩ : BufTy).Contents (Elt F)),
    StableHlo.binary main_v56 main_v61 main_v62 (subf : (⟨S50000x4, .f32⟩ : BufTy).Contents (Elt F) → (⟨S50000x4, .f32⟩ : BufTy).Contents (Elt F) → (⟨S50000x4, .f32⟩ : BufTy).Contents (Elt F)),
    StableHlo.unary main_v62 main_v63 (Host.exp : (⟨S50000x4, .f32⟩ : BufTy).Contents (Elt F) → (⟨S50000x4, .f32⟩ : BufTy).Contents (Elt F)),
    StableHlo.nullary main_cst_13 (constant S_ .f32 0x00000000#32),
    StableHlo.binary main_v63 main_cst_13 main_v64 ((fun x v => Host.reduceAdd x v reducesTo_S50000x4_S4_d0 h_S_) : (⟨S50000x4, .f32⟩ : BufTy).Contents (Elt F) → (⟨S_, .f32⟩ : BufTy).Contents (Elt F) → (⟨S4, .f32⟩ : BufTy).Contents (Elt F)),
    StableHlo.unary main_v64 main_v65 (broadcastInDim S1x4 ![1] bcast_S4_S1x4_1 : (⟨S4, .f32⟩ : BufTy).Contents (Elt F) → (⟨S1x4, .f32⟩ : BufTy).Contents (Elt F)),
    StableHlo.unary main_v65 main_v66 (broadcastInDim S50000x4 ![0, 1] bcast_S1x4_S50000x4_0_1 : (⟨S1x4, .f32⟩ : BufTy).Contents (Elt F) → (⟨S50000x4, .f32⟩ : BufTy).Contents (Elt F)),
    StableHlo.binary main_v63 main_v66 main_v67 (Host.divf : (⟨S50000x4, .f32⟩ : BufTy).Contents (Elt F) → (⟨S50000x4, .f32⟩ : BufTy).Contents (Elt F) → (⟨S50000x4, .f32⟩ : BufTy).Contents (Elt F)) ]

/-- @main's operations 85 … 120: the coefficients gathered per edge, the weighted target rows, their sum per source node, the sum over heads, and the constant 4. -/
abbrev opsResA : List (HloOp τ sig (Elt F)) :=
  [ StableHlo.nullary main_c_14 (constantI S_ 32 0#32),
    StableHlo.unary main_c_14 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 50000#32),
    StableHlo.unary main_c_15 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v67 main_v73 main_v74 ((fun x i => Host.gather gather_S50000x4_S1600000x1_S1600000x4_1_0_n_n_0_1_14 x i) : (⟨S50000x4, .f32⟩ : BufTy).Contents (Elt F) → (⟨S1600000x1, .i32⟩ : BufTy).Contents (Elt F) → (⟨S1600000x4, .f32⟩ : BufTy).Contents (Elt F)),
    StableHlo.nullary main_c_16 (constantI S_ 32 0#32),
    StableHlo.unary main_c_16 main_v75 (broadcastInDim S1600000 ![] bcast_S_S1600000 : (⟨S_, .i32⟩ : BufTy).Contents (Elt F) → (⟨S1600000, .i32⟩ : BufTy).Contents (Elt F)),
    StableHlo.binary main_v3 main_v75 main_v76 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 50000#32),
    StableHlo.unary main_c_17 main_v77 (broadcastInDim S1600000 ![] bcast_S_S1600000 : (⟨S_, .i32⟩ : BufTy).Contents (Elt F) → (⟨S1600000, .i32⟩ : BufTy).Contents (Elt F)),
    StableHlo.binary main_v3 main_v77 main_v78 (addi : (⟨S1600000, .i32⟩ : BufTy).Contents (Elt F) → (⟨S1600000, .i32⟩ : BufTy).Contents (Elt F) → (⟨S1600000, .i32⟩ : BufTy).Contents (Elt F)),
    StableHlo.ternary main_v76 main_v78 main_v3 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v79 main_v80 (broadcastInDim S1600000x1 ![0] bcast_S1600000_S1600000x1_0 : (⟨S1600000, .i32⟩ : BufTy).Contents (Elt F) → (⟨S1600000x1, .i32⟩ : BufTy).Contents (Elt F)),
    StableHlo.binary main_v8 main_v80 main_v81 ((fun x i => Host.gather gather_S50000x4x32_S1600000x1_S1600000x4x32_12_0_n_n_0_1_1432 x i) : (⟨S50000x4x32, .f32⟩ : BufTy).Contents (Elt F) → (⟨S1600000x1, .i32⟩ : BufTy).Contents (Elt F) → (⟨S1600000x4x32, .f32⟩ : BufTy).Contents (Elt F)),
    StableHlo.unary main_v74 main_v82 (broadcastInDim S1600000x4x1 ![0, 1] bcast_S1600000x4_S1600000x4x1_0_1 : (⟨S1600000x4, .f32⟩ : BufTy).Contents (Elt F) → (⟨S1600000x4x1, .f32⟩ : BufTy).Contents (Elt F)),
    StableHlo.unary main_v82 main_v83 (broadcastInDim S1600000x4x32 ![0, 1, 2] bcast_S1600000x4x1_S1600000x4x32_0_1_2 : (⟨S1600000x4x1, .f32⟩ : BufTy).Contents (Elt F) → (⟨S1600000x4x32, .f32⟩ : BufTy).Contents (Elt F)),
    StableHlo.binary main_v81 main_v83 main_v84 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst_18 (constant S_ .f32 0x00000000#32),
    StableHlo.unary main_cst_18 main_v85 (broadcastInDim S50000x4x32 ![] bcast_S_S50000x4x32 : (⟨S_, .f32⟩ : BufTy).Contents (Elt F) → (⟨S50000x4x32, .f32⟩ : BufTy).Contents (Elt F)),
    StableHlo.nullary main_c_19 (constantI S_ 32 0#32),
    StableHlo.unary main_c_19 main_v86 (broadcastInDim S1600000 ![] bcast_S_S1600000 : (⟨S_, .i32⟩ : BufTy).Contents (Elt F) → (⟨S1600000, .i32⟩ : BufTy).Contents (Elt F)),
    StableHlo.binary main_v1 main_v86 main_v87 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 50000#32),
    StableHlo.unary main_c_20 main_v88 (broadcastInDim S1600000 ![] bcast_S_S1600000 : (⟨S_, .i32⟩ : BufTy).Contents (Elt F) → (⟨S1600000, .i32⟩ : BufTy).Contents (Elt F)),
    StableHlo.binary main_v1 main_v88 main_v89 (addi : (⟨S1600000, .i32⟩ : BufTy).Contents (Elt F) → (⟨S1600000, .i32⟩ : BufTy).Contents (Elt F) → (⟨S1600000, .i32⟩ : BufTy).Contents (Elt F)),
    StableHlo.ternary main_v87 main_v89 main_v1 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v90 main_v91 (broadcastInDim S1600000x1 ![0] bcast_S1600000_S1600000x1_0 : (⟨S1600000, .i32⟩ : BufTy).Contents (Elt F) → (⟨S1600000x1, .i32⟩ : BufTy).Contents (Elt F)),
    StableHlo.ternary main_v85 main_v91 main_v84 main_v92 ((fun x i u => Host.scatterAdd scatter_S50000x4x32_S1600000x1_S1600000x4x32_12_0_0_1 x i u) : (⟨S50000x4x32, .f32⟩ : BufTy).Contents (Elt F) → (⟨S1600000x1, .i32⟩ : BufTy).Contents (Elt F) → (⟨S1600000x4x32, .f32⟩ : BufTy).Contents (Elt F) → (⟨S50000x4x32, .f32⟩ : BufTy).Contents (Elt F)),
    StableHlo.nullary main_cst_21 (constant S_ .f32 0x00000000#32),
    StableHlo.binary main_v92 main_cst_21 main_v93 ((fun x v => Host.reduceAdd x v reducesTo_S50000x4x32_S50000x32_d1 h_S_) : (⟨S50000x4x32, .f32⟩ : BufTy).Contents (Elt F) → (⟨S_, .f32⟩ : BufTy).Contents (Elt F) → (⟨S50000x32, .f32⟩ : BufTy).Contents (Elt F)),
    StableHlo.nullary main_cst_22 (constant S_ .f32 0x40800000#32),
    StableHlo.unary main_cst_22 main_v94 (broadcastInDim S50000x32 ![] bcast_S_S50000x32 : (⟨S_, .f32⟩ : BufTy).Contents (Elt F) → (⟨S50000x32, .f32⟩ : BufTy).Contents (Elt F)) ]

/-- @main's operation 121: the division by 4. -/
abbrev opsResB : List (HloOp τ sig (Elt F)) :=
  [ StableHlo.binary main_v93 main_v94 main_v95 (Host.divf : (⟨S50000x32, .f32⟩ : BufTy).Contents (Elt F) → (⟨S50000x32, .f32⟩ : BufTy).Contents (Elt F) → (⟨S50000x32, .f32⟩ : BufTy).Contents (Elt F)) ]

/-- All of @main's operations, in order. -/
abbrev ops : List (HloOp τ sig (Elt F)) :=
  opsIdx ++ (opsH3 ++ (opsAlpha ++ (opsDenseA ++ (opsDenseB ++ (opsResA ++ opsResB)))))

/-! ## @main is that line -/

set_option maxRecDepth 8192 in
set_option maxHeartbeats 4000000 in
theorem main_part0_eq (c : Dev nD) :
    main_part0 (F := F) c = seq (opsIdx ++ (opsH3 ++ (opsAlpha ++ opsDenseA))) := rfl

set_option maxRecDepth 8192 in
set_option maxHeartbeats 4000000 in
theorem main_part1_eq (c : Dev nD) : main_part1 (F := F) c = seq (opsDenseB ++ opsResA) := rfl

theorem main_part2_eq (c : Dev nD) : main_part2 (F := F) c = seq opsResB := rfl

/-- @main is its operations run in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 8192 in
theorem opsIdx_sub : (opsIdx : List (HloOp τ sig (Elt F))).Forall fun op => op.bufs ⊆ tcRefs τ sig :=
  ⟨unary_bufs_sub .., reshape_bufs_sub .., unary_bufs_sub .., reshape_bufs_sub ..⟩

set_option maxRecDepth 8192 in
theorem opsH3_sub : (opsH3 : List (HloOp τ sig (Elt F))).Forall fun op => op.bufs ⊆ tcRefs τ sig :=
  ⟨binary_bufs_sub .., unary_bufs_sub .., unary_bufs_sub .., binary_bufs_sub .., reshape_bufs_sub ..⟩

set_option maxRecDepth 8192 in
theorem opsAlpha_sub : (opsAlpha : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem opsDenseA_sub : (opsDenseA : List (HloOp τ sig (Elt F))).Forall fun op => op.bufs ⊆ tcRefs τ sig :=
  ⟨nullary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., binary_bufs_sub .., nullary_bufs_sub ..⟩

set_option maxRecDepth 8192 in
theorem opsDenseB_sub : (opsDenseB : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
theorem opsResA_sub : (opsResA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., nullary_bufs_sub .., unary_bufs_sub ..⟩

set_option maxRecDepth 8192 in
theorem opsResB_sub : (opsResB : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsIdx_sub op h,
      List.forall_iff_forall_mem.mp opsH3_sub op h,
      List.forall_iff_forall_mem.mp opsAlpha_sub op h,
      List.forall_iff_forall_mem.mp opsDenseA_sub op h,
      List.forall_iff_forall_mem.mp opsDenseB_sub op h,
      List.forall_iff_forall_mem.mp opsResA_sub op h,
      List.forall_iff_forall_mem.mp opsResB_sub op h]

/-! ## What each stretch writes, and what it therefore keeps -/

/-- An operation whose one written buffer is among `W` writes inside `W`. -/
theorem writes_sub_of_mem {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The buffers `opsIdx` writes. -/
abbrev opsIdx_W : List (Ref sig .tc) :=
  [main_v0, main_v1, main_v2, main_v3]
set_option maxRecDepth 8192 in
theorem opsIdx_writes : (opsIdx : List (HloOp τ sig (Elt F))).Forall fun op =>
    op.writes ⊆ (opsIdx_W.map (Proc.devRef (τ := τ) .tc)).toFinset :=
  ⟨writes_sub_of_mem rfl (by decide), writes_sub_of_mem rfl (by decide), writes_sub_of_mem rfl (by decide), writes_sub_of_mem rfl (by decide)⟩

/-- The buffers `opsH3` writes. -/
abbrev opsH3_W : List (Ref sig .tc) :=
  [main_v4, main_v5, main_v6, main_v7, main_v8]
set_option maxRecDepth 8192 in
theorem opsH3_writes : (opsH3 : List (HloOp τ sig (Elt F))).Forall fun op =>
    op.writes ⊆ (opsH3_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide)⟩

/-- The buffers `opsAlpha` writes. -/
abbrev opsAlpha_W : List (Ref sig .tc) :=
  [main_c, main_v9, main_v10, main_c_0, main_v11, main_v12, main_v13, main_v14, main_v15, main_v16, main_v17, main_cst, main_v18, main_c_1, main_v19, main_v20, main_c_2, main_v21, main_v22, main_v23, main_v24, main_v25, main_v26, main_v27, main_cst_3, main_v28, main_v29, main_v30, main_v31, main_v32, main_call0_cst, main_call0_v0, main_v33, main_v34, main_v35, main_v36, main_v37, main_v38, main_v39, main_cst_4, main_call1_cst, main_call1_v0, main_call1_v1, main_call1_v2, main_call1_v3, main_call1_v4, main_v40]
set_option maxRecDepth 8192 in
theorem opsAlpha_writes : (opsAlpha : List (HloOp τ sig (Elt F))).Forall fun op =>
    op.writes ⊆ (opsAlpha_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The buffers `opsDenseA` writes. -/
abbrev opsDenseA_W : List (Ref sig .tc) :=
  [main_v41, main_c_5, main_v42, main_v43, main_v44, main_c_6, main_v45, main_v46, main_v47, main_c_7, main_call2_v0, main_call2_v1, main_v48, main_c_8]
set_option maxRecDepth 8192 in
theorem opsDenseA_writes : (opsDenseA : List (HloOp τ sig (Elt F))).Forall fun op =>
    op.writes ⊆ (opsDenseA_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The buffers `opsDenseB` writes. -/
abbrev opsDenseB_W : List (Ref sig .tc) :=
  [main_v49, main_v50, main_c_9, main_v51, main_v52, main_v53, main_v54, main_v55, main_cst_10, main_call3_v0, main_call3_v1, main_call3_v2, main_v56, main_cst_11, main_v57, main_cst_12, main_v58, main_v59, main_v60, main_v61, main_v62, main_v63, main_cst_13, main_v64, main_v65, main_v66, main_v67]
set_option maxRecDepth 8192 in
theorem opsDenseB_writes : (opsDenseB : List (HloOp τ sig (Elt F))).Forall fun op =>
    op.writes ⊆ (opsDenseB_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The buffers `opsResA` writes. -/
abbrev opsResA_W : List (Ref sig .tc) :=
  [main_c_14, main_v68, main_v69, main_c_15, main_v70, main_v71, main_v72, main_v73, main_v74, main_c_16, main_v75, main_v76, main_c_17, main_v77, main_v78, main_v79, main_v80, main_v81, main_v82, main_v83, main_v84, main_cst_18, main_v85, main_c_19, main_v86, main_v87, main_c_20, main_v88, main_v89, main_v90, main_v91, main_v92, main_cst_21, main_v93, main_cst_22, main_v94]
set_option maxRecDepth 8192 in
theorem opsResA_writes : (opsResA : List (HloOp τ sig (Elt F))).Forall fun op =>
    op.writes ⊆ (opsResA_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- The buffers `opsResB` writes. -/
abbrev opsResB_W : List (Ref sig .tc) :=
  [main_v95]
set_option maxRecDepth 8192 in
theorem opsResB_writes : (opsResB : List (HloOp τ sig (Elt F))).Forall fun op =>
    op.writes ⊆ (opsResB_W.map (Proc.devRef (τ := τ) .tc)).toFinset :=
  writes_sub_of_mem rfl (by decide)

/-- A buffer `opsIdx` does not write keeps its contents through it. -/
theorem keep_opsIdx (V : Valuation τ sig (Elt F)) {r : Ref sig .tc} (h : r ∉ opsIdx_W) :
    after opsIdx V (Proc.devRef .tc r) = V (Proc.devRef .tc r) :=
  after_of_writes_sub opsIdx V opsIdx_writes h

/-- A buffer `opsH3` does not write keeps its contents through it. -/
theorem keep_opsH3 (V : Valuation τ sig (Elt F)) {r : Ref sig .tc} (h : r ∉ opsH3_W) :
    after opsH3 V (Proc.devRef .tc r) = V (Proc.devRef .tc r) :=
  after_of_writes_sub opsH3 V opsH3_writes h

/-- A buffer `opsAlpha` does not write keeps its contents through it. -/
theorem keep_opsAlpha (V : Valuation τ sig (Elt F)) {r : Ref sig .tc} (h : r ∉ opsAlpha_W) :
    after opsAlpha V (Proc.devRef .tc r) = V (Proc.devRef .tc r) :=
  after_of_writes_sub opsAlpha V opsAlpha_writes h

/-- A buffer `opsDenseA` does not write keeps its contents through it. -/
theorem keep_opsDenseA (V : Valuation τ sig (Elt F)) {r : Ref sig .tc} (h : r ∉ opsDenseA_W) :
    after opsDenseA V (Proc.devRef .tc r) = V (Proc.devRef .tc r) :=
  after_of_writes_sub opsDenseA V opsDenseA_writes h

/-- A buffer `opsDenseB` does not write keeps its contents through it. -/
theorem keep_opsDenseB (V : Valuation τ sig (Elt F)) {r : Ref sig .tc} (h : r ∉ opsDenseB_W) :
    after opsDenseB V (Proc.devRef .tc r) = V (Proc.devRef .tc r) :=
  after_of_writes_sub opsDenseB V opsDenseB_writes h

/-- A buffer `opsResA` does not write keeps its contents through it. -/
theorem keep_opsResA (V : Valuation τ sig (Elt F)) {r : Ref sig .tc} (h : r ∉ opsResA_W) :
    after opsResA V (Proc.devRef .tc r) = V (Proc.devRef .tc r) :=
  after_of_writes_sub opsResA V opsResA_writes h

/-- A buffer `opsResB` does not write keeps its contents through it. -/
theorem keep_opsResB (V : Valuation τ sig (Elt F)) {r : Ref sig .tc} (h : r ∉ opsResB_W) :
    after opsResB V (Proc.devRef .tc r) = V (Proc.devRef .tc r) :=
  after_of_writes_sub opsResB V opsResB_writes h

/-- The same through the two stretches of the coefficients' stage. -/
theorem keep_opsDense (V : Valuation τ sig (Elt F)) {r : Ref sig .tc} (hA : r ∉ opsDenseA_W) (hB : r ∉ opsDenseB_W) :
    after opsDenseB (after opsDenseA V) (Proc.devRef .tc r) = V (Proc.devRef .tc r) := by
  rw [keep_opsDenseB _ hB, keep_opsDenseA _ hA]

/-- The same through the two stretches of the output's stage. -/
theorem keep_opsRes (V : Valuation τ sig (Elt F)) {r : Ref sig .tc} (hA : r ∉ opsResA_W) (hB : r ∉ opsResB_W) :
    after opsResB (after opsResA V) (Proc.devRef .tc r) = V (Proc.devRef .tc r) := by
  rw [keep_opsResB _ hB, keep_opsResA _ hA]

/-! ## Each stretch's result, from any contents

What a stretch leaves at its last buffer is the stage's function of what it found at the buffers it reads: the
fold over the stretch read off operation by operation, a conversion between equal types read as the identity, and
the stage's definition unfolded. -/

section Stretches

variable (V : Valuation τ sig (Elt F))

theorem after_opsIdx_src : after opsIdx V (Proc.devRef .tc main_v1) = srcIdx (V (Proc.devRef .tc main_arg1)) := by
  after_results_simp
  rfl

theorem after_opsIdx_dst : after opsIdx V (Proc.devRef .tc main_v3) = dstIdx (V (Proc.devRef .tc main_arg1)) := by
  after_results_simp
  rfl

theorem after_opsH3 :
    after opsH3 V (Proc.devRef .tc main_v8) = h3 (V (Proc.devRef .tc main_arg0)) (V (Proc.devRef .tc main_arg3)) (V (Proc.devRef .tc main_arg4)) := by
  after_results_simp
  rfl

set_option maxRecDepth 8192 in
set_option maxHeartbeats 4000000 in
theorem after_opsAlpha :
    after opsAlpha V (Proc.devRef .tc main_v40)
      = alpha (V (Proc.devRef .tc main_v8)) (V (Proc.devRef .tc main_v1)) (V (Proc.devRef .tc main_v3)) (V (Proc.devRef .tc main_arg2)) (V (Proc.devRef .tc main_arg5))
          (V (Proc.devRef .tc main_arg6)) (V (Proc.devRef .tc main_arg7)) (V (Proc.devRef .tc main_arg8)) (V (Proc.devRef .tc main_arg9)) (V (Proc.devRef .tc main_arg10)) := by
  after_results_simp
  simp only [id_eq, alpha, logits, leakyRelu, edgeMlp, relu, headDot, rowsAt, wrapIdx] <;> rfl

set_option maxRecDepth 8192 in
set_option maxHeartbeats 4000000 in
theorem after_opsDense :
    after opsDenseB (after opsDenseA V) (Proc.devRef .tc main_v67) = dense (V (Proc.devRef .tc main_v40)) (V (Proc.devRef .tc main_v1)) := by
  after_results_simp
  simp only [id_eq, dense, softmax0, nodeExp, nodeMax, nodeLogit, pickEdgeWrapped, pickEdge, hasEdge, lastEdge] <;> rfl

set_option maxRecDepth 8192 in
set_option maxHeartbeats 4000000 in
theorem after_opsRes :
    after opsResB (after opsResA V) (Proc.devRef .tc main_v95)
      = result (V (Proc.devRef .tc main_v8)) (V (Proc.devRef .tc main_v67)) (V (Proc.devRef .tc main_v1)) (V (Proc.devRef .tc main_v3)) := by
  after_results_simp
  simp only [result, aggregated, messages, rowsAt, wrapIdx] <;> rfl

end Stretches

/-! ## The whole line -/

/-- A line run after another is their concatenation run as one. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

set_option maxRecDepth 8192 in
/-- After all of @main the result buffer holds the stages composed, from any contents: each stretch's result
    read off in turn, last stretch first, every buffer a later stretch reads carried back through the stretches
    that do not write it. -/
theorem after_ops_out (V : Valuation τ sig (Elt F)) :
    after ops V (Proc.devRef .tc main_v95)
      = result (h3 (V (Proc.devRef .tc main_arg0)) (V (Proc.devRef .tc main_arg3)) (V (Proc.devRef .tc main_arg4)))
          (dense (alpha (h3 (V (Proc.devRef .tc main_arg0)) (V (Proc.devRef .tc main_arg3)) (V (Proc.devRef .tc main_arg4))) (srcIdx (V (Proc.devRef .tc main_arg1))) (dstIdx (V (Proc.devRef .tc main_arg1))) (V (Proc.devRef .tc main_arg2)) (V (Proc.devRef .tc main_arg5)) (V (Proc.devRef .tc main_arg6))
            (V (Proc.devRef .tc main_arg7)) (V (Proc.devRef .tc main_arg8)) (V (Proc.devRef .tc main_arg9)) (V (Proc.devRef .tc main_arg10))) (srcIdx (V (Proc.devRef .tc main_arg1))))
          (srcIdx (V (Proc.devRef .tc main_arg1))) (dstIdx (V (Proc.devRef .tc main_arg1))) := by
  simp only [ops, after_concat]
  rw [after_opsRes, after_opsDense,
    keep_opsDense _ (r := main_v8) (by decide) (by decide),
    keep_opsDense _ (r := main_v1) (by decide) (by decide),
    keep_opsDense _ (r := main_v3) (by decide) (by decide),
    after_opsAlpha,
    keep_opsAlpha _ (r := main_v8) (by decide),
    keep_opsAlpha _ (r := main_v1) (by decide),
    keep_opsAlpha _ (r := main_v3) (by decide),
    after_opsH3,
    keep_opsH3 _ (r := main_v1) (by decide),
    keep_opsH3 _ (r := main_v3) (by decide),
    keep_opsH3 _ (r := main_arg2) (by decide),
    keep_opsH3 _ (r := main_arg5) (by decide),
    keep_opsH3 _ (r := main_arg6) (by decide),
    keep_opsH3 _ (r := main_arg7) (by decide),
    keep_opsH3 _ (r := main_arg8) (by decide),
    keep_opsH3 _ (r := main_arg9) (by decide),
    keep_opsH3 _ (r := main_arg10) (by decide),
    after_opsIdx_src, after_opsIdx_dst,
    keep_opsIdx _ (r := main_arg0) (by decide),
    keep_opsIdx _ (r := main_arg2) (by decide),
    keep_opsIdx _ (r := main_arg3) (by decide),
    keep_opsIdx _ (r := main_arg4) (by decide),
    keep_opsIdx _ (r := main_arg5) (by decide),
    keep_opsIdx _ (r := main_arg6) (by decide),
    keep_opsIdx _ (r := main_arg7) (by decide),
    keep_opsIdx _ (r := main_arg8) (by decide),
    keep_opsIdx _ (r := main_arg9) (by decide),
    keep_opsIdx _ (r := main_arg10) (by decide)]

set_option maxRecDepth 8192 in
/-- No operation writes an argument's buffer. -/
theorem after_ops_arg (V : Valuation τ sig (Elt F)) {r : Ref sig .tc}
    (w1 : r ∉ opsIdx_W) (w2 : r ∉ opsH3_W) (w3 : r ∉ opsAlpha_W) (w4 : r ∉ opsDenseA_W) (w5 : r ∉ opsDenseB_W)
    (w6 : r ∉ opsResA_W) (w7 : r ∉ opsResB_W) :
    after ops V (Proc.devRef .tc r) = V (Proc.devRef .tc r) := by
  simp only [ops, after_concat]
  rw [keep_opsRes _ w6 w7, keep_opsDense _ w4 w5, keep_opsAlpha _ w3, keep_opsH3 _ w2, keep_opsIdx _ w1]

/-! ## The run -/

/-- On every device, for any float values, from any memory with zero counters: every weakly fair execution of
    @main terminates with the result buffer at the stages composed over the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = result (h3 (m ((c.tc : Thread nD τ).loc main_arg0)) (m ((c.tc : Thread nD τ).loc main_arg3)) (m ((c.tc : Thread nD τ).loc main_arg4)))
          (dense (alpha (h3 (m ((c.tc : Thread nD τ).loc main_arg0)) (m ((c.tc : Thread nD τ).loc main_arg3)) (m ((c.tc : Thread nD τ).loc main_arg4))) (srcIdx (m ((c.tc : Thread nD τ).loc main_arg1))) (dstIdx (m ((c.tc : Thread nD τ).loc main_arg1))) (m ((c.tc : Thread nD τ).loc main_arg2)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10))) (srcIdx (m ((c.tc : Thread nD τ).loc main_arg1))))
          (srcIdx (m ((c.tc : Thread nD τ).loc main_arg1))) (dstIdx (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v95).trans (after_ops_out (launchContents m c)),
      (h c main_arg0).trans (after_ops_arg (launchContents m c) (by decide) (by decide) (by decide) (by decide) (by decide) (by decide) (by decide)),
      (h c main_arg1).trans (after_ops_arg (launchContents m c) (by decide) (by decide) (by decide) (by decide) (by decide) (by decide) (by decide)),
      (h c main_arg2).trans (after_ops_arg (launchContents m c) (by decide) (by decide) (by decide) (by decide) (by decide) (by decide) (by decide)),
      (h c main_arg3).trans (after_ops_arg (launchContents m c) (by decide) (by decide) (by decide) (by decide) (by decide) (by decide) (by decide)),
      (h c main_arg4).trans (after_ops_arg (launchContents m c) (by decide) (by decide) (by decide) (by decide) (by decide) (by decide) (by decide)),
      (h c main_arg5).trans (after_ops_arg (launchContents m c) (by decide) (by decide) (by decide) (by decide) (by decide) (by decide) (by decide)),
      (h c main_arg6).trans (after_ops_arg (launchContents m c) (by decide) (by decide) (by decide) (by decide) (by decide) (by decide) (by decide)),
      (h c main_arg7).trans (after_ops_arg (launchContents m c) (by decide) (by decide) (by decide) (by decide) (by decide) (by decide) (by decide)),
      (h c main_arg8).trans (after_ops_arg (launchContents m c) (by decide) (by decide) (by decide) (by decide) (by decide) (by decide) (by decide)),
      (h c main_arg9).trans (after_ops_arg (launchContents m c) (by decide) (by decide) (by decide) (by decide) (by decide) (by decide) (by decide)),
      (h c main_arg10).trans (after_ops_arg (launchContents m c) (by decide) (by decide) (by decide) (by decide) (by decide) (by decide) (by decide))⟩)
    (run_seq scopedRefs_eq scopedSems_eq defs main (fun _ => ops) main_eq (fun _ => ops_sub) m ρ)

end Cert.ReferenceIdeal.RefRun

end
-- ==== Proof.LibRowGatherScatter.lean ====
/-
  WHOLE-ROW GATHERS AND ACCUMULATING SCATTERS ALONG AXIS 0, READ AT AN INDEX.

  A graph layer moves data between nodes and edges with two operations. A GATHER along the edges copies, for every
  edge `e`, the whole row of a per-node array named by the edge's index `idx[e]`; the index is read as a signed integer
  and clamped into the valid rows, so result element `(e, c)` is the operand's `(row idx[e], c)`. An ACCUMULATING SCATTER
  adds, for every edge `e`, the edge's whole row of updates into the row of the operand named by `idx[e]`; here the
  index is read signed and NOT clamped, an edge whose index names no row being dropped, so at exact arithmetic result
  element `(n, c)` is the operand's `(n, c)` plus the sum of `upd (e, c)` over the edges `e` with `idx[e] = n`.

  Both facts are proved once for every number of rows `N`, of edges `E` and every row width (`rowGather2_apply`,
  `rowGather3_apply`, `rowScatter2_apply`, `rowScatter3_apply`: a row is `C` elements, or a `K × F` slab), by evaluating
  the operation's index arithmetic on its literal dimension numbers; no step depends on the sizes. The last two sections
  state them for the dimension numbers of the two programs of this certificate.
-/
import proofs.«142816_j68169720922763_2_alg».proof.KernelIdeal
import proofs.«142816_j68169720922763_2_alg».proof.ReferenceIdeal
import Idealize.ShloMosaic.Lib.ValueIdx

noncomputable section

open scoped BigOperators

namespace Cert.RowOps

open Idealize.ShloMosaic Idealize.ShloMosaic.ValueIdx

section Scatter2
variable {N E C w : Nat}

/-- The dimension numbers of a whole-row accumulating scatter into a rank-2 operand. -/
abbrev rowScatter2 (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem rowScatter2_siIdx (e : Fin E) (c : Fin C) (k : Fin (rowScatter2 wf).scatterDimsToOperandDims.length) :
    (rowScatter2 wf).siIdx (ix2 e c) k = ix2 e 0 := by
  funext b; refine Fin.ext ?_
  match b with
  | ⟨0, _⟩ => rfl
  | ⟨1, _⟩ =>
    have : k.val = 0 := by have := k.isLt; simpa using this
    show k.val = 0
    exact this

theorem rowScatter2_start_zero (e : Fin E) (c : Fin C) (idx : IVec ⟨2, ![E, 1]⟩ w) :
    (rowScatter2 wf).start (ix2 e c) idx 0 = (idx (ix2 e 0)).toInt := by
  unfold ScatterDims.start
  rw [dif_pos (show (0 : Fin 2) ∈ (rowScatter2 wf).scatterDimsToOperandDims from List.mem_singleton.mpr rfl)]
  rw [rowScatter2_siIdx]

theorem rowScatter2_start_one (e : Fin E) (c : Fin C) (idx : IVec ⟨2, ![E, 1]⟩ w) :
    (rowScatter2 wf).start (ix2 e c) idx 1 = 0 := by
  unfold ScatterDims.start
  have h : ¬ (1 : Fin 2) ∈ (rowScatter2 wf).scatterDimsToOperandDims := by
    show ¬ (1 : Fin 2) ∈ ([0] : List (Fin 2)); decide
  rw [dif_neg h]

theorem rowScatter2_window_zero (e : Fin E) (c : Fin C) :
    (rowScatter2 wf).window (ix2 e c) 0 = 0 := by
  unfold ScatterDims.window
  have h : ¬ (0 : Fin 2) ∈ (rowScatter2 wf).sKept := by
    show ¬ (0 : Fin 2) ∈ ([1] : List (Fin 2)); decide
  rw [dif_neg h]

theorem rowScatter2_window_one (e : Fin E) (c : Fin C) :
    (rowScatter2 wf).window (ix2 e c) 1 = c.val := by
  unfold ScatterDims.window
  have h : (1 : Fin 2) ∈ (rowScatter2 wf).sKept := by
    show (1 : Fin 2) ∈ ([1] : List (Fin 2)); decide
  rw [dif_pos h]
  rfl

/-- Where an update element of a whole-row scatter lands: update `(e, c')` lands on operand element `(n, c)` exactly
    when edge `e`'s index, read signed, is `n` and the columns agree; an index outside `[0, N)` lands nowhere. -/
theorem rowScatter2_resultIdx?_iff (e : Fin E) (c' : Fin C) (idx : IVec ⟨2, ![E, 1]⟩ w) (n : Fin N) (c : Fin C) :
    (rowScatter2 wf).resultIdx? (ix2 e c') idx = some (ix2 n c) ↔ (idx (ix2 e 0)).toInt = (n.val : Int) ∧ c' = c := by
  have hs0 := rowScatter2_start_zero wf e c' idx
  have hs1 := rowScatter2_start_one wf e c' idx
  have hw0 := rowScatter2_window_zero wf e c'
  have hw1 := rowScatter2_window_one wf e c'
  unfold ScatterDims.resultIdx?
  constructor
  · intro h
    split at h
    · rename_i hall
      have h' := Option.some.inj h
      have h0 : ((rowScatter2 wf).start (ix2 e c') idx 0 + ((rowScatter2 wf).window (ix2 e c') 0 : Nat)).toNat = n.val :=
        congrArg Fin.val (congrFun h' 0)
      have h1 : ((rowScatter2 wf).start (ix2 e c') idx 1 + ((rowScatter2 wf).window (ix2 e c') 1 : Nat)).toNat = c.val :=
        congrArg Fin.val (congrFun h' 1)
      have a0 := (hall 0).1
      rw [hs0, hw0] at h0 a0
      rw [hs1, hw1] at h1
      refine ⟨by omega, Fin.ext (by omega)⟩
    · exact absurd h (by simp)
  · rintro ⟨hA, rfl⟩
    have hall : ∀ a, 0 ≤ (rowScatter2 wf).start (ix2 e c') idx a + ((rowScatter2 wf).window (ix2 e c') a : Nat) ∧
        (rowScatter2 wf).start (ix2 e c') idx a + ((rowScatter2 wf).window (ix2 e c') a : Nat)
          < ((⟨2, ![N, C]⟩ : Shape).size a : Nat) := by
      refine Fin.forall_fin_two.mpr ⟨?_, ?_⟩
      · rw [hs0, hw0, hA]
        show (0 : Int) ≤ (n.val : Int) + ((0 : Nat) : Int) ∧ (n.val : Int) + ((0 : Nat) : Int) < ((N : Nat) : Int)
        have := n.isLt; omega
      · rw [hs1, hw1]
        show (0 : Int) ≤ 0 + ((c'.val : Nat) : Int) ∧ 0 + ((c'.val : Nat) : Int) < ((C : Nat) : Int)
        have := c'.isLt; omega
    rw [dif_pos hall]
    congr 1
    funext a; refine Fin.ext ?_
    revert a
    refine Fin.forall_fin_two.mpr ⟨?_, ?_⟩
    · show ((rowScatter2 wf).start (ix2 e c') idx 0 + ((rowScatter2 wf).window (ix2 e c') 0 : Nat)).toNat = n.val
      rw [hs0, hw0, hA]; omega
    · show ((rowScatter2 wf).start (ix2 e c') idx 1 + ((rowScatter2 wf).window (ix2 e c') 1 : Nat)).toNat = c'.val
      rw [hs1, hw1]; omega

/-- THE WHOLE-ROW ACCUMULATING SCATTER READ AT `(n, c)`, at the ideal instance: the operand's element plus the sum, over
    the edges whose index (read signed) is `n`, of the update's element in column `c`. An edge whose index is
    negative or at least `N` contributes to no row. -/
theorem rowScatter2_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatter2 wf) x idx upd (ix2 n c)
      = x (ix2 n c) + ∑ e ∈ Finset.univ.filter (fun e : Fin E => (idx (ix2 e 0)).toInt = (n.val : Int)), upd (ix2 e c) := by
  show Ideal.hostScatterAdd (rowScatter2 wf) x idx upd (ix2 n c) = _
  unfold Ideal.hostScatterAdd
  congr 1
  rw [Finset.sum_filter, sum_idx2, Finset.sum_filter]
  refine Finset.sum_congr rfl fun e _ => ?_
  simp only [rowScatter2_resultIdx?_iff]
  by_cases hA : (idx (ix2 e 0)).toInt = (n.val : Int)
  · simp only [hA, true_and, if_true]
    rw [Finset.sum_ite_eq' Finset.univ c (fun c' => upd (ix2 e c'))]
    simp
  · simp [hA]

end Scatter2

/-! ## Rank-3 indices: a property of all three axes, and a sum over the index set as a triple sum -/

/-- A property of every axis of a rank-3 shape is its three instances. -/
theorem forall_fin_three {P : Fin 3 → Prop} : (∀ i, P i) ↔ P 0 ∧ P 1 ∧ P 2 :=
  ⟨fun h => ⟨h 0, h 1, h 2⟩, fun h i => match i with
    | ⟨0, _⟩ => h.1
    | ⟨1, _⟩ => h.2.1
    | ⟨2, _⟩ => h.2.2⟩

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Scatter3
variable {N E K F w : Nat}

/-- The dimension numbers of a whole-row accumulating scatter into a rank-3 operand (a row is a `K × F` slab). -/
abbrev rowScatter3 (wf : ScatterDims.WF ⟨3, ![N, K, F]⟩ ⟨2, ![E, 1]⟩ ⟨3, ![E, K, F]⟩ [1, 2] [0] [0] 1) :
    ScatterDims ⟨3, ![N, K, F]⟩ ⟨2, ![E, 1]⟩ ⟨3, ![E, K, F]⟩ where
  updateWindowDims := [1, 2]
  insertedWindowDims := [0]
  scatterDimsToOperandDims := [0]
  indexVectorDim := 1
  wf := wf

variable (wf : ScatterDims.WF ⟨3, ![N, K, F]⟩ ⟨2, ![E, 1]⟩ ⟨3, ![E, K, F]⟩ [1, 2] [0] [0] 1)

/-- The scatter index an update element reads: its edge's, in the index array's one column. -/
theorem rowScatter3_siIdx (e : Fin E) (k : Fin K) (f : Fin F) (q : Fin (rowScatter3 wf).scatterDimsToOperandDims.length) :
    (rowScatter3 wf).siIdx (ix3 e k f) q = ix2 e 0 := by
  funext b; refine Fin.ext ?_
  match b with
  | ⟨0, _⟩ => rfl
  | ⟨1, _⟩ =>
    have : q.val = 0 := by have := q.isLt; simpa using this
    show q.val = 0
    exact this

/-- On the row axis the window starts at the edge's index, read signed (and not clamped). -/
theorem rowScatter3_start_zero (e : Fin E) (k : Fin K) (f : Fin F) (idx : IVec ⟨2, ![E, 1]⟩ w) :
    (rowScatter3 wf).start (ix3 e k f) idx 0 = (idx (ix2 e 0)).toInt := by
  unfold ScatterDims.start
  rw [dif_pos (show (0 : Fin 3) ∈ (rowScatter3 wf).scatterDimsToOperandDims from List.mem_singleton.mpr rfl)]
  rw [rowScatter3_siIdx]

/-- On the second axis the window starts at `0`. -/
theorem rowScatter3_start_one (e : Fin E) (k : Fin K) (f : Fin F) (idx : IVec ⟨2, ![E, 1]⟩ w) :
    (rowScatter3 wf).start (ix3 e k f) idx 1 = 0 := by
  unfold ScatterDims.start
  have h : ¬ (1 : Fin 3) ∈ (rowScatter3 wf).scatterDimsToOperandDims := by
    show ¬ (1 : Fin 3) ∈ ([0] : List (Fin 3)); decide
  rw [dif_neg h]

/-- On the third axis the window starts at `0`. -/
theorem rowScatter3_start_two (e : Fin E) (k : Fin K) (f : Fin F) (idx : IVec ⟨2, ![E, 1]⟩ w) :
    (rowScatter3 wf).start (ix3 e k f) idx 2 = 0 := by
  unfold ScatterDims.start
  have h : ¬ (2 : Fin 3) ∈ (rowScatter3 wf).scatterDimsToOperandDims := by
    show ¬ (2 : Fin 3) ∈ ([0] : List (Fin 3)); decide
  rw [dif_neg h]

/-- The row axis is inserted: no window coordinate on it. -/
theorem rowScatter3_window_zero (e : Fin E) (k : Fin K) (f : Fin F) :
    (rowScatter3 wf).window (ix3 e k f) 0 = 0 := by
  unfold ScatterDims.window
  have h : ¬ (0 : Fin 3) ∈ (rowScatter3 wf).sKept := by
    show ¬ (0 : Fin 3) ∈ ([1, 2] : List (Fin 3)); decide
  rw [dif_neg h]

/-- The window coordinate on the second axis is the update's second coordinate. -/
theorem rowScatter3_window_one (e : Fin E) (k : Fin K) (f : Fin F) :
    (rowScatter3 wf).window (ix3 e k f) 1 = k.val := by
  unfold ScatterDims.window
  have h : (1 : Fin 3) ∈ (rowScatter3 wf).sKept := by
    show (1 : Fin 3) ∈ ([1, 2] : List (Fin 3)); decide
  rw [dif_pos h]
  rfl

/-- The window coordinate on the third axis is the update's third coordinate. -/
theorem rowScatter3_window_two (e : Fin E) (k : Fin K) (f : Fin F) :
    (rowScatter3 wf).window (ix3 e k f) 2 = f.val := by
  unfold ScatterDims.window
  have h : (2 : Fin 3) ∈ (rowScatter3 wf).sKept := by
    show (2 : Fin 3) ∈ ([1, 2] : List (Fin 3)); decide
  rw [dif_pos h]
  rfl

/-- Where an update element of a whole-row scatter lands: update `(e, k', f')` lands on operand element `(n, k, f)`
    exactly when edge `e`'s index, read signed, is `n` and the coordinates inside the row agree; an index outside
    `[0, N)` lands nowhere. -/
theorem rowScatter3_resultIdx?_iff (e : Fin E) (k' : Fin K) (f' : Fin F) (idx : IVec ⟨2, ![E, 1]⟩ w) (n : Fin N)
    (k : Fin K) (f : Fin F) :
    (rowScatter3 wf).resultIdx? (ix3 e k' f') idx = some (ix3 n k f)
      ↔ (idx (ix2 e 0)).toInt = (n.val : Int) ∧ k' = k ∧ f' = f := by
  have hs0 := rowScatter3_start_zero wf e k' f' idx
  have hs1 := rowScatter3_start_one wf e k' f' idx
  have hs2 := rowScatter3_start_two wf e k' f' idx
  have hw0 := rowScatter3_window_zero wf e k' f'
  have hw1 := rowScatter3_window_one wf e k' f'
  have hw2 := rowScatter3_window_two wf e k' f'
  unfold ScatterDims.resultIdx?
  constructor
  · intro h
    split at h
    · rename_i hall
      have h' := Option.some.inj h
      have h0 : ((rowScatter3 wf).start (ix3 e k' f') idx 0 + ((rowScatter3 wf).window (ix3 e k' f') 0 : Nat)).toNat = n.val :=
        congrArg Fin.val (congrFun h' 0)
      have h1 : ((rowScatter3 wf).start (ix3 e k' f') idx 1 + ((rowScatter3 wf).window (ix3 e k' f') 1 : Nat)).toNat = k.val :=
        congrArg Fin.val (congrFun h' 1)
      have h2 : ((rowScatter3 wf).start (ix3 e k' f') idx 2 + ((rowScatter3 wf).window (ix3 e k' f') 2 : Nat)).toNat = f.val :=
        congrArg Fin.val (congrFun h' 2)
      have a0 := (hall 0).1
      rw [hs0, hw0] at h0 a0
      rw [hs1, hw1] at h1
      rw [hs2, hw2] at h2
      refine ⟨by omega, Fin.ext (by omega), Fin.ext (by omega)⟩
    · exact absurd h (by simp)
  · rintro ⟨hA, rfl, rfl⟩
    have hall : ∀ a, 0 ≤ (rowScatter3 wf).start (ix3 e k' f') idx a + ((rowScatter3 wf).window (ix3 e k' f') a : Nat) ∧
        (rowScatter3 wf).start (ix3 e k' f') idx a + ((rowScatter3 wf).window (ix3 e k' f') a : Nat)
          < ((⟨3, ![N, K, F]⟩ : Shape).size a : Nat) := by
      refine forall_fin_three.mpr ⟨?_, ?_, ?_⟩
      · rw [hs0, hw0, hA]
        show (0 : Int) ≤ (n.val : Int) + ((0 : Nat) : Int) ∧ (n.val : Int) + ((0 : Nat) : Int) < ((N : Nat) : Int)
        have := n.isLt; omega
      · rw [hs1, hw1]
        show (0 : Int) ≤ 0 + ((k'.val : Nat) : Int) ∧ 0 + ((k'.val : Nat) : Int) < ((K : Nat) : Int)
        have := k'.isLt; omega
      · rw [hs2, hw2]
        show (0 : Int) ≤ 0 + ((f'.val : Nat) : Int) ∧ 0 + ((f'.val : Nat) : Int) < ((F : Nat) : Int)
        have := f'.isLt; omega
    rw [dif_pos hall]
    congr 1
    funext a; refine Fin.ext ?_
    revert a
    refine forall_fin_three.mpr ⟨?_, ?_, ?_⟩
    · show ((rowScatter3 wf).start (ix3 e k' f') idx 0 + ((rowScatter3 wf).window (ix3 e k' f') 0 : Nat)).toNat = n.val
      rw [hs0, hw0, hA]; omega
    · show ((rowScatter3 wf).start (ix3 e k' f') idx 1 + ((rowScatter3 wf).window (ix3 e k' f') 1 : Nat)).toNat = k'.val
      rw [hs1, hw1]; omega
    · show ((rowScatter3 wf).start (ix3 e k' f') idx 2 + ((rowScatter3 wf).window (ix3 e k' f') 2 : Nat)).toNat = f'.val
      rw [hs2, hw2]; omega

/-- THE WHOLE-ROW ACCUMULATING SCATTER READ AT `(n, k, f)`, at the ideal instance: the operand's element plus the sum,
    over the edges whose index (read signed) is `n`, of the update's element at `(k, f)` of the edge's row. An edge
    whose index is negative or at least `N` contributes to no row. -/
theorem rowScatter3_apply {φ : FTy} (x : FVec Ideal ⟨3, ![N, K, F]⟩ φ) (idx : IVec ⟨2, ![E, 1]⟩ w)
    (upd : FVec Ideal ⟨3, ![E, K, F]⟩ φ) (n : Fin N) (k : Fin K) (f : Fin F) :
    Host.scatterAdd (F := Ideal) (rowScatter3 wf) x idx upd (ix3 n k f)
      = x (ix3 n k f)
        + ∑ e ∈ Finset.univ.filter (fun e : Fin E => (idx (ix2 e 0)).toInt = (n.val : Int)), upd (ix3 e k f) := by
  show Ideal.hostScatterAdd (rowScatter3 wf) x idx upd (ix3 n k f) = _
  unfold Ideal.hostScatterAdd
  congr 1
  rw [Finset.sum_filter, sum_idx3, Finset.sum_filter]
  refine Finset.sum_congr rfl fun e _ => ?_
  simp only [rowScatter3_resultIdx?_iff]
  by_cases hA : (idx (ix2 e 0)).toInt = (n.val : Int)
  · simp only [hA, true_and, if_true]
    have inner : ∀ k' : Fin K, (∑ f' : Fin F, if k' = k ∧ f' = f then upd (ix3 e k' f') else 0)
        = if k' = k then upd (ix3 e k' f) else 0 := by
      intro k'
      by_cases hk : k' = k
      · simp only [hk, true_and, if_true]
        rw [Finset.sum_ite_eq' Finset.univ f (fun f' => upd (ix3 e k f'))]
        simp
      · simp [hk]
    rw [Finset.sum_congr rfl (fun k' _ => inner k')]
    rw [Finset.sum_ite_eq' Finset.univ k (fun k' => upd (ix3 e k' f))]
    simp
  · simp [hA]

end Scatter3

/-! ## Whole-row gathers -/

/-- A start index read signed and clamped into `[0, N − 1]`: a negative value reads row `0`, a value past the last row
    reads row `N − 1`. This is the row a whole-row gather of an operand with `N` rows reads. -/
def clampRow {w : Nat} (N : Nat) (hN : 0 < N) (z : BitVec w) : Fin N := ⟨min z.toInt.toNat (N - 1), by omega⟩

/-- A start index already inside `[0, N)` is its own row. -/
theorem clampRow_of_range {w : Nat} (N : Nat) (hN : 0 < N) (z : BitVec w) (h0 : 0 ≤ z.toInt) (h1 : z.toInt < (N : Int)) :
    (clampRow N hN z).val = z.toInt.toNat := by
  show min z.toInt.toNat (N - 1) = z.toInt.toNat
  omega

/-- THE ROW a gather along axis 0 of an operand with 50000 rows reads for a 32-bit index: the index read signed and
    clamped into `[0, 49999]`. -/
def row (z : BitVec 32) : Fin 50000 := clampRow 50000 (by decide) z

/-- An index inside `[0, 50000)` is its own row. -/
theorem row_of_range (z : BitVec 32) (h0 : 0 ≤ z.toInt) (h1 : z.toInt < 50000) : (row z).val = z.toInt.toNat :=
  clampRow_of_range 50000 (by decide) z h0 (by exact_mod_cast h1)
/-- For an index inside `[0, 50000)`, "the index read signed is `n`" (the accumulating scatter's condition) says the same
    as "the row a gather reads is `n`". -/
theorem toInt_eq_iff_row_eq (z : BitVec 32) (h0 : 0 ≤ z.toInt) (h1 : z.toInt < 50000) (n : Fin 50000) :
    z.toInt = (n.val : Int) ↔ row z = n := by
  have hr := row_of_range z h0 h1
  constructor
  · intro h; exact Fin.ext (by omega)
  · intro h; subst h; omega

section Gather2
variable {α : Type} {N E C w : Nat}

/-- The dimension numbers of a whole-row gather from a rank-2 operand: one start index per edge, naming the row. -/
abbrev rowGather2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The start index a result element reads: its edge's, in the index array's one column. -/
theorem rowGather2_siIdx (e : Fin E) (c : Fin C) (q : Fin (rowGather2 wf).startIndexMap.length) :
    (rowGather2 wf).siIdx (ix2 e c) q = ix2 e 0 := by
  funext b; refine Fin.ext ?_
  match b with
  | ⟨0, _⟩ => rfl
  | ⟨1, _⟩ =>
    have : q.val = 0 := by have := q.isLt; simpa using this
    show q.val = 0
    exact this

/-- THE WHOLE-ROW GATHER READ AT `(e, c)`: column `c` of the operand's row named by edge `e`'s index, read signed and
    clamped into `[0, N − 1]`. -/
theorem rowGather2_apply (hN : 0 < N) (x : (⟨2, ![N, C]⟩ : Shape).Idx → α) (idx : IVec ⟨2, ![E, 1]⟩ w)
    (e : Fin E) (c : Fin C) :
    Host.gather (rowGather2 wf) x idx (ix2 e c) = x (ix2 (clampRow N hN (idx (ix2 e 0))) c) := by
  unfold Host.gather
  congr 1
  funext a; refine Fin.ext ?_
  revert a
  refine Fin.forall_fin_two.mpr ⟨?_, ?_⟩
  · show (rowGather2 wf).start (ix2 e c) idx 0 + (rowGather2 wf).batchCoord (ix2 e c) 0
        + (rowGather2 wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 wf).startIndexMap from List.mem_singleton.mpr rfl)]
    rw [rowGather2_siIdx]
    rfl
  · show (rowGather2 wf).start (ix2 e c) idx 1 + (rowGather2 wf).batchCoord (ix2 e c) 1
        + (rowGather2 wf).offCoord (ix2 e c) 1 = c.val
    rw [GatherDims.batchCoord_eq_zero _ _ _ List.not_mem_nil]
    have hs : (rowGather2 wf).start (ix2 e c) idx 1 = 0 := by
      unfold GatherDims.start
      have h : ¬ (1 : Fin 2) ∈ (rowGather2 wf).startIndexMap := by
        show ¬ (1 : Fin 2) ∈ ([0] : List (Fin 2)); decide
      rw [dif_neg h]
    have ho : (rowGather2 wf).offCoord (ix2 e c) 1 = c.val := by
      unfold GatherDims.offCoord
      have h : (1 : Fin 2) ∈ (rowGather2 wf).sKept := by
        show (1 : Fin 2) ∈ ([1] : List (Fin 2)); decide
      rw [dif_pos h]
      rfl
    rw [hs, ho]; omega

end Gather2

section Gather3
variable {α : Type} {N E K F w : Nat}

/-- The dimension numbers of a whole-row gather from a rank-3 operand (a row is a `K × F` slab). -/
abbrev rowGather3 (wf : GatherDims.WF ⟨3, ![N, K, F]⟩ ⟨2, ![E, 1]⟩ ⟨3, ![E, K, F]⟩ [1, 2] [0] [] [0] [] 1 ![1, K, F]) :
    GatherDims ⟨3, ![N, K, F]⟩ ⟨2, ![E, 1]⟩ ⟨3, ![E, K, F]⟩ where
  offsetDims := [1, 2]
  collapsedSliceDims := [0]
  operandBatchingDims := []
  startIndicesBatchingDims := []
  startIndexMap := [0]
  indexVectorDim := 1
  sliceSizes := ![1, K, F]
  wf := wf

variable (wf : GatherDims.WF ⟨3, ![N, K, F]⟩ ⟨2, ![E, 1]⟩ ⟨3, ![E, K, F]⟩ [1, 2] [0] [] [0] [] 1 ![1, K, F])

/-- The start index a result element reads: its edge's, in the index array's one column. -/
theorem rowGather3_siIdx (e : Fin E) (k : Fin K) (f : Fin F) (q : Fin (rowGather3 wf).startIndexMap.length) :
    (rowGather3 wf).siIdx (ix3 e k f) q = ix2 e 0 := by
  funext b; refine Fin.ext ?_
  match b with
  | ⟨0, _⟩ => rfl
  | ⟨1, _⟩ =>
    have : q.val = 0 := by have := q.isLt; simpa using this
    show q.val = 0
    exact this

/-- THE WHOLE-ROW GATHER READ AT `(e, k, f)`: entry `(k, f)` of the operand's row named by edge `e`'s index, read
    signed and clamped into `[0, N − 1]`. -/
theorem rowGather3_apply (hN : 0 < N) (x : (⟨3, ![N, K, F]⟩ : Shape).Idx → α) (idx : IVec ⟨2, ![E, 1]⟩ w)
    (e : Fin E) (k : Fin K) (f : Fin F) :
    Host.gather (rowGather3 wf) x idx (ix3 e k f) = x (ix3 (clampRow N hN (idx (ix2 e 0))) k f) := by
  unfold Host.gather
  congr 1
  funext a; refine Fin.ext ?_
  revert a
  refine forall_fin_three.mpr ⟨?_, ?_, ?_⟩
  · show (rowGather3 wf).start (ix3 e k f) idx 0 + (rowGather3 wf).batchCoord (ix3 e k f) 0
        + (rowGather3 wf).offCoord (ix3 e k f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 wf).startIndexMap from List.mem_singleton.mpr rfl)]
    rw [rowGather3_siIdx]
    rfl
  · show (rowGather3 wf).start (ix3 e k f) idx 1 + (rowGather3 wf).batchCoord (ix3 e k f) 1
        + (rowGather3 wf).offCoord (ix3 e k f) 1 = k.val
    rw [GatherDims.batchCoord_eq_zero _ _ _ List.not_mem_nil]
    have hs : (rowGather3 wf).start (ix3 e k f) idx 1 = 0 := by
      unfold GatherDims.start
      have h : ¬ (1 : Fin 3) ∈ (rowGather3 wf).startIndexMap := by
        show ¬ (1 : Fin 3) ∈ ([0] : List (Fin 3)); decide
      rw [dif_neg h]
    have ho : (rowGather3 wf).offCoord (ix3 e k f) 1 = k.val := by
      unfold GatherDims.offCoord
      have h : (1 : Fin 3) ∈ (rowGather3 wf).sKept := by
        show (1 : Fin 3) ∈ ([1, 2] : List (Fin 3)); decide
      rw [dif_pos h]
      rfl
    rw [hs, ho]; omega
  · show (rowGather3 wf).start (ix3 e k f) idx 2 + (rowGather3 wf).batchCoord (ix3 e k f) 2
        + (rowGather3 wf).offCoord (ix3 e k f) 2 = f.val
    rw [GatherDims.batchCoord_eq_zero _ _ _ List.not_mem_nil]
    have hs : (rowGather3 wf).start (ix3 e k f) idx 2 = 0 := by
      unfold GatherDims.start
      have h : ¬ (2 : Fin 3) ∈ (rowGather3 wf).startIndexMap := by
        show ¬ (2 : Fin 3) ∈ ([0] : List (Fin 3)); decide
      rw [dif_neg h]
    have ho : (rowGather3 wf).offCoord (ix3 e k f) 2 = f.val := by
      unfold GatherDims.offCoord
      have h : (2 : Fin 3) ∈ (rowGather3 wf).sKept := by
        show (2 : Fin 3) ∈ ([1, 2] : List (Fin 3)); decide
      rw [dif_pos h]
      rfl
    rw [hs, ho]; omega

end Gather3

/-! ## The two programs' accumulating scatters -/

section ProgramScatters

/-- The kernel program's scatter of the `1600000 × 128` messages into the `50000 × 128` accumulator, read at `(n, c)`:
    the operand's element plus the sum of column `c` of the messages of the edges whose index, read signed, is `n`. -/
theorem kernel_scatterAdd_apply [Cert.KernelIdeal.Facts₀] {φ : FTy} (x : FVec Ideal Cert.KernelIdeal.S50000x128 φ)
    (idx : IVec Cert.KernelIdeal.S1600000x1 32) (upd : FVec Ideal Cert.KernelIdeal.S1600000x128 φ)
    (n : Fin 50000) (c : Fin 128) :
    Host.scatterAdd (F := Ideal) Cert.KernelIdeal.scatter_S50000x128_S1600000x1_S1600000x128_1_0_0_1 x idx upd (ix2 n c)
      = x (ix2 n c)
        + ∑ e ∈ Finset.univ.filter (fun e : Fin 1600000 => (idx (ix2 e 0)).toInt = (n.val : Int)), upd (ix2 e c) :=
  rowScatter2_apply Cert.KernelIdeal.Facts₀.scatter_S50000x128_S1600000x1_S1600000x128_1_0_0_1_wf x idx upd n c

/-- The reference program's scatter of the `1600000 × 4 × 32` messages into the `50000 × 4 × 32` accumulator, read at
    `(n, k, f)`: the operand's element plus the sum of entry `(k, f)` of the messages of the edges whose index, read
    signed, is `n`. -/
theorem reference_scatterAdd_apply [Cert.ReferenceIdeal.Facts₀] {φ : FTy} (x : FVec Ideal Cert.ReferenceIdeal.S50000x4x32 φ)
    (idx : IVec Cert.ReferenceIdeal.S1600000x1 32) (upd : FVec Ideal Cert.ReferenceIdeal.S1600000x4x32 φ)
    (n : Fin 50000) (k : Fin 4) (f : Fin 32) :
    Host.scatterAdd (F := Ideal) Cert.ReferenceIdeal.scatter_S50000x4x32_S1600000x1_S1600000x4x32_12_0_0_1 x idx upd (ix3 n k f)
      = x (ix3 n k f)
        + ∑ e ∈ Finset.univ.filter (fun e : Fin 1600000 => (idx (ix2 e 0)).toInt = (n.val : Int)), upd (ix3 e k f) :=
  rowScatter3_apply Cert.ReferenceIdeal.Facts₀.scatter_S50000x4x32_S1600000x1_S1600000x4x32_12_0_0_1_wf x idx upd n k f

end ProgramScatters

/-! ## The two programs' whole-row gathers -/

section ProgramGathers
variable {α : Type}

/-- The kernel program's gather of the `50000 × 4` per-node, per-head scores along the edges, read at `(e, k)`: head `k` of
    the row named by edge `e`'s index. -/
theorem kernel_gather4_apply [Cert.KernelIdeal.Facts₀] (x : Cert.KernelIdeal.S50000x4.Idx → α)
    (idx : IVec Cert.KernelIdeal.S1600000x1 32) (e : Fin 1600000) (k : Fin 4) :
    Host.gather Cert.KernelIdeal.gather_S50000x4_S1600000x1_S1600000x4_1_0_n_n_0_1_14 x idx (ix2 e k)
      = x (ix2 (row (idx (ix2 e 0))) k) :=
  rowGather2_apply Cert.KernelIdeal.Facts₀.gather_S50000x4_S1600000x1_S1600000x4_1_0_n_n_0_1_14_wf (by decide) x idx e k

/-- The kernel program's gather of the `50000 × 128` projected features along the edges, read at `(e, c)`: column `c` of
    the row named by edge `e`'s index. -/
theorem kernel_gather128_apply [Cert.KernelIdeal.Facts₀] (x : Cert.KernelIdeal.S50000x128.Idx → α)
    (idx : IVec Cert.KernelIdeal.S1600000x1 32) (e : Fin 1600000) (c : Fin 128) :
    Host.gather Cert.KernelIdeal.gather_S50000x128_S1600000x1_S1600000x128_1_0_n_n_0_1_1128 x idx (ix2 e c)
      = x (ix2 (row (idx (ix2 e 0))) c) :=
  rowGather2_apply Cert.KernelIdeal.Facts₀.gather_S50000x128_S1600000x1_S1600000x128_1_0_n_n_0_1_1128_wf (by decide) x idx e c

/-- The reference program's gather of the `50000 × 4 × 32` projected features along the edges, read at `(e, k, f)`: entry
    `(k, f)` of the row named by edge `e`'s index. -/
theorem reference_gather4x32_apply [Cert.ReferenceIdeal.Facts₀] (x : Cert.ReferenceIdeal.S50000x4x32.Idx → α)
    (idx : IVec Cert.ReferenceIdeal.S1600000x1 32) (e : Fin 1600000) (k : Fin 4) (f : Fin 32) :
    Host.gather Cert.ReferenceIdeal.gather_S50000x4x32_S1600000x1_S1600000x4x32_12_0_n_n_0_1_1432 x idx (ix3 e k f)
      = x (ix3 (row (idx (ix2 e 0))) k f) :=
  rowGather3_apply Cert.ReferenceIdeal.Facts₀.gather_S50000x4x32_S1600000x1_S1600000x4x32_12_0_n_n_0_1_1432_wf (by decide)
    x idx e k f

/-- The reference program's gather of the `50000 × 4` per-node, per-head scores along the edges, read at `(e, k)`: head
    `k` of the row named by edge `e`'s index. -/
theorem reference_gather4_apply [Cert.ReferenceIdeal.Facts₀] (x : Cert.ReferenceIdeal.S50000x4.Idx → α)
    (idx : IVec Cert.ReferenceIdeal.S1600000x1 32) (e : Fin 1600000) (k : Fin 4) :
    Host.gather Cert.ReferenceIdeal.gather_S50000x4_S1600000x1_S1600000x4_1_0_n_n_0_1_14 x idx (ix2 e k)
      = x (ix2 (row (idx (ix2 e 0))) k) :=
  rowGather2_apply Cert.ReferenceIdeal.Facts₀.gather_S50000x4_S1600000x1_S1600000x4_1_0_n_n_0_1_14_wf (by decide) x idx e k

end ProgramGathers

end Cert.RowOps
-- ==== Proof.StageRead.lean ====
/-
  WHOLE STAGES OF THE TWO PROGRAMS READ AT AN INDEX, at exact arithmetic.

  Each lemma takes a run of host operations as the program spells it, over variables for the arrays that enter it, and
  says what one element of the result is. The reference program: its projection seen through the reshape into heads
  (`ref_proj_apply`: row times weight column plus bias, the column of entry `(k, f)` being `32 k + f`); its per-edge
  attention dot (`ref_att_apply`: a sum over the 32 features of the gathered row); its message (`ref_upd_apply`: gathered
  feature times gathered weight); and its last stage (`ref_out_apply`: the segment sum over the edges pointing at a
  node, summed over the four heads and divided by four). The kernel program: its segment sum seen through the same
  reshape (`ker_seg_apply`). The index arithmetic of the gathers and scatters comes from the whole-row lemmas; a
  reshape is read through the row-major position, `n · 128 + (32 k + f) = ((n · 4 + k) · 32 + f)`.
-/
import proofs.«142816_j68169720922763_2_alg».proof.Proof.LibRowGatherScatter
import Idealize.ShloMosaic.Lib.IdealHost
import Idealize.ShloMosaic.Lib.Pipeline.Value
import Idealize.ShloMosaic.Lib.StackMember

noncomputable section

open scoped BigOperators

namespace Cert.StageRead

open Idealize.ShloMosaic Idealize.ShloMosaic.ValueIdx Cert.RowOps

section Reference
open Cert.ReferenceIdeal Cert.ReferenceIdeal.Facts₀
variable [Cert.ReferenceIdeal.Facts₀]

/-- The source index over `(n, f)` with `k` inserted on the middle axis is `(n, k, f)`. -/
theorem lift_mid (hR : S50000x4x32.Reduces [1] S50000x32) (n : Fin 50000) (f : Fin 32) (k : Fin 4) :
    hR.lift (ix2 n f) k = ix3 n k f := by
  funext c; refine Fin.ext ?_
  match c with
  | ⟨0, _⟩ => rfl
  | ⟨1, _⟩ => rfl
  | ⟨2, _⟩ => rfl

/-- THE REFERENCE'S LAST STAGE READ AT `(n, f)`: the mean over the four heads of the per-head segment sums — the sum over
    the heads of the sum, over the edges whose index is `n`, of the update at `(e, k, f)`, divided by four. -/
theorem ref_out_apply (idx : IVec S1600000x1 32) (upd : FVec Ideal S1600000x4x32 .f32) (n : Fin 50000) (f : Fin 32) :
    Host.divf (F := Ideal)
        (Host.reduceAdd (F := Ideal)
          (Host.scatterAdd (F := Ideal) scatter_S50000x4x32_S1600000x1_S1600000x4x32_12_0_0_1
            (broadcastInDim S50000x4x32 ![] bcast_S_S50000x4x32 (constant (F := Ideal) S_ .f32 0x00000000#32)) idx upd)
          (constant (F := Ideal) S_ .f32 0x00000000#32) reducesTo_S50000x4x32_S50000x32_d1 h_S_)
        (broadcastInDim S50000x32 ![] bcast_S_S50000x32 (constant (F := Ideal) S_ .f32 0x40800000#32)) (ix2 n f)
      = Ideal.div
          (0 + ∑ k : Fin 4, (0 + ∑ e ∈ Finset.univ.filter (fun e : Fin 1600000 => (idx (ix2 e 0)).toInt = (n.val : Int)),
            upd (ix3 e k f)))
          (Ideal.ofBits .f32 0x40800000#32) := by
  have hR : S50000x4x32.Reduces [1] S50000x32 := by decide
  rw [hostDivf_apply, broadcastInDim_scalar_apply, constant_apply, hostReduceAdd_apply,
    Ideal.hostReduceAdd_single reducesTo_S50000x4x32_S50000x32_d1 hR, constant_apply, Ideal.ofBits_zero_f32]
  refine congrArg (fun z => Ideal.div (0 + z) (Ideal.ofBits .f32 0x40800000#32)) ?_
  refine Finset.sum_congr rfl fun (k : Fin 4) _ => ?_
  rw [lift_mid hR n f k, reference_scatterAdd_apply, broadcastInDim_scalar_apply, constant_apply, Ideal.ofBits_zero_f32]

/-- The source index over `(e, k)` with `f` inserted on the last axis is `(e, k, f)`. -/
theorem lift_last (hR : S1600000x4x32.Reduces [2] S1600000x4) (e : Fin 1600000) (k : Fin 4) (f : Fin 32) :
    hR.lift (ix2 e k) f = ix3 e k f := by
  funext c; refine Fin.ext ?_
  match c with
  | ⟨0, _⟩ => rfl
  | ⟨1, _⟩ => rfl
  | ⟨2, _⟩ => rfl

/-- A per-edge, per-head array broadcast along the feature axis reads its `(e, k)` entry at every feature. -/
theorem bcast_head_col {α : Type} (Y : S1600000x4x1.Idx → α) (e : Fin 1600000) (k : Fin 4) (f : Fin 32) :
    broadcastInDim S1600000x4x32 ![0, 1, 2] bcast_S1600000x4x1_S1600000x4x32_0_1_2 Y (ix3 e k f) = Y (ix3 e k 0) :=
  broadcastInDim_apply _ _ Y (ix3 e k f) (ix3 e k 0) (forall_fin_three.mpr
    ⟨by rw [if_neg (by decide)]; rfl, by rw [if_neg (by decide)]; rfl, by rw [if_pos (by decide)]; rfl⟩)

/-- A per-edge, per-head array given a trailing unit axis reads the same entry. -/
theorem bcast_head_unit {α : Type} (Z : S1600000x4.Idx → α) (e : Fin 1600000) (k : Fin 4) :
    broadcastInDim S1600000x4x1 ![0, 1] bcast_S1600000x4_S1600000x4x1_0_1 Z (ix3 e k 0) = Z (ix2 e k) :=
  broadcastInDim_apply _ _ Z (ix3 e k 0) (ix2 e k) (Fin.forall_fin_two.mpr
    ⟨by rw [if_neg (by decide)]; rfl, by rw [if_neg (by decide)]; rfl⟩)

/-- A per-head, per-feature vector broadcast along the edges reads its `(k, f)` entry at every edge. -/
theorem bcast_att {α : Type} (att : S1x4x32.Idx → α) (e : Fin 1600000) (k : Fin 4) (f : Fin 32) :
    broadcastInDim S1600000x4x32 ![0, 1, 2] bcast_S1x4x32_S1600000x4x32_0_1_2 att (ix3 e k f) = att (ix3 0 k f) :=
  broadcastInDim_apply _ _ att (ix3 e k f) (ix3 0 k f) (forall_fin_three.mpr
    ⟨by rw [if_pos (by decide)]; rfl, by rw [if_neg (by decide)]; rfl, by rw [if_neg (by decide)]; rfl⟩)

/-- THE REFERENCE'S MESSAGE READ AT `(e, k, f)`: the destination-side gathered feature times the source-side gathered
    attention weight of head `k`. -/
theorem ref_upd_apply (h3 : FVec Ideal S50000x4x32 .f32) (idxd : IVec S1600000x1 32) (dense : FVec Ideal S50000x4 .f32)
    (idxs : IVec S1600000x1 32) (e : Fin 1600000) (k : Fin 4) (f : Fin 32) :
    mulf (F := Ideal) (Host.gather gather_S50000x4x32_S1600000x1_S1600000x4x32_12_0_n_n_0_1_1432 h3 idxd)
        (broadcastInDim S1600000x4x32 ![0, 1, 2] bcast_S1600000x4x1_S1600000x4x32_0_1_2
          (broadcastInDim S1600000x4x1 ![0, 1] bcast_S1600000x4_S1600000x4x1_0_1
            (Host.gather gather_S50000x4_S1600000x1_S1600000x4_1_0_n_n_0_1_14 dense idxs))) (ix3 e k f)
      = h3 (ix3 (row (idxd (ix2 e 0))) k f) * dense (ix2 (row (idxs (ix2 e 0))) k) := by
  rw [mulf_apply, reference_gather4x32_apply, bcast_head_col, bcast_head_unit, reference_gather4_apply]

/-- THE REFERENCE'S PER-EDGE ATTENTION DOT READ AT `(e, k)`: the sum over the features of the gathered feature times the
    attention vector of head `k`. -/
theorem ref_att_apply (h3 : FVec Ideal S50000x4x32 .f32) (idx : IVec S1600000x1 32) (att : FVec Ideal S1x4x32 .f32)
    (e : Fin 1600000) (k : Fin 4) :
    Host.reduceAdd (F := Ideal)
        (mulf (F := Ideal) (Host.gather gather_S50000x4x32_S1600000x1_S1600000x4x32_12_0_n_n_0_1_1432 h3 idx)
          (broadcastInDim S1600000x4x32 ![0, 1, 2] bcast_S1x4x32_S1600000x4x32_0_1_2 att))
        (constant (F := Ideal) S_ .f32 0x00000000#32) reducesTo_S1600000x4x32_S1600000x4_d2 h_S_ (ix2 e k)
      = 0 + ∑ f : Fin 32, h3 (ix3 (row (idx (ix2 e 0))) k f) * att (ix3 0 k f) := by
  have hR : S1600000x4x32.Reduces [2] S1600000x4 := by decide
  rw [hostReduceAdd_apply, Ideal.hostReduceAdd_single reducesTo_S1600000x4x32_S1600000x4_d2 hR, constant_apply,
    Ideal.ofBits_zero_f32]
  refine congrArg (fun z => 0 + z) ?_
  refine Finset.sum_congr rfl fun (f : Fin 32) _ => ?_
  rw [lift_last hR e k f, mulf_apply, reference_gather4x32_apply, bcast_att]

/-- The flat column of entry `(k, f)` of a row of four heads of 32 features. -/
theorem flat_lt (k : Fin 4) (f : Fin 32) : 32 * k.val + f.val < 128 := by omega

/-- A bias row broadcast down the nodes reads its column. -/
theorem bcast_bias {α : Type} (b : S128.Idx → α) (n : Fin 50000) (c : Fin 128) :
    broadcastInDim S50000x128 ![0, 1] bcast_S1x128_S50000x128_0_1 (broadcastInDim S1x128 ![1] bcast_S128_S1x128_1 b) (ix2 n c)
      = b (ix1 c) := by
  rw [broadcastInDim_apply _ _ _ (ix2 n c) (ix2 0 c) (Fin.forall_fin_two.mpr
    ⟨by rw [if_pos (by decide)]; rfl, by rw [if_neg (by decide)]; rfl⟩)]
  exact broadcastInDim_apply _ _ b (ix2 0 c) (ix1 c) (Fin.forall_fin_one.mpr (by rw [if_neg (by decide)]; rfl))

/-- THE REFERENCE'S PROJECTION READ THROUGH ITS RESHAPE AT `(n, k, f)`: row `n` of the input times column `32 k + f` of
    the weights, plus that column's bias. -/
theorem ref_proj_apply (x : FVec Ideal S50000x128 .f32) (W : FVec Ideal S128x128 .f32) (b : FVec Ideal S128 .f32)
    (n : Fin 50000) (k : Fin 4) (f : Fin 32) :
    shapeCast S50000x4x32
        (addf (F := Ideal) (Host.dotGeneral (F := Ideal) dot_S50000x128_S128x128_S50000x128_1_0_0_1_n_n none x W)
          (broadcastInDim S50000x128 ![0, 1] bcast_S1x128_S50000x128_0_1 (broadcastInDim S1x128 ![1] bcast_S128_S1x128_1 b)))
        shapeCasts_S50000x128_S50000x4x32 (ix3 n k f)
      = (∑ j : Fin 128, x (ix2 n j) * W (ix2 j ⟨32 * k.val + f.val, by omega⟩)) + b (ix1 ⟨32 * k.val + f.val, by omega⟩) := by
  have hk : (S50000x128.rowMajor (ix2 n ⟨32 * k.val + f.val, flat_lt k f⟩)).val = (S50000x4x32.rowMajor (ix3 n k f)).val := by
    rw [Shape.rowMajor_val_two, Shape.rowMajor_val_three]
    show n.val * 128 + (32 * k.val + f.val) = (n.val * 4 + k.val) * 32 + f.val
    omega
  rw [shapeCast_apply _ _ (ix3 n k f) (ix2 n ⟨32 * k.val + f.val, flat_lt k f⟩) hk, addf_apply, bcast_bias]
  refine congrArg (fun z => z + b (ix1 ⟨32 * k.val + f.val, flat_lt k f⟩)) ?_
  exact Idealize.ShloMosaic.StackMember.dotGeneral_plain_apply none x W n ⟨32 * k.val + f.val, flat_lt k f⟩

end Reference

section Kernel
open Cert.KernelIdeal Cert.KernelIdeal.Facts₀
variable [Cert.KernelIdeal.Facts₀]

/-- THE KERNEL PROGRAM'S SEGMENT SUM READ THROUGH ITS RESHAPE AT `(n, k, f)`: the sum, over the edges whose index is `n`,
    of column `32 k + f` of the gathered row. -/
theorem ker_seg_apply (H : FVec Ideal S50000x128 .f32) (idx idxd : IVec S1600000x1 32) (n : Fin 50000) (k : Fin 4)
    (f : Fin 32) :
    shapeCast S50000x4x32
        (Host.scatterAdd (F := Ideal) scatter_S50000x128_S1600000x1_S1600000x128_1_0_0_1
          (broadcastInDim S50000x128 ![] bcast_S_S50000x128 (constant (F := Ideal) S_ .f32 0x00000000#32)) idx
          (Host.gather gather_S50000x128_S1600000x1_S1600000x128_1_0_n_n_0_1_1128 H idxd))
        shapeCasts_S50000x128_S50000x4x32 (ix3 n k f)
      = 0 + ∑ e ∈ Finset.univ.filter (fun e : Fin 1600000 => (idx (ix2 e 0)).toInt = (n.val : Int)),
          H (ix2 (row (idxd (ix2 e 0))) ⟨32 * k.val + f.val, by omega⟩) := by
  have hc : 32 * k.val + f.val < 128 := by omega
  have hk : (S50000x128.rowMajor (ix2 n ⟨32 * k.val + f.val, hc⟩)).val = (S50000x4x32.rowMajor (ix3 n k f)).val := by
    rw [Shape.rowMajor_val_two, Shape.rowMajor_val_three]
    show n.val * 128 + (32 * k.val + f.val) = (n.val * 4 + k.val) * 32 + f.val
    omega
  rw [shapeCast_apply _ _ (ix3 n k f) (ix2 n ⟨32 * k.val + f.val, hc⟩) hk, kernel_scatterAdd_apply,
    broadcastInDim_scalar_apply, constant_apply, Ideal.ofBits_zero_f32]
  refine congrArg (fun z => 0 + z) ?_
  refine Finset.sum_congr rfl fun e _ => ?_
  rw [kernel_gather128_apply]

end Kernel

end Cert.StageRead
-- ==== Proof.AlphaRead.lean ====
/-
  The attention logit of the graph-attention layer, on the reference's side, and its finiteness.

  The kernel's logit of edge e at head k is  L ((Asrc (e, k) + Adst (e, k)) + P (e, k)),  with P the two-layer
  perceptron of the edge's attributes (hidden width 32, rectified at zero) and L the leaky rectifier of slope 0.2.
  Three facts about it:
  * if every entry of the seven arrays is a real number then so is the logit: sums, products and maxima of reals are
    real, the slope's word denotes a real, and L picks one of two reals;
  * the reference's perceptron — a matrix product, a bias row repeated over the edges, a maximum against a zero
    spread over the array, a second matrix product and bias — read at one entry is P: over the extended reals a
    matrix product read at an entry is the finite sum of products over the contracted coordinate;
  * the reference's leaky rectifier — a select on the comparison with a zero spread over the array between the value
    and the slope spread over the array times the value — read at one entry is L of that entry.
-/
import proofs.«142816_j68169720922763_2_alg».proof.ReferenceIdeal
import proofs.«142816_j68169720922763_2_alg».proof.Proof.Region1
import proofs.«142816_j68169720922763_2_alg».proof.Proof.LibExtReal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open Idealize.ShloMosaic Idealize.ShloMosaic.ValueIdx
open scoped BigOperators

namespace Cert.AlphaRead

open Cert.LibExtReal Cert.KernelIdeal.Region1

/-! ## The logit of real inputs is real -/

section Real

open Cert.KernelIdeal

/-- The word of the slope 0.2 denotes a real number. -/
theorem isReal_slope : IsReal (Ideal.ofBits .f32 0x3E4CCCCD#32) :=
  isReal_of_ne (by simp [Ideal.ofBits, Ideal.ieee, -EReal.coe_mul]) (by simp [Ideal.ofBits, Ideal.ieee, -EReal.coe_mul])

/-- The leaky rectifier of a real number is a real number: it is the number or the slope times the number. -/
theorem isReal_leaky {s : EReal} (hs : IsReal s) : IsReal (leaky s) := by
  unfold leaky Scalar.select
  split
  · exact hs
  · exact isReal_slope.mul hs

/-- The perceptron of real attributes, weights and biases is a real number. -/
theorem isReal_edgeMlp (EA : S1600000x4.Idx → EReal) (W1 : S4x32.Idx → EReal) (B1 : S32.Idx → EReal)
    (W2 : S32x4.Idx → EReal) (B2 : S4.Idx → EReal)
    (hEA : ∀ i, IsReal (EA i)) (hW1 : ∀ i, IsReal (W1 i)) (hB1 : ∀ i, IsReal (B1 i)) (hW2 : ∀ i, IsReal (W2 i))
    (hB2 : ∀ i, IsReal (B2 i)) (e : Fin 1600000) (k : Fin 4) : IsReal (edgeMlp EA W1 B1 W2 B2 e k) := by
  unfold edgeMlp
  exact IsReal.add (IsReal.sum _ _ fun j _ => IsReal.mul (IsReal.max (IsReal.add
    (IsReal.sum _ _ fun i _ => (hEA _).mul (hW1 _)) (hB1 _)) isReal_zero) (hW2 _)) (hB2 _)

/-- The attention logit of real inputs is a real number. -/
theorem isReal_alpha (EA Asrc Adst : S1600000x4.Idx → EReal) (W1 : S4x32.Idx → EReal) (B1 : S32.Idx → EReal)
    (W2 : S32x4.Idx → EReal) (B2 : S4.Idx → EReal)
    (hEA : ∀ i, IsReal (EA i)) (hAsrc : ∀ i, IsReal (Asrc i)) (hAdst : ∀ i, IsReal (Adst i))
    (hW1 : ∀ i, IsReal (W1 i)) (hB1 : ∀ i, IsReal (B1 i)) (hW2 : ∀ i, IsReal (W2 i)) (hB2 : ∀ i, IsReal (B2 i))
    (e : Fin 1600000) (k : Fin 4) : IsReal (alpha EA Asrc Adst W1 B1 W2 B2 e k) := by
  unfold alpha
  exact isReal_leaky (((hAsrc _).add (hAdst _)).add (isReal_edgeMlp EA W1 B1 W2 B2 hEA hW1 hB1 hW2 hB2 e k))

end Real

/-! ## The reference's perceptron and leaky rectifier, read at one entry -/

section Reference

variable [Cert.ReferenceIdeal.Facts₀]
open Cert.ReferenceIdeal Cert.ReferenceIdeal.Facts₀

/-- A scalar spread over an array reads, at every index, the scalar. -/
theorem splat_apply {α : Type} {t : Shape} (h : S_.BroadcastsInDim t (![] : Fin 0 → Fin t.rank)) (x : S_.Idx → α)
    (j : t.Idx) : broadcastInDim t ![] h x j = x ix0 :=
  broadcastInDim_apply ![] h x j ix0 fun a => a.elim0

/-- A bias vector `[b]` placed as the row of a `[1, b]` array and repeated over `a` rows reads, at `(p, c)`, its entry `c`. -/
theorem bias_row_inDim_apply {α : Type} {a b : ℕ} (v : (⟨1, ![b]⟩ : Shape).Idx → α)
    (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2)) (p : Fin a) (c : Fin b) :
    broadcastInDim ⟨2, ![a, b]⟩ ![0, 1] h₂ (broadcastInDim ⟨2, ![1, b]⟩ ![1] h₁ v) (ix2 p c) = v (ix1 c) := by
  refine (broadcastInDim_apply ![0, 1] h₂ _ (ix2 p c) (ix2 (0 : Fin 1) c) fun ax => ?_).trans
    (broadcastInDim_apply ![1] h₁ v (ix2 (0 : Fin 1) c) (ix1 c) fun ax => ?_)
  · match ax with
    | ⟨0, _⟩ =>
      show (0 : ℕ) = if (1 : ℕ) = 1 then 0 else p.val
      rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A matrix product `[m, k] × [k, n]` on the host, read at `(a, b)` over the extended reals, is the sum over the contracted
    coordinate of the products of the entries. -/
theorem dotGeneral_rec_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- THE REFERENCE'S PERCEPTRON at edge `e`, head `k` is the kernel's: the attributes times the first weights plus the first
    bias, rectified at zero, times the second weights, plus the second bias. -/
theorem edgeMlp_ref_apply (a2 : FVec Ideal S1600000x4 .f32) (a5 : FVec Ideal S4x32 .f32) (a6 : FVec Ideal S32 .f32)
    (a7 : FVec Ideal S32x4 .f32) (a8 : FVec Ideal S4 .f32) (e : Fin 1600000) (k : Fin 4) :
    addf (Host.dotGeneral dot_S1600000x32_S32x4_S1600000x4_1_0_0_1_n_n none
        (maximumf (addf (Host.dotGeneral dot_S1600000x4_S4x32_S1600000x32_1_0_0_1_n_n none a2 a5)
            (broadcastInDim S1600000x32 ![0, 1] bcast_S1x32_S1600000x32_0_1 (broadcastInDim S1x32 ![1] bcast_S32_S1x32_1 a6)))
          (broadcastInDim S1600000x32 ![] bcast_S_S1600000x32 (constant (F := Ideal) S_ .f32 0x00000000#32))) a7)
      (broadcastInDim S1600000x4 ![0, 1] bcast_S1x4_S1600000x4_0_1 (broadcastInDim S1x4 ![1] bcast_S4_S1x4_1 a8)) (ix2 e k)
      = edgeMlp a2 a5 a6 a7 a8 e k := by
  unfold edgeMlp
  refine (addf_apply _ _ (ix2 e k)).trans (congrArg₂ (· + ·) ?_ (bias_row_inDim_apply a8 _ _ e k))
  refine (dotGeneral_rec_apply _ none _ _ e k).trans ?_
  refine Finset.sum_congr rfl fun j _ => congrArg₂ (· * ·) ?_ rfl
  refine (maximumf_apply _ _ (ix2 e j)).trans (congrArg₂ max ?_ ?_)
  · refine (addf_apply _ _ (ix2 e j)).trans (congrArg₂ (· + ·) ?_ (bias_row_inDim_apply a6 _ _ e j))
    exact dotGeneral_rec_apply _ none a2 a5 e j
  · exact (splat_apply _ _ _).trans ((constant_apply _ _).trans Ideal.ofBits_zero_f32)

/-- THE REFERENCE'S LEAKY RECTIFIER at edge `e`, head `k` is the kernel's, of the value there. -/
theorem leaky_ref_apply (x : FVec Ideal S1600000x4 .f32) (e : Fin 1600000) (k : Fin 4) :
    select (cmpf .oge x (broadcastInDim S1600000x4 ![] bcast_S_S1600000x4 (constant (F := Ideal) S_ .f32 0x00000000#32))) x
        (mulf (broadcastInDim S1600000x4 ![] bcast_S_S1600000x4 (constant (F := Ideal) S_ .f32 0x3E4CCCCD#32)) x) (ix2 e k)
      = leaky (x (ix2 e k)) := by
  show Scalar.select (FloatOps.cmpf (F := Ideal) (φ := .f32) .oge (x (ix2 e k))
        (broadcastInDim S1600000x4 ![] bcast_S_S1600000x4 (constant (F := Ideal) S_ .f32 0x00000000#32) (ix2 e k)))
      (x (ix2 e k))
      (broadcastInDim S1600000x4 ![] bcast_S_S1600000x4 (constant (F := Ideal) S_ .f32 0x3E4CCCCD#32) (ix2 e k) * x (ix2 e k)) = _
  rw [splat_apply, splat_apply, constant_apply, constant_apply, Ideal.ofBits_zero_f32]
  rfl

end Reference

end Cert.AlphaRead
-- ==== Proof.AlphaBridge.lean ====
/- The per-edge attention logits of the two programs are one function.

   The kernel program gathers, along the edges, per-node scores
       q[n, k] = Σ_f h[n, 32 k + f] · att[k, f]      (h the projection, att one row of attention weights per head),
   one gather for the source node and one for the target node of every edge, adds the two and the edge perceptron,
   and applies the leaky rectifier. The reference program first gathers the projected rows h[n, ·, ·] along the edges and
   only then takes the dot product with the attention weights, per edge. Gathering a row and then summing over its 32
   features is summing over the node's features and then gathering the sum: both are Σ_f h[row e, k, f] · att[k, f].
   The reference's projection is read through its reshape into 4 heads of 32 features, where entry (k, f) is column
   32 k + f; its attention weights carry a leading axis of extent one that the kernel program drops. The perceptron and
   the rectifier are the same functions on both sides. -/
import proofs.«142816_j68169720922763_2_alg».proof.Proof.Region0
import proofs.«142816_j68169720922763_2_alg».proof.Proof.Region1
import proofs.«142816_j68169720922763_2_alg».proof.Proof.LibRowGatherScatter
import proofs.«142816_j68169720922763_2_alg».proof.Proof.StageRead
import proofs.«142816_j68169720922763_2_alg».proof.Proof.AlphaRead
import Idealize.ShloMosaic.Lib.ValueIdx
import Idealize.ShloMosaic.Lib.ValueLayout

noncomputable section

open scoped BigOperators

namespace Cert.AlphaBridge

open Idealize.ShloMosaic Idealize.ShloMosaic.ValueIdx Cert.RowOps
open Cert.ReferenceIdeal Cert.ReferenceIdeal.Facts₀
open Cert.KernelIdeal.Region0 (headScore proj headCol)
open Cert.KernelIdeal.Region1 (alpha leaky edgeMlp)

variable [Cert.KernelIdeal.Facts₀] [Cert.ReferenceIdeal.Facts₀]

/-- THE PER-NODE SCORE IS THE REFERENCE'S PER-ROW DOT: the kernel program's score of node n at head k, with the attention
    weights' leading unit axis dropped, is the sum over the 32 features of the reference's projection, read through its
    reshape at (n, k, f), times the attention weight at (0, k, f). -/
theorem score_eq (x : FVec Ideal S50000x128 .f32) (W : FVec Ideal S128x128 .f32) (b : FVec Ideal S128 .f32)
    (att : FVec Ideal S1x4x32 .f32) (n : Fin 50000) (k : Fin 4) :
    headScore x W b (shapeCast Cert.KernelIdeal.S4x32 att Cert.KernelIdeal.Facts₀.shapeCasts_S1x4x32_S4x32) n k
      = 0 + ∑ f : Fin 32,
          shapeCast S50000x4x32
              (addf (F := Ideal) (Host.dotGeneral (F := Ideal) dot_S50000x128_S128x128_S50000x128_1_0_0_1_n_n none x W)
                (broadcastInDim S50000x128 ![0, 1] bcast_S1x128_S50000x128_0_1 (broadcastInDim S1x128 ![1] bcast_S128_S1x128_1 b)))
              shapeCasts_S50000x128_S50000x4x32 (ix3 n k f)
            * att (ix3 0 k f) := by
  rw [zero_add]
  unfold headScore
  refine Finset.sum_congr rfl fun f _ => congrArg₂ (fun u v : EReal => u * v) ?_ ?_
  · exact (Cert.StageRead.ref_proj_apply x W b n k f).symm
  · exact shapeCast_1ab_ab_apply att Cert.KernelIdeal.Facts₀.shapeCasts_S1x4x32_S4x32 k f

/-- THE TWO PROGRAMS' LOGITS AGREE at edge e and head k: the kernel program's logit over the gathered per-node scores is the
    reference's rectifier of its two per-edge dots added to its perceptron. -/
theorem alpha_bridge (x : FVec Ideal S50000x128 .f32) (W : FVec Ideal S128x128 .f32) (b : FVec Ideal S128 .f32)
    (att9 att10 : FVec Ideal S1x4x32 .f32)
    (a2 : FVec Ideal S1600000x4 .f32) (a5 : FVec Ideal S4x32 .f32) (a6 : FVec Ideal S32 .f32)
    (a7 : FVec Ideal S32x4 .f32) (a8 : FVec Ideal S4 .f32) (idxS idxD : IVec S1600000x1 32) (e : Fin 1600000) (k : Fin 4) :
    alpha a2
        (Host.gather Cert.KernelIdeal.gather_S50000x4_S1600000x1_S1600000x4_1_0_n_n_0_1_14
          (fun i : Cert.KernelIdeal.S50000x4.Idx =>
            headScore x W b (shapeCast Cert.KernelIdeal.S4x32 att9 Cert.KernelIdeal.Facts₀.shapeCasts_S1x4x32_S4x32) (i 0) (i 1)) idxS)
        (Host.gather Cert.KernelIdeal.gather_S50000x4_S1600000x1_S1600000x4_1_0_n_n_0_1_14
          (fun i : Cert.KernelIdeal.S50000x4.Idx =>
            headScore x W b (shapeCast Cert.KernelIdeal.S4x32 att10 Cert.KernelIdeal.Facts₀.shapeCasts_S1x4x32_S4x32) (i 0) (i 1)) idxD)
        a5 a6 a7 a8 e k
      = select
          (cmpf .oge
            (addf (F := Ideal)
              (addf (F := Ideal)
                (Host.reduceAdd (F := Ideal)
                  (mulf (F := Ideal)
                    (Host.gather gather_S50000x4x32_S1600000x1_S1600000x4x32_12_0_n_n_0_1_1432
                      (shapeCast S50000x4x32
                        (addf (F := Ideal) (Host.dotGeneral (F := Ideal) dot_S50000x128_S128x128_S50000x128_1_0_0_1_n_n none x W)
                          (broadcastInDim S50000x128 ![0, 1] bcast_S1x128_S50000x128_0_1 (broadcastInDim S1x128 ![1] bcast_S128_S1x128_1 b)))
                        shapeCasts_S50000x128_S50000x4x32) idxS)
                    (broadcastInDim S1600000x4x32 ![0, 1, 2] bcast_S1x4x32_S1600000x4x32_0_1_2 att9))
                  (constant (F := Ideal) S_ .f32 0x00000000#32) reducesTo_S1600000x4x32_S1600000x4_d2 h_S_)
                (Host.reduceAdd (F := Ideal)
                  (mulf (F := Ideal)
                    (Host.gather gather_S50000x4x32_S1600000x1_S1600000x4x32_12_0_n_n_0_1_1432
                      (shapeCast S50000x4x32
                        (addf (F := Ideal) (Host.dotGeneral (F := Ideal) dot_S50000x128_S128x128_S50000x128_1_0_0_1_n_n none x W)
                          (broadcastInDim S50000x128 ![0, 1] bcast_S1x128_S50000x128_0_1 (broadcastInDim S1x128 ![1] bcast_S128_S1x128_1 b)))
                        shapeCasts_S50000x128_S50000x4x32) idxD)
                    (broadcastInDim S1600000x4x32 ![0, 1, 2] bcast_S1x4x32_S1600000x4x32_0_1_2 att10))
                  (constant (F := Ideal) S_ .f32 0x00000000#32) reducesTo_S1600000x4x32_S1600000x4_d2 h_S_))
              (addf (Host.dotGeneral dot_S1600000x32_S32x4_S1600000x4_1_0_0_1_n_n none
                  (maximumf (addf (Host.dotGeneral dot_S1600000x4_S4x32_S1600000x32_1_0_0_1_n_n none a2 a5)
                      (broadcastInDim S1600000x32 ![0, 1] bcast_S1x32_S1600000x32_0_1 (broadcastInDim S1x32 ![1] bcast_S32_S1x32_1 a6)))
                    (broadcastInDim S1600000x32 ![] bcast_S_S1600000x32 (constant (F := Ideal) S_ .f32 0x00000000#32))) a7)
                (broadcastInDim S1600000x4 ![0, 1] bcast_S1x4_S1600000x4_0_1 (broadcastInDim S1x4 ![1] bcast_S4_S1x4_1 a8))))
            (broadcastInDim S1600000x4 ![] bcast_S_S1600000x4 (constant (F := Ideal) S_ .f32 0x00000000#32)))
          (addf (F := Ideal)
            (addf (F := Ideal)
              (Host.reduceAdd (F := Ideal)
                (mulf (F := Ideal)
                  (Host.gather gather_S50000x4x32_S1600000x1_S1600000x4x32_12_0_n_n_0_1_1432
                    (shapeCast S50000x4x32
                      (addf (F := Ideal) (Host.dotGeneral (F := Ideal) dot_S50000x128_S128x128_S50000x128_1_0_0_1_n_n none x W)
                        (broadcastInDim S50000x128 ![0, 1] bcast_S1x128_S50000x128_0_1 (broadcastInDim S1x128 ![1] bcast_S128_S1x128_1 b)))
                      shapeCasts_S50000x128_S50000x4x32) idxS)
                  (broadcastInDim S1600000x4x32 ![0, 1, 2] bcast_S1x4x32_S1600000x4x32_0_1_2 att9))
                (constant (F := Ideal) S_ .f32 0x00000000#32) reducesTo_S1600000x4x32_S1600000x4_d2 h_S_)
              (Host.reduceAdd (F := Ideal)
                (mulf (F := Ideal)
                  (Host.gather gather_S50000x4x32_S1600000x1_S1600000x4x32_12_0_n_n_0_1_1432
                    (shapeCast S50000x4x32
                      (addf (F := Ideal) (Host.dotGeneral (F := Ideal) dot_S50000x128_S128x128_S50000x128_1_0_0_1_n_n none x W)
                        (broadcastInDim S50000x128 ![0, 1] bcast_S1x128_S50000x128_0_1 (broadcastInDim S1x128 ![1] bcast_S128_S1x128_1 b)))
                      shapeCasts_S50000x128_S50000x4x32) idxD)
                  (broadcastInDim S1600000x4x32 ![0, 1, 2] bcast_S1x4x32_S1600000x4x32_0_1_2 att10))
                (constant (F := Ideal) S_ .f32 0x00000000#32) reducesTo_S1600000x4x32_S1600000x4_d2 h_S_))
            (addf (Host.dotGeneral dot_S1600000x32_S32x4_S1600000x4_1_0_0_1_n_n none
                (maximumf (addf (Host.dotGeneral dot_S1600000x4_S4x32_S1600000x32_1_0_0_1_n_n none a2 a5)
                    (broadcastInDim S1600000x32 ![0, 1] bcast_S1x32_S1600000x32_0_1 (broadcastInDim S1x32 ![1] bcast_S32_S1x32_1 a6)))
                  (broadcastInDim S1600000x32 ![] bcast_S_S1600000x32 (constant (F := Ideal) S_ .f32 0x00000000#32))) a7)
              (broadcastInDim S1600000x4 ![0, 1] bcast_S1x4_S1600000x4_0_1 (broadcastInDim S1x4 ![1] bcast_S4_S1x4_1 a8))))
          (mulf (broadcastInDim S1600000x4 ![] bcast_S_S1600000x4 (constant (F := Ideal) S_ .f32 0x3E4CCCCD#32))
            (addf (F := Ideal)
              (addf (F := Ideal)
                (Host.reduceAdd (F := Ideal)
                  (mulf (F := Ideal)
                    (Host.gather gather_S50000x4x32_S1600000x1_S1600000x4x32_12_0_n_n_0_1_1432
                      (shapeCast S50000x4x32
                        (addf (F := Ideal) (Host.dotGeneral (F := Ideal) dot_S50000x128_S128x128_S50000x128_1_0_0_1_n_n none x W)
                          (broadcastInDim S50000x128 ![0, 1] bcast_S1x128_S50000x128_0_1 (broadcastInDim S1x128 ![1] bcast_S128_S1x128_1 b)))
                        shapeCasts_S50000x128_S50000x4x32) idxS)
                    (broadcastInDim S1600000x4x32 ![0, 1, 2] bcast_S1x4x32_S1600000x4x32_0_1_2 att9))
                  (constant (F := Ideal) S_ .f32 0x00000000#32) reducesTo_S1600000x4x32_S1600000x4_d2 h_S_)
                (Host.reduceAdd (F := Ideal)
                  (mulf (F := Ideal)
                    (Host.gather gather_S50000x4x32_S1600000x1_S1600000x4x32_12_0_n_n_0_1_1432
                      (shapeCast S50000x4x32
                        (addf (F := Ideal) (Host.dotGeneral (F := Ideal) dot_S50000x128_S128x128_S50000x128_1_0_0_1_n_n none x W)
                          (broadcastInDim S50000x128 ![0, 1] bcast_S1x128_S50000x128_0_1 (broadcastInDim S1x128 ![1] bcast_S128_S1x128_1 b)))
                        shapeCasts_S50000x128_S50000x4x32) idxD)
                    (broadcastInDim S1600000x4x32 ![0, 1, 2] bcast_S1x4x32_S1600000x4x32_0_1_2 att10))
                  (constant (F := Ideal) S_ .f32 0x00000000#32) reducesTo_S1600000x4x32_S1600000x4_d2 h_S_))
              (addf (Host.dotGeneral dot_S1600000x32_S32x4_S1600000x4_1_0_0_1_n_n none
                  (maximumf (addf (Host.dotGeneral dot_S1600000x4_S4x32_S1600000x32_1_0_0_1_n_n none a2 a5)
                      (broadcastInDim S1600000x32 ![0, 1] bcast_S1x32_S1600000x32_0_1 (broadcastInDim S1x32 ![1] bcast_S32_S1x32_1 a6)))
                    (broadcastInDim S1600000x32 ![] bcast_S_S1600000x32 (constant (F := Ideal) S_ .f32 0x00000000#32))) a7)
                (broadcastInDim S1600000x4 ![0, 1] bcast_S1x4_S1600000x4_0_1 (broadcastInDim S1x4 ![1] bcast_S4_S1x4_1 a8)))))
          (ix2 e k) := by
  unfold alpha
  refine Eq.trans ?_ (Cert.AlphaRead.leaky_ref_apply _ e k).symm
  refine congrArg leaky ?_
  refine Eq.trans ?_ (addf_apply _ _ (ix2 e k)).symm
  refine congrArg₂ (fun u v : EReal => u + v) ?_ (Cert.AlphaRead.edgeMlp_ref_apply a2 a5 a6 a7 a8 e k).symm
  refine Eq.trans ?_ (addf_apply _ _ (ix2 e k)).symm
  refine congrArg₂ (fun u v : EReal => u + v) ?_ ?_
  · refine (kernel_gather4_apply _ idxS e k).trans ?_
    exact (score_eq x W b att9 (row (idxS (ix2 e 0))) k).trans (Cert.StageRead.ref_att_apply _ idxS att9 e k).symm
  · refine (kernel_gather4_apply _ idxD e k).trans ?_
    exact (score_eq x W b att10 (row (idxD (ix2 e 0))) k).trans (Cert.StageRead.ref_att_apply _ idxD att10 e k).symm

end Cert.AlphaBridge

end
-- ==== Proof.AttnAlgebra.lean ====
/-
  The last step of the attention layer, as pure algebra over the extended reals.

  Fix a node n and a feature f. Every edge e carries a source index, a row of the projected features (one value per
  head k), and, on the reference's side, the softmax weight it reads at its source node. The kernel first sums the
  feature rows of the node's edges and then multiplies by the node's weight, head by head, and scales by 1/4; the
  reference multiplies every edge's row by the weight and then sums, head by head, and divides by 4. The two agree
  because, on the node's own edges, the weight read is the node's weight, and a NONNEGATIVE REAL weight moves across a
  finite sum of arbitrary extended reals.
-/
import proofs.«142816_j68169720922763_2_alg».proof.Proof.LibExtReal

namespace Cert.AttnAlgebra

open Idealize.ShloMosaic Cert.LibExtReal

/-- The f32 word of 0.25 is the real 1/4. -/
theorem ofBits_quarter : Ideal.ofBits .f32 0x3E800000#32 = (((1 : ℝ) / 4 : ℝ) : EReal) := by
  simp [Ideal.ofBits, Ideal.ieee, -EReal.coe_mul]; norm_num

/-- The f32 word of 4.0 is the real 4. -/
theorem ofBits_four : Ideal.ofBits .f32 0x40800000#32 = ((4 : ℝ) : EReal) := by
  simp [Ideal.ofBits, Ideal.ieee, -EReal.coe_mul]; norm_num

/-- WEIGHT-THEN-SUM EQUALS SUM-THEN-WEIGHT at one node and one feature: hd e k is edge e's feature at head k, srcI e its
    source index, dn k the node's weight at head k (a nonnegative real), de e k the weight the reference reads for edge
    e, equal to the node's on the node's own edges. -/
theorem combine_eq {E : Type*} [Fintype E] [DecidableEq E] (hd : E → Fin 4 → EReal) (srcI : E → Int) (n : Int)
    (dn : Fin 4 → ℝ) (hdn : ∀ k, 0 ≤ dn k) (de : E → Fin 4 → EReal)
    (hde : ∀ e, srcI e = n → ∀ k, de e k = (dn k : EReal)) :
    (∑ k : Fin 4, (dn k : EReal) * (0 + ∑ e ∈ Finset.univ.filter (fun e => srcI e = n), hd e k))
        * Ideal.ofBits .f32 0x3E800000#32
      = Ideal.div (0 + ∑ k : Fin 4, (0 + ∑ e ∈ Finset.univ.filter (fun e => srcI e = n), hd e k * de e k))
          (Ideal.ofBits .f32 0x40800000#32) := by
  rw [ofBits_quarter, ofBits_four, Ideal.div_coe (by norm_num : (4 : ℝ) ≠ 0)]
  simp only [zero_add]
  refine congrArg (· * (((1 : ℝ) / 4 : ℝ) : EReal)) ?_
  refine Finset.sum_congr rfl fun k _ => ?_
  rw [mul_sum_of_nonneg _ _ (hdn k)]
  refine Finset.sum_congr rfl fun e he => ?_
  rw [hde e (Finset.mem_filter.mp he).2 k]

end Cert.AttnAlgebra
-- ==== Proof.FinalBridge.lean ====
/-
  The last step of the layer: the kernel program's combine against the reference's weighted segment mean.

  Fix a node n and a feature f. The kernel program sums, over the edges whose source index is n, column 32 k + f of the
  gathered projected row (head k, feature f), multiplies each head's sum by the node's softmax weight d (n, k), adds the
  four heads and scales by the word of one quarter. The reference multiplies every edge's gathered feature by the softmax
  weight gathered at the edge's source node, sums over the same edges head by head, adds the four heads and divides by
  the word of four. On the node's own edges the gathered weight IS the node's weight (the source index is a valid row, so
  the gather reads the row the scatter's condition names), and a nonnegative real weight moves across a finite sum of
  extended reals: the two entries are equal.
-/
import proofs.«142816_j68169720922763_2_alg».proof.Proof.Region2
import proofs.«142816_j68169720922763_2_alg».proof.Proof.StageRead
import proofs.«142816_j68169720922763_2_alg».proof.Proof.LibRowGatherScatter
import proofs.«142816_j68169720922763_2_alg».proof.Proof.AttnAlgebra

noncomputable section

open Idealize.ShloMosaic Idealize.ShloMosaic.ValueIdx
open scoped BigOperators

namespace Cert.FinalBridge

open Cert.RowOps Cert.StageRead
open Cert.ReferenceIdeal Cert.ReferenceIdeal.Facts₀

variable [Cert.KernelIdeal.Facts₀] [Cert.ReferenceIdeal.Facts₀]

/-- THE TWO LAST STAGES AGREE at node `n`, feature `f`: the kernel program's combine of the softmax weights with its segment
    sums of gathered projected rows is the reference's mean over the heads of the segment sums of weighted gathered
    features — for weights that are nonnegative reals, source indices that are valid rows, and the reference's
    head-shaped features the kernel program's flat ones. -/
theorem final_bridge (H : FVec Ideal S50000x128 .f32) (H3 : FVec Ideal S50000x4x32 .f32)
    (hH3 : ∀ (n : Fin 50000) (k : Fin 4) (f : Fin 32), H3 (ix3 n k f) = H (ix2 n ⟨32 * k.val + f.val, by omega⟩))
    (dense : FVec Ideal S50000x4 .f32) (d : Fin 50000 → Fin 4 → ℝ) (hd0 : ∀ n k, 0 ≤ d n k)
    (hdense : ∀ n k, dense (ix2 n k) = (d n k : EReal))
    (idxS idxD : IVec S1600000x1 32)
    (hS : ∀ e : Fin 1600000, 0 ≤ (idxS (ix2 e 0)).toInt ∧ (idxS (ix2 e 0)).toInt < 50000)
    (n : Fin 50000) (f : Fin 32) :
    Cert.KernelIdeal.Region2.combine dense
        (shapeCast S50000x4x32
          (Host.scatterAdd (F := Ideal) Cert.KernelIdeal.scatter_S50000x128_S1600000x1_S1600000x128_1_0_0_1
            (broadcastInDim S50000x128 ![] Cert.KernelIdeal.Facts₀.bcast_S_S50000x128
              (constant (F := Ideal) S_ .f32 0x00000000#32)) idxS
            (Host.gather Cert.KernelIdeal.gather_S50000x128_S1600000x1_S1600000x128_1_0_n_n_0_1_1128 H idxD))
          Cert.KernelIdeal.Facts₀.shapeCasts_S50000x128_S50000x4x32) n f
      = Host.divf (F := Ideal)
          (Host.reduceAdd (F := Ideal)
            (Host.scatterAdd (F := Ideal) scatter_S50000x4x32_S1600000x1_S1600000x4x32_12_0_0_1
              (broadcastInDim S50000x4x32 ![] bcast_S_S50000x4x32 (constant (F := Ideal) S_ .f32 0x00000000#32)) idxS
              (mulf (F := Ideal) (Host.gather gather_S50000x4x32_S1600000x1_S1600000x4x32_12_0_n_n_0_1_1432 H3 idxD)
                (broadcastInDim S1600000x4x32 ![0, 1, 2] bcast_S1600000x4x1_S1600000x4x32_0_1_2
                  (broadcastInDim S1600000x4x1 ![0, 1] bcast_S1600000x4_S1600000x4x1_0_1
                    (Host.gather gather_S50000x4_S1600000x1_S1600000x4_1_0_n_n_0_1_14 dense idxS)))))
            (constant (F := Ideal) S_ .f32 0x00000000#32) reducesTo_S50000x4x32_S50000x32_d1 h_S_)
          (broadcastInDim S50000x32 ![] bcast_S_S50000x32 (constant (F := Ideal) S_ .f32 0x40800000#32)) (ix2 n f) := by
  refine Eq.trans ?_ (Eq.trans (Cert.AttnAlgebra.combine_eq
    (fun (e : Fin 1600000) (k : Fin 4) => H (ix2 (row (idxD (ix2 e 0))) ⟨32 * k.val + f.val, by omega⟩))
    (fun e => (idxS (ix2 e 0)).toInt) (n.val : Int) (d n) (hd0 n)
    (fun e k => dense (ix2 (row (idxS (ix2 e 0))) k))
    (fun e he k => by rw [(toInt_eq_iff_row_eq _ (hS e).1 (hS e).2 n).mp he, hdense])) ?_)
  · unfold Cert.KernelIdeal.Region2.combine
    refine congrArg (· * Ideal.ofBits .f32 0x3E800000#32) (Finset.sum_congr rfl fun k _ => ?_)
    exact congrArg₂ (· * ·) (hdense n k) (ker_seg_apply H idxS idxD n k f)
  · refine Eq.symm ((ref_out_apply idxS _ n f).trans ?_)
    refine congrArg (fun z => Ideal.div (0 + z) (Ideal.ofBits .f32 0x40800000#32))
      (Finset.sum_congr rfl fun k _ => congrArg (fun z => 0 + z) (Finset.sum_congr rfl fun e _ => ?_))
    rw [ref_upd_apply, hH3]

end Cert.FinalBridge
-- ==== Proof.ScoreReal.lean ====
/-
  Finiteness of the projection and of the attention scores.

  The projected feature of a node is a row of the node features against a column of the weights plus a bias entry, and
  a node's attention score at a head is that head's 32 projected features against the head's attention vector. Both are
  finite sums of products of entries (plus one entry): when every entry of the arrays is a real number, so are they.
-/
import proofs.«142816_j68169720922763_2_alg».proof.Proof.Region0
import proofs.«142816_j68169720922763_2_alg».proof.Proof.LibExtReal

noncomputable section

open Idealize.ShloMosaic Idealize.ShloMosaic.ValueIdx
open scoped BigOperators

namespace Cert.ScoreReal

open Cert.KernelIdeal Cert.KernelIdeal.Region0 Cert.LibExtReal

variable (X : S50000x128.Idx → EReal) (Wt : S128x128.Idx → EReal) (B : S128.Idx → EReal)

/-- A projected feature of real node features, weights and bias is a real number. -/
theorem isReal_proj (hX : ∀ i, IsReal (X i)) (hW : ∀ i, IsReal (Wt i)) (hB : ∀ i, IsReal (B i))
    (n : Fin 50000) (j : Fin 128) : IsReal (proj X Wt B n j) := by
  unfold proj
  exact IsReal.add (IsReal.sum _ _ fun k _ => (hX _).mul (hW _)) (hB _)

/-- An attention score of real node features, weights, bias and attention vectors is a real number. -/
theorem isReal_headScore (A : S4x32.Idx → EReal) (hX : ∀ i, IsReal (X i)) (hW : ∀ i, IsReal (Wt i))
    (hB : ∀ i, IsReal (B i)) (hA : ∀ i, IsReal (A i)) (n : Fin 50000) (k : Fin 4) :
    IsReal (headScore X Wt B A n k) := by
  unfold headScore
  exact IsReal.sum _ _ fun f _ => (isReal_proj X Wt B hX hW hB n (headCol k f)).mul (hA _)

end Cert.ScoreReal
-- ==== Proof.LibRowScatterMax.lean ====
/-
  A SCATTER WHOSE BODY IS THE SIGNED MAXIMUM DOMINATES EVERY UPDATE THAT LANDS.

  The host scatter is a left fold over the update indices: each step replaces the operand's element at the update's
  landing index by the body applied to that element and the update. When the body is the maximum of two words read as
  signed integers, a step never lowers any element in the signed order, and it raises the landing element to at least
  the update. So after the whole fold, the element at an index is at least every update that lands there — whatever the
  order of the fold. This is proved for every scatter (`scatter_maxsi_ge`), then read for the scalar-per-edge scatter into
  a vector of `N` rows (update `e` lands at row `idx[e]`, read signed, when that is a row), and stated for the two
  programs of this certificate.
-/
import proofs.«142816_j68169720922763_2_alg».proof.KernelIdeal
import proofs.«142816_j68169720922763_2_alg».proof.ReferenceIdeal
import Idealize.ShloMosaic.Lib.ValueIdx

noncomputable section

namespace Cert.RowOps

open Idealize.ShloMosaic Idealize.ShloMosaic.ValueIdx

/-! ## The signed maximum of two words -/

/-- The signed maximum is at least its first operand … -/
theorem maxsi_toInt_left {v : Nat} (a b : BitVec v) : a.toInt ≤ (IntOp.maxsi a b).toInt := by
  unfold IntOp.maxsi
  by_cases h : b.slt a = true
  · rw [if_pos h]
  · rw [if_neg h]
    have : ¬ b.toInt < a.toInt := fun hlt => h (by simp [BitVec.slt, hlt])
    omega

/-- … and at least its second. -/
theorem maxsi_toInt_right {v : Nat} (a b : BitVec v) : b.toInt ≤ (IntOp.maxsi a b).toInt := by
  unfold IntOp.maxsi
  by_cases h : b.slt a = true
  · rw [if_pos h]
    have : b.toInt < a.toInt := by simpa [BitVec.slt] using h
    omega
  · rw [if_neg h]

/-! ## The fold -/

section Fold
variable {s si u : Shape} {w v : Nat}

/-- One step of the scatter with the signed maximum as its body: update number `n` (in row-major order) raises the
    element it lands on to the maximum of that element and the update; an update that lands nowhere changes nothing. -/
def maxStep (d : ScatterDims s si u) (idx : IVec si w) (upd : IVec u v) (r : IVec s v) (n : Fin u.numel) : IVec s v :=
  match d.resultIdx? (u.rowMajor.symm n) idx with
  | some i => fun i' => if i' = i then IntOp.maxsi (r i) (upd (u.rowMajor.symm n)) else r i'
  | none => r

/-- The scatter is the left fold of that step over the update numbers. -/
theorem scatter_maxsi_eq_foldl (d : ScatterDims s si u) (x : IVec s v) (idx : IVec si w) (upd : IVec u v) :
    Host.scatter d IntOp.maxsi x idx upd = (List.finRange u.numel).foldl (maxStep d idx upd) x := rfl

variable (d : ScatterDims s si u) (idx : IVec si w) (upd : IVec u v)

/-- A step whose update lands at `i`. -/
theorem maxStep_some (r : IVec s v) (n : Fin u.numel) (i : s.Idx) (h : d.resultIdx? (u.rowMajor.symm n) idx = some i) :
    maxStep d idx upd r n = fun i' => if i' = i then IntOp.maxsi (r i) (upd (u.rowMajor.symm n)) else r i' := by
  unfold maxStep; rw [h]

/-- A step whose update lands nowhere. -/
theorem maxStep_none (r : IVec s v) (n : Fin u.numel) (h : d.resultIdx? (u.rowMajor.symm n) idx = none) :
    maxStep d idx upd r n = r := by
  unfold maxStep; rw [h]

/-- A step lowers no element in the signed order. -/
theorem maxStep_mono (r : IVec s v) (n : Fin u.numel) (i' : s.Idx) : (r i').toInt ≤ (maxStep d idx upd r n i').toInt := by
  cases h : d.resultIdx? (u.rowMajor.symm n) idx with
  | none => rw [maxStep_none d idx upd r n h]
  | some i =>
    rw [maxStep_some d idx upd r n i h]
    show (r i').toInt ≤ (if i' = i then IntOp.maxsi (r i) (upd (u.rowMajor.symm n)) else r i').toInt
    by_cases hi : i' = i
    · rw [if_pos hi, hi]; exact maxsi_toInt_left _ _
    · rw [if_neg hi]

/-- Neither does any run of steps. -/
theorem foldl_maxStep_mono (l : List (Fin u.numel)) :
    ∀ (r : IVec s v) (i' : s.Idx), (r i').toInt ≤ (l.foldl (maxStep d idx upd) r i').toInt := by
  induction l with
  | nil => intro r i'; exact le_refl _
  | cons n l ih =>
    intro r i'
    rw [List.foldl_cons]
    exact le_trans (maxStep_mono d idx upd r n i') (ih _ i')

/-- After a run of steps, the element at `i0` is at least every update of the run that lands at `i0`. -/
theorem foldl_maxStep_ge (l : List (Fin u.numel)) :
    ∀ (r : IVec s v) (n0 : Fin u.numel), n0 ∈ l → ∀ i0 : s.Idx, d.resultIdx? (u.rowMajor.symm n0) idx = some i0 →
      (upd (u.rowMajor.symm n0)).toInt ≤ (l.foldl (maxStep d idx upd) r i0).toInt := by
  induction l with
  | nil => intro r n0 h; exact absurd h List.not_mem_nil
  | cons n l ih =>
    intro r n0 hmem i0 hres
    rw [List.foldl_cons]
    rcases List.mem_cons.mp hmem with heq | hmem'
    · subst heq
      refine le_trans ?_ (foldl_maxStep_mono d idx upd l _ i0)
      rw [maxStep_some d idx upd r n0 i0 hres]
      show (upd (u.rowMajor.symm n0)).toInt ≤ (if i0 = i0 then IntOp.maxsi (r i0) (upd (u.rowMajor.symm n0)) else r i0).toInt
      rw [if_pos rfl]; exact maxsi_toInt_right _ _
    · exact ih _ n0 hmem' i0 hres

/-- THE SCATTER-MAX DOMINATES ITS UPDATES: if update `j` lands at `i0`, the result at `i0` is at least `upd j` in the
    signed order. -/
theorem scatter_maxsi_ge (x : IVec s v) (j : u.Idx) (i0 : s.Idx) (h : d.resultIdx? j idx = some i0) :
    (upd j).toInt ≤ (Host.scatter d IntOp.maxsi x idx upd i0).toInt := by
  rw [scatter_maxsi_eq_foldl]
  have key := foldl_maxStep_ge d idx upd (List.finRange u.numel) x (u.rowMajor j) (List.mem_finRange _) i0
    (by rw [Equiv.symm_apply_apply]; exact h)
  rwa [Equiv.symm_apply_apply] at key

end Fold

/-! ## One scalar update per edge, scattered into a vector of `N` rows -/

section Scatter1
variable {N E w : Nat}

/-- The dimension numbers of a scatter of one scalar per edge into a vector, the row named by the edge's index. -/
abbrev rowScatter1 (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- The scatter index update `e` reads: edge `e`'s, in the index array's one column. -/
theorem rowScatter1_siIdx (e : Fin E) (q : Fin (rowScatter1 wf).scatterDimsToOperandDims.length) :
    (rowScatter1 wf).siIdx (ix1 e) q = ix2 e 0 := by
  funext b; refine Fin.ext ?_
  match b with
  | ⟨0, _⟩ => rfl
  | ⟨1, _⟩ =>
    have : q.val = 0 := by have := q.isLt; simpa using this
    show q.val = 0
    exact this

/-- The window starts at the edge's index, read signed (and not clamped). -/
theorem rowScatter1_start_zero (e : Fin E) (idx : IVec ⟨2, ![E, 1]⟩ w) :
    (rowScatter1 wf).start (ix1 e) idx 0 = (idx (ix2 e 0)).toInt := by
  unfold ScatterDims.start
  rw [dif_pos (show (0 : Fin 1) ∈ (rowScatter1 wf).scatterDimsToOperandDims from List.mem_singleton.mpr rfl)]
  rw [rowScatter1_siIdx]

/-- The operand's one axis is inserted: no window coordinate. -/
theorem rowScatter1_window_zero (e : Fin E) : (rowScatter1 wf).window (ix1 e) 0 = 0 := by
  unfold ScatterDims.window
  have h : ¬ (0 : Fin 1) ∈ (rowScatter1 wf).sKept := by
    show ¬ (0 : Fin 1) ∈ ([] : List (Fin 1)); decide
  rw [dif_neg h]

/-- Where update `e` lands: at row `n` exactly when edge `e`'s index, read signed, is `n`. -/
theorem rowScatter1_resultIdx?_iff (e : Fin E) (idx : IVec ⟨2, ![E, 1]⟩ w) (n : Fin N) :
    (rowScatter1 wf).resultIdx? (ix1 e) idx = some (ix1 n) ↔ (idx (ix2 e 0)).toInt = (n.val : Int) := by
  have hs0 := rowScatter1_start_zero wf e idx
  have hw0 := rowScatter1_window_zero wf e
  unfold ScatterDims.resultIdx?
  constructor
  · intro h
    split at h
    · rename_i hall
      have h' := Option.some.inj h
      have h0 : ((rowScatter1 wf).start (ix1 e) idx 0 + ((rowScatter1 wf).window (ix1 e) 0 : Nat)).toNat = n.val :=
        congrArg Fin.val (congrFun h' 0)
      have a0 := (hall 0).1
      rw [hs0, hw0] at h0 a0
      omega
    · exact absurd h (by simp)
  · intro hA
    have hall : ∀ a, 0 ≤ (rowScatter1 wf).start (ix1 e) idx a + ((rowScatter1 wf).window (ix1 e) a : Nat) ∧
        (rowScatter1 wf).start (ix1 e) idx a + ((rowScatter1 wf).window (ix1 e) a : Nat)
          < ((⟨1, ![N]⟩ : Shape).size a : Nat) := by
      refine Fin.forall_fin_one.mpr ?_
      rw [hs0, hw0, hA]
      show (0 : Int) ≤ (n.val : Int) + ((0 : Nat) : Int) ∧ (n.val : Int) + ((0 : Nat) : Int) < ((N : Nat) : Int)
      have := n.isLt; omega
    rw [dif_pos hall]
    congr 1
    funext a; refine Fin.ext ?_
    revert a
    refine Fin.forall_fin_one.mpr ?_
    show ((rowScatter1 wf).start (ix1 e) idx 0 + ((rowScatter1 wf).window (ix1 e) 0 : Nat)).toNat = n.val
    rw [hs0, hw0, hA]; omega

/-- The scatter-max into a vector, at row `n`, is at least the update of every edge whose index is `n`. -/
theorem rowScatter1_maxsi_ge {v : Nat} (x : IVec ⟨1, ![N]⟩ v) (idx : IVec ⟨2, ![E, 1]⟩ w) (upd : IVec ⟨1, ![E]⟩ v)
    (e : Fin E) (n : Fin N) (h : (idx (ix2 e 0)).toInt = (n.val : Int)) :
    (upd (ix1 e)).toInt ≤ (Host.scatter (rowScatter1 wf) IntOp.maxsi x idx upd (ix1 n)).toInt :=
  scatter_maxsi_ge (rowScatter1 wf) idx upd x (ix1 e) (ix1 n) ((rowScatter1_resultIdx?_iff wf e idx n).mpr h)

end Scatter1

/-! ## The two programs' segment maxima -/

section ProgramScatterMax

/-- The kernel program's segment maximum: at node `n` it is at least the value of every edge whose index is `n`. -/
theorem k_scatterMax_ge [Cert.KernelIdeal.Facts₀] (x : IVec Cert.KernelIdeal.S50000 32)
    (idx : IVec Cert.KernelIdeal.S1600000x1 32) (upd : IVec Cert.KernelIdeal.S1600000 32) (e : Fin 1600000) (n : Fin 50000)
    (h : (idx (ix2 e 0)).toInt = (n.val : Int)) :
    (upd (ix1 e)).toInt
      ≤ (Host.scatter Cert.KernelIdeal.scatter_S50000_S1600000x1_S1600000_n_0_0_1 IntOp.maxsi x idx upd (ix1 n)).toInt :=
  rowScatter1_maxsi_ge Cert.KernelIdeal.Facts₀.scatter_S50000_S1600000x1_S1600000_n_0_0_1_wf x idx upd e n h

/-- The reference program's segment maximum: at node `n` it is at least the value of every edge whose index is `n`. -/
theorem r_scatterMax_ge [Cert.ReferenceIdeal.Facts₀] (x : IVec Cert.ReferenceIdeal.S50000 32)
    (idx : IVec Cert.ReferenceIdeal.S1600000x1 32) (upd : IVec Cert.ReferenceIdeal.S1600000 32) (e : Fin 1600000) (n : Fin 50000)
    (h : (idx (ix2 e 0)).toInt = (n.val : Int)) :
    (upd (ix1 e)).toInt
      ≤ (Host.scatter Cert.ReferenceIdeal.scatter_S50000_S1600000x1_S1600000_n_0_0_1 IntOp.maxsi x idx upd (ix1 n)).toInt :=
  rowScatter1_maxsi_ge Cert.ReferenceIdeal.Facts₀.scatter_S50000_S1600000x1_S1600000_n_0_0_1_wf x idx upd e n h

end ProgramScatterMax

end Cert.RowOps
-- ==== Proof.ArrayBridge.lean ====
/-
  The two programs' results as functions of the argument ARRAYS, and their equality.

  Kernel: the per-edge scores are region 1's closed form over gathered per-node head scores (region 0's closed form);
  the result is region 2's weighted head sum over the per-node neighbour sums. Reference: the stage functions of its
  run. With every float argument real and every source index in [0, 50000):
    * wrapping a nonnegative index does nothing;
    * the per-edge scores agree (the gather of a per-node contraction is the contraction of the gathered rows);
    * the scores are real, so the softmax weights are nonnegative reals;
    * weighting after summing equals summing after weighting.
-/
import proofs.«142816_j68169720922763_2_alg».proof.Proof.RefRun
import proofs.«142816_j68169720922763_2_alg».proof.Proof.AlphaBridge
import proofs.«142816_j68169720922763_2_alg».proof.Proof.FinalBridge
import proofs.«142816_j68169720922763_2_alg».proof.Proof.ScoreReal
import proofs.«142816_j68169720922763_2_alg».proof.Proof.AlphaRead
import proofs.«142816_j68169720922763_2_alg».proof.Proof.DenseChain
import proofs.«142816_j68169720922763_2_alg».proof.Proof.LibRowScatterMax
import Idealize.ShloMosaic.Lib.Affine

set_option maxRecDepth 16384

noncomputable section

namespace Cert.ArrayBridge

open Idealize.ShloMosaic Idealize.ShloMosaic.ValueIdx Cert.LibExtReal Cert.RowOps
open Cert.ReferenceIdeal Cert.ReferenceIdeal.Facts₀ Cert.ReferenceIdeal.RefRun

variable [Cert.KernelIdeal.Facts₀] [Cert.ReferenceIdeal.Facts₀]

/-- Wrapping a negative index does nothing to a row of nonnegative indices. -/
theorem wrapIdx_eq (i : IVec S1600000 32) (h : ∀ j, 0 ≤ (i j).toInt) : wrapIdx i = i := by
  funext j
  unfold wrapIdx
  rw [select_apply]
  have hc : cmpi .slt i (broadcastInDim S1600000 ![] bcast_S_S1600000 (constantI S_ 32 0#32)) j = 0#1 := by
    refine eq_zero_of_ne_one fun h1 => ?_
    have h2 : (i j).toInt < ((broadcastInDim S1600000 ![] bcast_S_S1600000 (constantI S_ 32 0#32)) j).toInt :=
      IntOp.cmpi_slt.mp h1
    rw [broadcastInDim_scalar_apply, constantI_apply] at h2
    have h0 : (0#32 : BitVec 32).toInt = 0 := by decide
    rw [h0] at h2
    exact absurd (h j) (not_le.mpr h2)
  rw [hc, select_zero]

/-- The index column a row gather reads: the wrapped row, one index per edge. -/
def wrapB (i : IVec S1600000 32) : IVec S1600000x1 32 :=
  broadcastInDim S1600000x1 ![0] bcast_S1600000_S1600000x1_0 (wrapIdx i)

section Arrays

variable (a0 : FVec Ideal S50000x128 .f32) (a2 : FVec Ideal S1600000x4 .f32) (a3 : FVec Ideal S128x128 .f32)
  (a4 : FVec Ideal S128 .f32) (a5 : FVec Ideal S4x32 .f32) (a6 : FVec Ideal S32 .f32) (a7 : FVec Ideal S32x4 .f32)
  (a8 : FVec Ideal S4 .f32) (a9 a10 : FVec Ideal S1x4x32 .f32) (src dst : IVec S1600000 32)

/-- The kernel's per-node head scores against one attention vector. -/
def qK (att : FVec Ideal S1x4x32 .f32) : Cert.KernelIdeal.S50000x4.Idx → EReal :=
  fun i => Cert.KernelIdeal.Region0.headScore a0 a3 a4
    (shapeCast Cert.KernelIdeal.S4x32 att Cert.KernelIdeal.Facts₀.shapeCasts_S1x4x32_S4x32) (i 0) (i 1)

/-- The kernel's per-edge scores. -/
def alphaK : FVec Ideal S1600000x4 .f32 :=
  fun i => Cert.KernelIdeal.Region1.alpha a2
    (Host.gather Cert.KernelIdeal.gather_S50000x4_S1600000x1_S1600000x4_1_0_n_n_0_1_14 (qK a0 a3 a4 a9) (wrapB src))
    (Host.gather Cert.KernelIdeal.gather_S50000x4_S1600000x1_S1600000x4_1_0_n_n_0_1_14 (qK a0 a3 a4 a10) (wrapB dst))
    a5 a6 a7 a8 (i 0) (i 1)

/-- THE PER-EDGE SCORES AGREE. -/
theorem alphaK_eq : alphaK a0 a2 a3 a4 a5 a6 a7 a8 a9 a10 src dst = alpha (h3 a0 a3 a4) src dst a2 a5 a6 a7 a8 a9 a10 := by
  funext i
  obtain ⟨e, k, rfl⟩ : ∃ (e : Fin 1600000) (k : Fin 4), i = ix2 e k := ⟨i 0, i 1, eq_ix2 i⟩
  exact Cert.AlphaBridge.alpha_bridge a0 a3 a4 a9 a10 a2 a5 a6 a7 a8 (wrapB src) (wrapB dst) e k

/-- With real arguments the kernel's per-edge scores are real. -/
theorem alphaK_real (h0 : ∀ i, IsReal (a0 i)) (h2 : ∀ i, IsReal (a2 i)) (h3' : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (i : S1600000x4.Idx) :
    IsReal (alphaK a0 a2 a3 a4 a5 a6 a7 a8 a9 a10 src dst i) := by
  unfold alphaK
  refine Cert.AlphaRead.isReal_alpha _ _ _ _ _ _ _ h2 (fun j => ?_) (fun j => ?_) h5 h6 h7 h8 _ _
  · show IsReal (qK a0 a3 a4 a9 _)
    exact Cert.ScoreReal.isReal_headScore a0 a3 a4 _ h0 h3' h4 (fun t => by unfold shapeCast; exact h9 _) _ _
  · show IsReal (qK a0 a3 a4 a10 _)
    exact Cert.ScoreReal.isReal_headScore a0 a3 a4 _ h0 h3' h4 (fun t => by unfold shapeCast; exact h10 _) _ _

/-- The reference's weights are the column softmax of the logits chain. -/
theorem dense_eq (al : FVec Ideal S1600000x4 .f32) :
    dense al src
      = Cert.SoftmaxRead.softmaxCols
          (Cert.DenseChain.logits scatter_S50000_S1600000x1_S1600000_n_0_0_1 gather_S1600000x4_S50000x1_S50000x4_1_0_n_n_0_1_14
            bcast_S_S50000 bcast_S1600000_S1600000x1_0 bcast_S50000_S50000x1_0 bcast_S50000x1_S50000x4_0_1 bcast_S_S50000x4 al src)
          bcast_S_S4 bcast_S4_S1x4_1 bcast_S1x4_S50000x4_0_1 reducesTo_S50000x4_S4_d0 h_S_ := rfl

/-- With real scores and in-range source indices every weight is a nonnegative real. -/
theorem dense_nonneg_real (al : FVec Ideal S1600000x4 .f32) (hal : ∀ i, IsReal (al i))
    (hsrc : ∀ j, 0 ≤ (src j).toInt ∧ (src j).toInt < 50000) (n : Fin 50000) (k : Fin 4) :
    ∃ d : ℝ, 0 ≤ d ∧ dense al src (ix2 n k) = (d : EReal) := by
  rw [dense_eq]
  obtain ⟨h0l, h0u⟩ := hsrc (ix1 (0 : Fin 1600000))
  have hlt : (src (ix1 (0 : Fin 1600000))).toInt.toNat < 50000 := by omega
  have hn0 : (src (ix1 (0 : Fin 1600000))).toInt = ((⟨_, hlt⟩ : Fin 50000).val : Int) := (Int.toNat_of_nonneg h0l).symm
  have hv := Cert.DenseChain.valid_of_edge scatter_S50000_S1600000x1_S1600000_n_0_0_1 bcast_S_S50000 bcast_S1600000_S1600000x1_0
    (fun x idx upd e n h => r_scatterMax_ge x idx upd e n h) src 0 ⟨_, hlt⟩ hn0
  refine Cert.SoftmaxRead.softmaxCols_nonneg_real _
    (Cert.DenseChain.logits_bot_or_real _ _ _ _ _ _ _ al hal src) ⟨_, hlt⟩ (fun k' => ?_) _ _ _ _ _ n k
  rw [Cert.DenseChain.logits_apply, hv, select_one]
  exact hal _

end Arrays

end Cert.ArrayBridge

end
-- ==== Proof.OutBridge.lean ====
/-
  The output identity at the level of arrays: region 2's weighted head sum over the kernel's neighbour sums equals the
  reference's last stage, for real float arguments and source indices in [0, 50000).
-/
import proofs.«142816_j68169720922763_2_alg».proof.Proof.ArrayBridge

set_option maxRecDepth 16384

noncomputable section

namespace Cert.OutBridge

open Idealize.ShloMosaic Idealize.ShloMosaic.ValueIdx Cert.LibExtReal Cert.RowOps Cert.ArrayBridge
open Cert.ReferenceIdeal Cert.ReferenceIdeal.Facts₀ Cert.ReferenceIdeal.RefRun

variable [Cert.KernelIdeal.Facts₀] [Cert.ReferenceIdeal.Facts₀]

variable (a0 : FVec Ideal S50000x128 .f32) (a2 : FVec Ideal S1600000x4 .f32) (a3 : FVec Ideal S128x128 .f32)
  (a4 : FVec Ideal S128 .f32) (a5 : FVec Ideal S4x32 .f32) (a6 : FVec Ideal S32 .f32) (a7 : FVec Ideal S32x4 .f32)
  (a8 : FVec Ideal S4 .f32) (a9 a10 : FVec Ideal S1x4x32 .f32) (src dst : IVec S1600000 32)

/-- The kernel's projected node features as one array. -/
def projK : FVec Ideal S50000x128 .f32 := fun i => Cert.KernelIdeal.Region0.proj a0 a3 a4 (i 0) (i 1)

/-- The reference's projected features, head by head, are the kernel's projected row read at column 32 k + f. -/
theorem h3_projK (n : Fin 50000) (k : Fin 4) (f : Fin 32) :
    h3 a0 a3 a4 (ix3 n k f) = projK a0 a3 a4 (ix2 n ⟨32 * k.val + f.val, by omega⟩) :=
  Cert.StageRead.ref_proj_apply a0 a3 a4 n k f

/-- The kernel's neighbour sums, as region 2 finds them. -/
def segK : FVec Ideal S50000x4x32 .f32 :=
  shapeCast S50000x4x32
    (Host.scatterAdd (F := Ideal) Cert.KernelIdeal.scatter_S50000x128_S1600000x1_S1600000x128_1_0_0_1
      (broadcastInDim S50000x128 ![] Cert.KernelIdeal.Facts₀.bcast_S_S50000x128 (constant (F := Ideal) S_ .f32 0x00000000#32))
      (broadcastInDim S1600000x1 ![0] bcast_S1600000_S1600000x1_0 src)
      (Host.gather Cert.KernelIdeal.gather_S50000x128_S1600000x1_S1600000x128_1_0_n_n_0_1_1128 (projK a0 a3 a4) (wrapB dst)))
    Cert.KernelIdeal.Facts₀.shapeCasts_S50000x128_S50000x4x32

/-- THE OUTPUT IDENTITY. -/
theorem out_eq (h0 : ∀ i, IsReal (a0 i)) (h2 : ∀ i, IsReal (a2 i)) (h3' : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i))
    (hsrc : ∀ j, 0 ≤ (src j).toInt ∧ (src j).toInt < 50000) (n : Fin 50000) (f : Fin 32) :
    Cert.KernelIdeal.Region2.combine (dense (alphaK a0 a2 a3 a4 a5 a6 a7 a8 a9 a10 src dst) src) (segK a0 a3 a4 src dst) n f
      = result (h3 a0 a3 a4) (dense (alpha (h3 a0 a3 a4) src dst a2 a5 a6 a7 a8 a9 a10) src) src dst (ix2 n f) := by
  rw [← alphaK_eq]
  choose d hd0 hd using fun n k => dense_nonneg_real src (alphaK a0 a2 a3 a4 a5 a6 a7 a8 a9 a10 src dst)
    (alphaK_real a0 a2 a3 a4 a5 a6 a7 a8 a9 a10 src dst h0 h2 h3' h4 h5 h6 h7 h8 h9 h10) hsrc n k
  have hw : wrapIdx src = src := wrapIdx_eq src fun j => (hsrc j).1
  have hS : ∀ e : Fin 1600000, 0 ≤ ((broadcastInDim S1600000x1 ![0] bcast_S1600000_S1600000x1_0 src) (ix2 e 0)).toInt
      ∧ ((broadcastInDim S1600000x1 ![0] bcast_S1600000_S1600000x1_0 src) (ix2 e 0)).toInt < 50000 := by
    intro e
    rw [broadcastInDim_apply ![0] bcast_S1600000_S1600000x1_0 src (ix2 e (0 : Fin 1)) (ix1 e)
      (fun a => by match a with | ⟨0, _⟩ => rfl)]
    exact hsrc _
  have hfb := Cert.FinalBridge.final_bridge (projK a0 a3 a4) (h3 a0 a3 a4) (h3_projK a0 a3 a4)
    (dense (alphaK a0 a2 a3 a4 a5 a6 a7 a8 a9 a10 src dst) src) d hd0 hd
    (broadcastInDim S1600000x1 ![0] bcast_S1600000_S1600000x1_0 src) (wrapB dst) hS n f
  unfold result aggregated messages rowsAt
  rw [hw]
  exact hfb

end Cert.OutBridge

end
-- ==== Proof.MemBridge.lean ====
/-
  The kernel's result buffer, from the launch memory: region 2's weighted head sum, with the weights the column softmax
  of the kernel's per-edge scores and the sums the kernel's neighbour sums, each a function of the argument arrays.
-/
import proofs.«142816_j68169720922763_2_alg».proof.Proof.KernelRun
import proofs.«142816_j68169720922763_2_alg».proof.Proof.KernelValue
import proofs.«142816_j68169720922763_2_alg».proof.Proof.KernelWalk01
import proofs.«142816_j68169720922763_2_alg».proof.Proof.Region0
import proofs.«142816_j68169720922763_2_alg».proof.Proof.Region1
import proofs.«142816_j68169720922763_2_alg».proof.Proof.Region2
import proofs.«142816_j68169720922763_2_alg».proof.Proof.OutBridge

set_option maxRecDepth 16384
set_option pp.maxSteps 30000
set_option pp.proofs false

noncomputable section

namespace Cert.MemBridge

open Cert.KernelIdeal Cert.KernelIdeal.Gen Cert.KernelIdeal.Walk01 Cert.KernelIdeal.KValue
open Idealize.ShloMosaic Idealize.ShloMosaic.TcCoe Idealize.SL.Sem Idealize.ShloMosaic.ValueIdx
open Cert.ReferenceIdeal.RefRun (srcIdx dstIdx dense)
open Cert.ArrayBridge (alphaK qK wrapB)
open Cert.OutBridge (projK segK)

variable (m : (ℓ : Loc nD τ sig) → Buf (Elt Ideal) ℓ) (ρ : Dev nD → PrngReg) (c : Dev nD)

/-- After region 0 the source row is the first row of the edge table. -/
theorem src_W2 : W2 (F := Ideal) m ρ c (Proc.devRef .tc main_v1) = srcIdx (m ((c : Thread nD τ).loc main_arg1)) :=
  (W2_main_v1 m ρ c).trans (W1_main_v1 m ρ c)

theorem dst_W2 : W2 (F := Ideal) m ρ c (Proc.devRef .tc main_v3) = dstIdx (m ((c : Thread nD τ).loc main_arg1)) :=
  (W2_main_v3 m ρ c).trans (W1_main_v3 m ρ c)

theorem src_W4 : W4 (F := Ideal) m ρ c (Proc.devRef .tc main_v1) = srcIdx (m ((c : Thread nD τ).loc main_arg1)) :=
  (W4_main_v1 m ρ c).trans (W1_main_v1 m ρ c)

theorem dst_W4 : W4 (F := Ideal) m ρ c (Proc.devRef .tc main_v3) = dstIdx (m ((c : Thread nD τ).loc main_arg1)) :=
  (W4_main_v3 m ρ c).trans (W1_main_v3 m ρ c)

/-- Region 0 leaves the per-node head scores against the source vector. -/
theorem qsrc_W2 : W2 (F := Ideal) m ρ c (Proc.devRef .tc main_v6_1) = qK (m ((c : Thread nD τ).loc main_arg0)) (m ((c : Thread nD τ).loc main_arg3)) (m ((c : Thread nD τ).loc main_arg4)) (m ((c : Thread nD τ).loc main_arg9)) := by
  rw [W2_main_v6_1, Region0.qsrc_arr (V1 m ρ) c]
  funext i
  have h := congr (congr (congr (congrArg (fun a b d e => Region0.headScore a b d e (i 0) (i 1)) (V1_main_arg0 m ρ c))
    (V1_main_arg3 m ρ c)) (V1_main_arg4 m ρ c)) (V1_main_v4 m ρ c)
  exact h

theorem qdst_W2 : W2 (F := Ideal) m ρ c (Proc.devRef .tc main_v6_2) = qK (m ((c : Thread nD τ).loc main_arg0)) (m ((c : Thread nD τ).loc main_arg3)) (m ((c : Thread nD τ).loc main_arg4)) (m ((c : Thread nD τ).loc main_arg10)) := by
  rw [W2_main_v6_2, Region0.qdst_arr (V1 m ρ) c]
  funext i
  have h := congr (congr (congr (congrArg (fun a b d e => Region0.headScore a b d e (i 0) (i 1)) (V1_main_arg0 m ρ c))
    (V1_main_arg3 m ρ c)) (V1_main_arg4 m ρ c)) (V1_main_v5 m ρ c)
  exact h

/-- Region 0 leaves the projected node features. -/
theorem proj_W4 : W4 (F := Ideal) m ρ c (Proc.devRef .tc main_v6_0) = projK (m ((c : Thread nD τ).loc main_arg0)) (m ((c : Thread nD τ).loc main_arg3)) (m ((c : Thread nD τ).loc main_arg4)) := by
  rw [W4_main_v6_0, Region0.h_arr (V1 m ρ) c]
  funext i
  have h := congr (congr (congrArg (fun a b d => Region0.proj a b d (i 0) (i 1)) (V1_main_arg0 m ρ c))
    (V1_main_arg3 m ρ c)) (V1_main_arg4 m ρ c)
  exact h

/-- Region 1's source-term window: the head scores gathered at each edge's source. -/
theorem asrc_V3 : V3 (F := Ideal) m ρ c main_v13
    = Host.gather gather_S50000x4_S1600000x1_S1600000x4_1_0_n_n_0_1_14 (qK (m ((c : Thread nD τ).loc main_arg0)) (m ((c : Thread nD τ).loc main_arg3)) (m ((c : Thread nD τ).loc main_arg4)) (m ((c : Thread nD τ).loc main_arg9))) (wrapB (srcIdx (m ((c : Thread nD τ).loc main_arg1)))) := by
  refine (V3_main_v13 m ρ c).trans ?_
  rw [qsrc_W2, src_W2]
  rfl

/-- Region 1's target-term window: the head scores gathered at each edge's target. -/
theorem adst_V3 : V3 (F := Ideal) m ρ c main_v20
    = Host.gather gather_S50000x4_S1600000x1_S1600000x4_1_0_n_n_0_1_14 (qK (m ((c : Thread nD τ).loc main_arg0)) (m ((c : Thread nD τ).loc main_arg3)) (m ((c : Thread nD τ).loc main_arg4)) (m ((c : Thread nD τ).loc main_arg10))) (wrapB (dstIdx (m ((c : Thread nD τ).loc main_arg1)))) := by
  refine (V3_main_v20 m ρ c).trans ?_
  rw [qdst_W2, dst_W2]
  rfl

/-- Region 1 leaves the kernel's per-edge scores of the argument arrays. -/
theorem alpha_mem : W4 (F := Ideal) m ρ c (Proc.devRef .tc main_v21)
    = alphaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (srcIdx (m ((c : Thread nD τ).loc main_arg1))) (dstIdx (m ((c : Thread nD τ).loc main_arg1))) := by
  rw [W4_main_v21, Region1.alpha_arr (V3 m ρ) c]
  funext i
  have h := congr (congr (congr (congr (congr (congr (congrArg
    (fun x0 x1 x2 x3 x4 x5 x6 => Region1.alpha x0 x1 x2 x3 x4 x5 x6 (i 0) (i 1)) (V3_main_arg2 m ρ c)) (asrc_V3 m ρ c)) (adst_V3 m ρ c))
    (V3_main_arg5 m ρ c)) (V3_main_arg6 m ρ c)) (V3_main_arg7 m ρ c)) (V3_main_arg8 m ρ c)
  exact h

/-- THE KERNEL'S RESULT at (n, f). -/
theorem kernel_value (n : Fin 50000) (f : Fin 32) :
    (W10 (F := Ideal) m ρ c (Proc.devRef .tc main_v60) : S50000x32.Idx → EReal) (ix2 n f)
      = Region2.combine (dense (alphaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (srcIdx (m ((c : Thread nD τ).loc main_arg1))) (dstIdx (m ((c : Thread nD τ).loc main_arg1)))) (srcIdx (m ((c : Thread nD τ).loc main_arg1))))
          (segK (m ((c : Thread nD τ).loc main_arg0)) (m ((c : Thread nD τ).loc main_arg3)) (m ((c : Thread nD τ).loc main_arg4)) (srcIdx (m ((c : Thread nD τ).loc main_arg1))) (dstIdx (m ((c : Thread nD τ).loc main_arg1)))) n f := by
  rw [Cert.KernelIdeal.KRun.result_arr, Region2.out_arr_apply (V9 m ρ) c n f]
  have g0 : V9 (F := Ideal) m ρ c main_v48
      = dense (alphaK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (srcIdx (m ((c : Thread nD τ).loc main_arg1))) (dstIdx (m ((c : Thread nD τ).loc main_arg1)))) (srcIdx (m ((c : Thread nD τ).loc main_arg1))) :=
    (V9_v48 m ρ c).trans (by rw [alpha_mem, src_W4]; rfl)
  have g1 : V9 (F := Ideal) m ρ c main_v59 = segK (m ((c : Thread nD τ).loc main_arg0)) (m ((c : Thread nD τ).loc main_arg3)) (m ((c : Thread nD τ).loc main_arg4)) (srcIdx (m ((c : Thread nD τ).loc main_arg1))) (dstIdx (m ((c : Thread nD τ).loc main_arg1))) :=
    (V9_v59 m ρ c).trans (by rw [src_W4, dst_W4, proj_W4]; rfl)
  have h := congr (congrArg (fun D S => Region2.combine D S n f) g0) g1
  exact h

end Cert.MemBridge

end
-- ==== Proof.PreFacts.lean ====
/-
  What the precondition says, element by element.

  The precondition is a conjunction of twelve "all elements satisfy" tests, each an and-reduction of a comparison array
  to one bit. Ten of them compare the absolute value of a float argument with plus infinity: at the extended reals,
  |x| < +inf holds exactly when x is a real number. The last two compare the source row of the edge index array with 0
  and with the number of nodes: every source index, read signed, lies in [0, 50000).
-/
import proofs.«142816_j68169720922763_2_alg».proof.Pre_finite_inputs
import proofs.«142816_j68169720922763_2_alg».proof.Proof.LibExtReal
import Idealize.ShloMosaic.PureOps.Ideal
import Idealize.ShloMosaic.Lib.ValueIdx
import Idealize.ShloMosaic.Lib.ReduceAll
import Idealize.ShloMosaic.Lib.Affine

namespace Cert.PreFacts

open Idealize.ShloMosaic Idealize.ShloMosaic.ValueIdx Cert.Pre_finite_inputs Cert.LibExtReal

instance : Subsingleton S_.Idx := ⟨fun a b => funext fun d => d.elim0⟩

/-- At the extended reals, |x| < +inf says that x is a real number. -/
theorem isReal_of_abs_lt {x : EReal}
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    unfold Ideal.cmp at h
    by_contra hn
    simp [hn] at h
  refine isReal_of_ne ?_ ?_
  · rintro rfl; simp at hlt
  · rintro rfl; simp at hlt

/-- One float argument: if the and-reduction of |a| < +inf over all of a is 1, every element of a is real. -/
theorem all_real {s : Shape} {axes : List (Fin s.rank)} (a top : FVec Ideal s .f32)
    (htop : ∀ i, top i = Ideal.ofBits .f32 0x7F800000#32)
    (init : S_.Idx → BitVec 1) (h : s.ReducesTo axes S_) (hu : 0 < S_.numel)
    (e : Host.reduce IntOp.andi (cmpf .olt (Host.absf a) top) init h hu ix0 = 1#1) (i : s.Idx) : IsReal (a i) := by
  have hi := Host.reduce_andi_all _ init h hu ix0 e i
  rw [show cmpf CmpFPredicate.olt (Host.absf a) top i = Ideal.cmp .olt (max (a i) (-(a i))) (top i) from rfl, htop i] at hi
  exact isReal_of_abs_lt hi

/-- The source row of the edge index array: row 0 of the [2, E] array as a vector of E words. -/
abbrev srcRow (a1 : IVec S2x1600000 32) (hs : S2x1600000.Slices ![0, 0] S1x1600000) (hc : S1x1600000.ShapeCasts S1600000) :
    IVec S1600000 32 :=
  shapeCast S1600000 (extractStridedSlice S1x1600000 ![0, 0] a1 hs) hc

/-- A lower bound read off an and-reduced signed comparison. -/
theorem all_sge (v z : IVec S1600000 32) (init : S_.Idx → BitVec 1) (h : S1600000.ReducesTo [0] S_) (hu : 0 < S_.numel)
    (e : Host.reduce IntOp.andi (cmpi .sge v z) init h hu ix0 = 1#1) (i : S1600000.Idx) : (z i).toInt ≤ (v i).toInt := by
  have hi := Host.reduce_andi_all _ init h hu ix0 e i
  exact IntOp.cmpi_sge.mp hi

/-- An upper bound read off an and-reduced signed comparison. -/
theorem all_slt (v z : IVec S1600000 32) (init : S_.Idx → BitVec 1) (h : S1600000.ReducesTo [0] S_) (hu : 0 < S_.numel)
    (e : Host.reduce IntOp.andi (cmpi .slt v z) init h hu ix0 = 1#1) (i : S1600000.Idx) : (v i).toInt < (z i).toInt := by
  have hi := Host.reduce_andi_all _ init h hu ix0 e i
  exact IntOp.cmpi_slt.mp hi

/-- THE PRECONDITION, ELEMENT BY ELEMENT: every float argument holds real numbers, and every source index lies in
    [0, 50000). -/
theorem of_pre [Cert.Pre_finite_inputs.Facts] (a0 : FVec Ideal S50000x128 .f32) (a1 : IVec S2x1600000 32)
    (a2 : FVec Ideal S1600000x4 .f32) (a3 : FVec Ideal S128x128 .f32) (a4 : FVec Ideal S128 .f32)
    (a5 : FVec Ideal S4x32 .f32) (a6 : FVec Ideal S32 .f32) (a7 : FVec Ideal S32x4 .f32) (a8 : FVec Ideal S4 .f32)
    (a9 : FVec Ideal S1x4x32 .f32) (a10 : FVec Ideal S1x4x32 .f32)
    (h : Cert.Pre_finite_inputs.fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ (hs : S2x1600000.Slices ![0, 0] S1x1600000) (hc : S1x1600000.ShapeCasts S1600000) (i : S1600000.Idx),
          0 ≤ (srcRow a1 hs hc i).toInt ∧ (srcRow a1 hs hc i).toInt < 50000) := by
  have h0 := congrFun h ix0
  dsimp only [Cert.Pre_finite_inputs.fn, fn_part1, fn_part2, fn_part3] at h0
  simp only [andi, IntOp.andi_eq_one] at h0
  obtain ⟨⟨⟨⟨⟨⟨⟨⟨⟨⟨⟨e0, e2⟩, e3⟩, e4⟩, e5⟩, e6⟩, e7⟩, e8⟩, e9⟩, e10⟩, eg⟩, el⟩ := h0
  refine ⟨all_real a0 _ (fun _ => rfl) _ _ _ e0, all_real a2 _ (fun _ => rfl) _ _ _ e2,
    all_real a3 _ (fun _ => rfl) _ _ _ e3, all_real a4 _ (fun _ => rfl) _ _ _ e4, all_real a5 _ (fun _ => rfl) _ _ _ e5,
    all_real a6 _ (fun _ => rfl) _ _ _ e6, all_real a7 _ (fun _ => rfl) _ _ _ e7, all_real a8 _ (fun _ => rfl) _ _ _ e8,
    all_real a9 _ (fun _ => rfl) _ _ _ e9, all_real a10 _ (fun _ => rfl) _ _ _ e10, fun hs hc i => ⟨?_, ?_⟩⟩
  · exact all_sge _ _ _ _ _ eg i
  · exact all_slt _ _ _ _ _ el i

end Cert.PreFacts
-- ==== Proof.lean ====
/-
  A graph-attention layer over 50000 nodes and 1600000 edges, 4 heads of 32 features, against its reference.

  Both programs compute, per edge and head, a score (the source's and the target's projected features each contracted
  with a learned vector, plus a two-layer perceptron of the edge's attributes, through a leaky rectifier); per node and
  head the softmax, over all nodes, of the score of the node's last outgoing edge; and per node the head-average of its
  outgoing edges' target features weighted by the node's softmax weight. The kernel computes the projection and the
  per-node contractions in one pipelined region and gathers the scalars per edge, where the reference gathers the rows
  and contracts per edge: the same sums. The kernel sums each node's neighbour rows first and multiplies by the node's
  weight afterwards, where the reference multiplies every edge's row and then sums: equal because the weight is a
  nonnegative real number, which holds because the scores are real (every float argument is) and some node has an
  outgoing edge. The source indices are assumed to lie in [0, 50000): for a negative source index the reference wraps
  the index where the kernel drops the edge.

  The frames of the two kernel programs are the generated ones; the reference's frame is its run with the result
  dropped. No operation was rewritten by the idealization, so the preservation claim is empty.
-/
import proofs.«142816_j68169720922763_2_alg».proof.Defs
import proofs.«142816_j68169720922763_2_alg».proof.Proof.Gen.Kernel
import proofs.«142816_j68169720922763_2_alg».proof.Proof.Gen.Kernel.Frame
import proofs.«142816_j68169720922763_2_alg».proof.Proof.Gen.KernelIdeal
import proofs.«142816_j68169720922763_2_alg».proof.Proof.Gen.KernelIdeal.Frame
import proofs.«142816_j68169720922763_2_alg».proof.Proof.Gen.ReferenceIdeal
import proofs.«142816_j68169720922763_2_alg».proof.Proof.Gen.Pre_finite_inputs
import proofs.«142816_j68169720922763_2_alg».proof.Proof.MemBridge
import proofs.«142816_j68169720922763_2_alg».proof.Proof.RefRun
import proofs.«142816_j68169720922763_2_alg».proof.Proof.PreFacts
import Idealize.ShloMosaic.Adequacy
import Idealize.ShloMosaic.Init

set_option maxRecDepth 16384

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs run, and the reference's result is the kernel's: at each
    node and feature the reference's last stage is region 2's weighted head sum over the kernel's neighbour sums. -/
theorem algebraic : Cert.algebraic_KernelIdeal_ReferenceIdeal := by
  intro m ρ m' ρ' hpre hagree
  refine ⟨fun c => Cert.KernelIdeal.Gen.W10 m ρ c (Proc.devRef .tc Cert.KernelIdeal.main_v60),
    Cert.KernelIdeal.KRun.run_value m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]
  funext i
  obtain ⟨n, f, rfl⟩ : ∃ (n : Fin 50000) (f : Fin 32), i = ix2 n f := ⟨i 0, i 1, eq_ix2 i⟩
  obtain ⟨r0, r2, r3, r4, r5, r6, r7, r8, r9, r10, rs⟩ := Cert.PreFacts.of_pre _ _ _ _ _ _ _ _ _ _ _ (hpre c)
  refine Eq.trans ?_ (Cert.MemBridge.kernel_value m ρ c n f).symm
  exact (Cert.OutBridge.out_eq _ _ _ _ _ _ _ _ _ _ _ _ r0 r2 r3 r4 r5 r6 r7 r8 r9 r10 (fun j => rs _ _ j) n f).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
